-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : IVec S8192 32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S1024x256 : Shape := ⟨2, ![1024, 256]⟩
abbrev S1024x1 : Shape := ⟨2, ![1024, 1]⟩
abbrev S1x1024 : Shape := ⟨2, ![1, 1024]⟩
abbrev S256x1024 : Shape := ⟨2, ![256, 1024]⟩
abbrev S1024x1024 : Shape := ⟨2, ![1024, 1024]⟩
abbrev S1024 : Shape := ⟨1, ![1024]⟩

abbrev nBuf : Space → Nat
  | .hbm => 26
  | .vmem => 16
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .bf16⟩
  | .hbm, ⟨13, _⟩ => ⟨S8192x256, .f32⟩
  | .hbm, ⟨14, _⟩ => ⟨S8192x256, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .i32⟩
  | .hbm, ⟨19, _⟩ => ⟨S1x8192, .i32⟩
  | .hbm, ⟨20, _⟩ => ⟨S1x8192, .f32⟩
  | .hbm, ⟨21, _⟩ => ⟨S8192x1, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .i32⟩
  | .local _ .vmem, ⟨4, _⟩ => ⟨S1024x1, .i32⟩
  | .local _ .vmem, ⟨5, _⟩ => ⟨S1x8192, .i32⟩
  | .local _ .vmem, ⟨6, _⟩ => ⟨S1024x1, .f32⟩
  | .local _ .vmem, ⟨7, _⟩ => ⟨S1024x1, .f32⟩
  | .local _ .vmem, ⟨8, _⟩ => ⟨S1x1024, .f32⟩
  | .local _ .vmem, ⟨9, _⟩ => ⟨S1x1024, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | .local _ .vmem, ⟨14, _⟩ => ⟨S1024x1, .f32⟩
  | .local _ .vmem, ⟨15, _⟩ => ⟨S1024x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v5 : BitVec 32 := Scalar.muli arg1 c1024_i32
  v5
def k0_off1 (i : grid0.Coords) : Fin 2 → Nat :=
  let arg1 : BitVec 32 := BitVec.ofNat 32 (i 1).val
  let c1024_i32 : BitVec 32 := 1024#32
  let v5 : BitVec 32 := Scalar.muli arg1 c1024_i32
  let v6 : BitVec 32 := v5
  let v7 : Index := Scalar.indexCast v6
  let c0_2 : Index := 0#32
  ![v7.toNat, 0]
def k0_off2 (i : grid0.Coords) : Fin 2 → Nat :=
  let c0_10 : Index := 0#32
  let arg1 : BitVec 32 := BitVec.ofNat 32 (i 1).val
  let c1024_i32 : BitVec 32 := 1024#32
  let v5 : BitVec 32 := Scalar.muli arg1 c1024_i32
  let v6 : BitVec 32 := v5
  let v24 : Index := Scalar.indexCast v6
  ![0, v24.toNat]
def k0_cond2 (i : grid0.Coords) : BitVec 1 :=
  let arg1 : BitVec 32 := BitVec.ofNat 32 (i 1).val
  let c7_i32 : BitVec 32 := 7#32
  let v90 : BitVec 1 := Scalar.cmpi .eq arg1 c7_i32
  let v91 : BitVec 32 := Scalar.extui v90
  let c0_i32_43 : BitVec 32 := 0#32
  let v92 : BitVec 1 := Scalar.cmpi .ne v91 c0_i32_43
  v92

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x8192 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bitsLt_bf16_f32 : FTy.bits .bf16 < FTy.bits .f32
  shapeCasts_S8192_S8192x1 : S8192.ShapeCasts S8192x1
  shapeCasts_S8192_S1x8192 : S8192.ShapeCasts S1x8192
  shapeCasts_S8192x1_S1x8192 : S8192x1.ShapeCasts S1x8192
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  transposes_S1024x256_p1_0_S256x1024 : S1024x256.Transposes [1, 0] S256x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  iota_S1024x1_d0_w32 : S1024x1.Iotas .tc 32 [0]
  iota_S1x1024_d1_w32 : S1x1024.Iotas .tc 32 [1]
  reduces_S1024x1024_S1024 : S1024x1024.Reduces [1] S1024
  shapeCasts_S1024_S1024x1 : S1024.ShapeCasts S1024x1
  natLt_1_32 : 1 < 32
  reducesTo_S8192x1_S_d0_1 : S8192x1.ReducesTo [0, 1] S_
  dot_S1024x256_S256x1024_S1024x1024_1_0_0_1_n_n_wf : DotDims.WF S1024x256 S256x1024 S1024x1024 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  k0_off2_inb : ∀ i : grid0.Coords, ∀ a, (k0_off2 i) a + S1x1024.size a ≤ S1x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x8192.size a ≤ S1x8192.size a
  hwx0_3 : ∀ i : grid0.Coords, EltTy.bits .i32 = 32 ∨ (Rect.block (s := S1x8192) S1x8192.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x8192.size a
  hwx0_5 : ∀ i : grid0.Coords, EltTy.bits .f32 = 32 ∨ (Rect.block (s := S1x8192) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1.size a ≤ S8192x1.size a
  hwx0_6 : ∀ i : grid0.Coords, EltTy.bits .f32 = 32 ∨ (Rect.block (s := S8192x1) S1024x1.size (cc0_transform_6 i) (hinb0_6 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf

abbrev win0_0 : Pipeline.Window sig grid0 :=
  Pipeline.Window.ofSpec (Memref.whole main_v5) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x8192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1024x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S8192x256 : Shape := ⟨2, ![8192, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 78
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x256, .f32⟩
  | .hbm, ⟨11, _⟩ => ⟨S8192x256, .f32⟩
  | .hbm, ⟨12, _⟩ => ⟨S8192x256, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S1x8192, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S256x8192, .f32⟩
  | .hbm, ⟨21, _⟩ => ⟨S8192x8192, .f32⟩
  | .hbm, ⟨22, _⟩ => ⟨S_, .f32⟩
  | .hbm, ⟨23, _⟩ => ⟨S8192x8192, .f32⟩
  | .hbm, ⟨24, _⟩ => ⟨S8192x8192, .f32⟩
  | .hbm, ⟨25, _⟩ => ⟨S8192x8192, .f32⟩
  | .hbm, ⟨26, _⟩ => ⟨S_, .f32⟩
  | .hbm, ⟨27, _⟩ => ⟨S_, .f32⟩
  | .hbm, ⟨28, _⟩ => ⟨S8192x8192, .f32⟩
  | .hbm, ⟨29, _⟩ => ⟨S8192x8192, .f32⟩
  | .hbm, ⟨30, _⟩ => ⟨S8192x8192, .f32⟩
  | .hbm, ⟨31, _⟩ => ⟨S8192x1, .i32⟩
  | .hbm, ⟨32, _⟩ => ⟨S1x8192, .i32⟩
  | .hbm, ⟨33, _⟩ => ⟨S8192x8192, .i32⟩
  | .hbm, ⟨34, _⟩ => ⟨S8192x8192, .i32⟩
  | .hbm, ⟨35, _⟩ => ⟨S8192x8192, .i1⟩
  | .hbm, ⟨36, _⟩ => ⟨S8192x8192, .i32⟩
  | .hbm, ⟨37, _⟩ => ⟨S8192x8192, .i32⟩
  | .hbm, ⟨38, _⟩ => ⟨S_, .i32⟩
  | .hbm, ⟨39, _⟩ => ⟨S8192x8192, .i32⟩
  | .hbm, ⟨40, _⟩ => ⟨S8192x8192, .i32⟩
  | .hbm, ⟨41, _⟩ => ⟨S8192x8192, .i1⟩
  | .hbm, ⟨42, _⟩ => ⟨S8192x8192, .i1⟩
  | .hbm, ⟨43, _⟩ => ⟨S8192x8192, .i1⟩
  | .hbm, ⟨44, _⟩ => ⟨S8192x8192, .i1⟩
  | .hbm, ⟨45, _⟩ => ⟨S_, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192, .f32⟩
  | .hbm, ⟨50, _⟩ => ⟨S_, .i1⟩
  | .hbm, ⟨51, _⟩ => ⟨S8192, .i1⟩
  | .hbm, ⟨52, _⟩ => ⟨S_, .f32⟩
  | .hbm, ⟨53, _⟩ => ⟨S_, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192, .f32⟩
  | .hbm, ⟨61, _⟩ => ⟨S_, .i1⟩
  | .hbm, ⟨62, _⟩ => ⟨S8192, .i1⟩
  | .hbm, ⟨63, _⟩ => ⟨S_, .f32⟩
  | .hbm, ⟨64, _⟩ => ⟨S_, .f32⟩
  | .hbm, ⟨65, _⟩ => ⟨S8192, .f32⟩
  | .hbm, ⟨66, _⟩ => ⟨S8192, .f32⟩
  | .hbm, ⟨67, _⟩ => ⟨S8192, .f32⟩
  | .hbm, ⟨68, _⟩ => ⟨S_, .f32⟩
  | .hbm, ⟨69, _⟩ => ⟨S8192, .f32⟩
  | .hbm, ⟨70, _⟩ => ⟨S8192, .f32⟩
  | .hbm, ⟨71, _⟩ => ⟨S_, .f32⟩
  | .hbm, ⟨72, _⟩ => ⟨S8192, .f32⟩
  | .hbm, ⟨73, _⟩ => ⟨S8192, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_v1 : Ref sig .tc := ⟨.hbm, 4, rfl⟩
abbrev main_call0_v2 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call1_v0 : Ref sig .tc := ⟨.hbm, 27, rfl⟩
abbrev main_call1_v1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_call2_v0 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_c_5 : Ref sig .tc := ⟨.hbm, 50, rfl⟩
abbrev main_v34 : Ref sig .tc := ⟨.hbm, 51, rfl⟩
abbrev main_cst_6 : Ref sig .tc := ⟨.hbm, 52, rfl⟩
abbrev main_call3_v0 : Ref sig .tc := ⟨.hbm, 53, rfl⟩
abbrev main_call3_v1 : Ref sig .tc := ⟨.hbm, 54, rfl⟩
abbrev main_v35 : Ref sig .tc := ⟨.hbm, 55, rfl⟩
abbrev main_cst_7 : Ref sig .tc := ⟨.hbm, 56, rfl⟩
abbrev main_call4_v0 : Ref sig .tc := ⟨.hbm, 57, rfl⟩
abbrev main_v36 : Ref sig .tc := ⟨.hbm, 58, rfl⟩
abbrev main_cst_8 : Ref sig .tc := ⟨.hbm, 59, rfl⟩
abbrev main_v37 : Ref sig .tc := ⟨.hbm, 60, rfl⟩
abbrev main_c_9 : Ref sig .tc := ⟨.hbm, 61, rfl⟩
abbrev main_v38 : Ref sig .tc := ⟨.hbm, 62, rfl⟩
abbrev main_cst_10 : Ref sig .tc := ⟨.hbm, 63, rfl⟩
abbrev main_call5_v0 : Ref sig .tc := ⟨.hbm, 64, rfl⟩
abbrev main_call5_v1 : Ref sig .tc := ⟨.hbm, 65, rfl⟩
abbrev main_v39 : Ref sig .tc := ⟨.hbm, 66, rfl⟩
abbrev main_v40 : Ref sig .tc := ⟨.hbm, 67, rfl⟩
abbrev main_cst_11 : Ref sig .tc := ⟨.hbm, 68, rfl⟩
abbrev main_v41 : Ref sig .tc := ⟨.hbm, 69, rfl⟩
abbrev main_v42 : Ref sig .tc := ⟨.hbm, 70, rfl⟩
abbrev main_cst_12 : Ref sig .tc := ⟨.hbm, 71, rfl⟩
abbrev main_v43 : Ref sig .tc := ⟨.hbm, 72, rfl⟩
abbrev main_v44 : Ref sig .tc := ⟨.hbm, 73, rfl⟩
abbrev main_cst_13 : Ref sig .tc := ⟨.hbm, 74, rfl⟩
abbrev main_v45 : Ref sig .tc := ⟨.hbm, 75, rfl⟩
abbrev main_cst_14 : Ref sig .tc := ⟨.hbm, 76, rfl⟩
abbrev main_v46 : Ref sig .tc := ⟨.hbm, 77, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x256_0_1 : S8192x1.BroadcastsInDim S8192x256 (![0, 1] : Fin 2 → Fin S8192x256.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.BitStep.lean ====
/-
  One grid point of the kernel as pure functions of what it reads.

  At grid point (i, j) the body reads: the row tile of the scaled features (1024 rows), the WHOLE scaled feature
  array — of which it takes the 1024 rows of column tile j —, the row tile of the labels, the WHOLE label row — of
  which it takes the 1024 entries of column tile j —, the row tile of squared lengths as a column and the column
  tile of squared lengths as a row. From these it forms the 1024×1024 tile of squared distances and the tile of
  label agreements, and folds them into four per-row accumulators carried in scratch: the running maximum over
  positives, the running minimum over negatives, and two flags saying a positive / a negative has been seen.
  At j = 0 the accumulators restart from −∞, +∞, 0, 0; at the last column tile the row losses are formed from them.
  Every function here is the body's own arithmetic (the payload terms), only named by what it means.
-/
import proofs.«135942_j20263655702978_2_alg».proof.Proof.Gen.Kernel.Skeleton
import Idealize.ShloMosaic.Lib.Pipeline.FrameBody

noncomputable section

namespace Cert.Kernel.Step

open Cert.Kernel Cert.Kernel.Gen
open Idealize.ShloMosaic

variable {F : FTy → Type} [FloatOps F]

/-- The rows of column tile `j` out of the whole feature array, and the entries of column tile `j` of the label row. -/
def colX (i : grid0.Coords) (x3 : Vec F S8192x256 .bf16) : Vec F S1024x256 .bf16 :=
  View.ld x3 (Rect.unit (s := S8192x256) (k0_off1 i) S1024x256.size (k0_off1_inb i))
def colT (i : grid0.Coords) (t5 : Vec F S1x8192 .i32) : Vec F S1x1024 .i32 :=
  View.ld t5 (Rect.unit (s := S1x8192) (k0_off2 i) S1x1024.size (k0_off2_inb i))

/-- The tile of squared distances and the tile of label agreements at the point. -/
def dist (i : grid0.Coords) (x2 : Vec F S1024x256 .bf16) (x3 : Vec F S8192x256 .bf16) (s6 : Vec F S1024x1 .f32) (s7 : Vec F S1x1024 .f32) :
    FVec F S1024x1024 .f32 := k0_pay9 x2 (colX i x3) s6 s7
def agree (i : grid0.Coords) (t4 : Vec F S1024x1 .i32) (t5 : Vec F S1x8192 .i32) : IVec S1024x1024 1 :=
  k0_pay10 (F := F) t4 (colT i t5)

/-- The four accumulators after the point, from the tiles and the accumulators before it. -/
def next0 (i : grid0.Coords) (x2 : Vec F S1024x256 .bf16) (x3 : Vec F S8192x256 .bf16) (t4 : Vec F S1024x1 .i32) (t5 : Vec F S1x8192 .i32)
    (s6 : Vec F S1024x1 .f32) (s7 : Vec F S1x1024 .f32) (a0 : Vec F S1024x1 .f32) : Vec F S1024x1 .f32 :=
  k0_pay17 (dist i x2 x3 s6 s7) (agree i t4 t5) (k0_pay11 i) (k0_pay12 i) a0
def next1 (i : grid0.Coords) (x2 : Vec F S1024x256 .bf16) (x3 : Vec F S8192x256 .bf16) (t4 : Vec F S1024x1 .i32) (t5 : Vec F S1x8192 .i32)
    (s6 : Vec F S1024x1 .f32) (s7 : Vec F S1x1024 .f32) (a1 : Vec F S1024x1 .f32) : Vec F S1024x1 .f32 :=
  k0_pay1 (k0_pay18 (dist i x2 x3 s6 s7) (agree i t4 t5) a1)
def next2 (i : grid0.Coords) (t4 : Vec F S1024x1 .i32) (t5 : Vec F S1x8192 .i32) (a2 : Vec F S1024x1 .f32) : Vec F S1024x1 .f32 :=
  k0_pay2 (k0_pay15 (F := F) (agree (F := F) i t4 t5) (k0_pay11 i) (k0_pay12 i)) a2
def next3 (i : grid0.Coords) (t4 : Vec F S1024x1 .i32) (t5 : Vec F S1x8192 .i32) (a3 : Vec F S1024x1 .f32) : Vec F S1024x1 .f32 :=
  k0_pay3 (k0_pay16 (F := F) (agree (F := F) i t4 t5)) a3

/-- The row losses of the tile, from the four accumulators at the last column tile. -/
def rowLosses (b0 b1 b2 b3 : Vec F S1024x1 .f32) : Vec F S1024x1 .f32 := k0_pay4 b0 b1 b2 b3

end Cert.Kernel.Step

end
-- ==== Proof.BitBody.lean ====
/-
  The kernel body at one grid point, as three triples — one per control case of its two conditionals. Each says: from
  the seven staging buffers and the four scratch accumulators held whole at given contents, the body runs to its
  return leaving the input buffers as found, the accumulators at the point's fold of them (restarted first at the
  first column tile), and the output buffer either as found or, at the last column tile, at the tile's row losses.
  The arithmetic is not opened here: the contents are the step functions that name it.
-/
import proofs.«135942_j20263655702978_2_alg».proof.Proof.BitStep
import proofs.«135942_j20263655702978_2_alg».proof.Proof.Gen.Kernel.Launch
import proofs.«135942_j20263655702978_2_alg».proof.Proof.Gen.Kernel.Points
import Idealize.ShloMosaic.Lib.Pipeline.Value
import Idealize.ShloMosaic.Lib.Tactic
import Idealize.ShloMosaic.Lib.Pipeline.Kit

set_option maxRecDepth 16384

noncomputable section

namespace Cert.Kernel.Body

open Cert.Kernel Cert.Kernel.Gen Cert.Kernel.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first conditional's condition (restart of the accumulators) and the second's (forming the row losses). -/
abbrev cond0 (i : grid0.Coords) : Prop := (Scalar.cmpi .ne (Scalar.extui (Scalar.cmpi .eq (BitVec.ofNat 32 (i 1).val) 0#32)) 0#32) = 1#1
abbrev cond1 (i : grid0.Coords) : Prop := k0_cond2 i = 1#1

abbrev sc0 : Memref sig .tc .vmem S1024x1 .f32 := Memref.whole cc0_scratch0
abbrev sc1 : Memref sig .tc .vmem S1024x1 .f32 := Memref.whole cc0_scratch1
abbrev sc2 : Memref sig .tc .vmem S1024x1 .f32 := Memref.whole cc0_scratch2
abbrev sc3 : Memref sig .tc .vmem S1024x1 .f32 := Memref.whole cc0_scratch3

theorem hz2 : (![0, 0] : Fin 2 → Nat) = fun _ => 0 := by funext a; fin_cases a <;> rfl

/-- What a whole memref reads after ONE store through its whole rectangle: the stored value. -/
theorem read_store_whole {sp : Space} {S : Shape} {e : EltTy} (M : Memref sig .tc sp S e)
    {off : Fin S.rank → Nat} (h : off = fun _ => 0) (inb : ∀ a, off a + S.size a ≤ S.size a)
    (f : M.view.ty.Contents (Elt F)) (w : S.Idx → Elt F e) :
    M.view.read (Elt F) (M.view.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h inb]

/-- What a whole memref reads after a list of stores whose LAST is through its whole rectangle: that store's value. -/
theorem read_store_head {sp : Space} {S : Shape} {e : EltTy} (M : Memref sig .tc sp S e)
    {off : Fin S.rank → Nat} (h : off = fun _ => 0) (inb : ∀ a, off a + S.size a ≤ S.size a)
    (f : M.view.ty.Contents (Elt F)) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h inb]

set_option maxHeartbeats 16000000 in
/-- A middle column tile (neither the first nor the last): the four accumulators are folded once; the output buffer is left as found. -/
theorem runMid (c : Dev nD) (i : grid0.Coords) (hc0 : ¬cond0 i) (hc1 : ¬cond1 i)
    (M2 : Memref sig .tc .vmem S1024x256 .bf16) (h2 : M2.IsWhole) (M3 : Memref sig .tc .vmem S8192x256 .bf16) (h3 : M3.IsWhole)
    (M4 : Memref sig .tc .vmem S1024x1 .i32) (h4 : M4.IsWhole) (M5 : Memref sig .tc .vmem S1x8192 .i32) (h5 : M5.IsWhole)
    (M6 : Memref sig .tc .vmem S1024x1 .f32) (h6 : M6.IsWhole) (M7 : Memref sig .tc .vmem S1x1024 .f32) (h7 : M7.IsWhole)
    (M8 : Memref sig .tc .vmem S1024x1 .f32) (h8 : M8.IsWhole)
    (x2 : Vec F S1024x256 .bf16) (x3 : Vec F S8192x256 .bf16) (t4 : Vec F S1024x1 .i32) (t5 : Vec F S1x8192 .i32)
    (s6 : Vec F S1024x1 .f32) (s7 : Vec F S1x1024 .f32) (o8 : Vec F S1024x1 .f32)
    (a0 a1 a2 a3 : Vec F S1024x1 .f32) (E : Set ℕ) (K : PUnit → sProp 𝕄) :
    iprop(owns (c : Thread nD τ) M2 fullShare x2 ∗ owns (c : Thread nD τ) M3 fullShare x3 ∗ owns (c : Thread nD τ) M4 fullShare t4
        ∗ owns (c : Thread nD τ) M5 fullShare t5 ∗ owns (c : Thread nD τ) M6 fullShare s6 ∗ owns (c : Thread nD τ) M7 fullShare s7
        ∗ owns (c : Thread nD τ) M8 fullShare o8
        ∗ owns (c : Thread nD τ) sc0 fullShare a0 ∗ owns (c : Thread nD τ) sc1 fullShare a1
        ∗ owns (c : Thread nD τ) sc2 fullShare a2 ∗ owns (c : Thread nD τ) sc3 fullShare a3
      ∗ (iprop(owns (c : Thread nD τ) M2 fullShare x2 ∗ owns (c : Thread nD τ) M3 fullShare x3 ∗ owns (c : Thread nD τ) M4 fullShare t4
        ∗ owns (c : Thread nD τ) M5 fullShare t5 ∗ owns (c : Thread nD τ) M6 fullShare s6 ∗ owns (c : Thread nD τ) M7 fullShare s7
            ∗ owns (c : Thread nD τ) M8 fullShare (o8)
            ∗ owns (c : Thread nD τ) sc0 fullShare (next0 i x2 x3 t4 t5 s6 s7 a0) ∗ owns (c : Thread nD τ) sc1 fullShare (next1 i x2 x3 t4 t5 s6 s7 a1)
            ∗ owns (c : Thread nD τ) sc2 fullShare (next2 i t4 t5 a2) ∗ owns (c : Thread nD τ) sc3 fullShare (next3 i t4 t5 a3)) -∗ K ⟨⟩))
    ⊢ wp frame (wpE (defs₀ (F := F)) Variants.none c none) E
        (cc0__triplet_kernel i M2 h2 M3 h3 M4 h4 M5 h5 M6 h6 M7 h7 M8 h8 sc0 (Memref.isWhole_whole _) sc1 (Memref.isWhole_whole _) sc2 (Memref.isWhole_whole _) sc3 (Memref.isWhole_whole _)) K := by
  simp only [cc0__triplet_kernel_eq_skeleton]; unfold cc0__triplet_kernel_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%g0, %hg0, S0⟩, ⟨%g1, %hg1, S1⟩, ⟨%g2, %hg2, S2⟩, ⟨%g3, %hg3, S3⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  obtain rfl := (Memref.isWhole_whole cc0_scratch0).eq_unread hg0; obtain rfl := (Memref.isWhole_whole cc0_scratch1).eq_unread hg1
  obtain rfl := (Memref.isWhole_whole cc0_scratch2).eq_unread hg2; obtain rfl := (Memref.isWhole_whole cc0_scratch3).eq_unread hg3
  sl_exec (disch := first | exact hc0 | exact hc1)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H8]
  · iexists _; isplitr; swap; (· iexact H8)
    ipureintro
    first
      | exact h8.read_unread _
      | ((try sl_unfold_run_names); rw [read_store_head (S := S1024x1) _ hz2]; (try sl_unfold_run_names)
         simp only [View.readAt_eq_ld, View.readCov_unit_zero (S := S1024x1) _ hz2, View.readCov_cons_toLoadRect, hf2, hf3, hf4, hf5, hf6, hf7, hf8, hg0, hg1, hg2, hg3,
           View.ld_unit_zero (S := S1024x1) hz2, View.ld_unit_zero (S := S1024x256) hz2, View.ld_unit_zero (S := S1x1024) hz2]
         rfl)
  isplitl [S0]
  · iexists _; isplitr; swap; (· iexact S0)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  isplitl [S1]
  · iexists _; isplitr; swap; (· iexact S1)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  isplitl [S2]
  · iexists _; isplitr; swap; (· iexact S2)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  · iexists _; isplitr; swap; (· iexact S3)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl

set_option maxHeartbeats 16000000 in
/-- The first column tile: the accumulators restart from −∞, +∞, 0, 0 and are folded once; the output buffer is left as found. -/
theorem runFirst (c : Dev nD) (i : grid0.Coords) (hc0 : cond0 i) (hc1 : ¬cond1 i)
    (M2 : Memref sig .tc .vmem S1024x256 .bf16) (h2 : M2.IsWhole) (M3 : Memref sig .tc .vmem S8192x256 .bf16) (h3 : M3.IsWhole)
    (M4 : Memref sig .tc .vmem S1024x1 .i32) (h4 : M4.IsWhole) (M5 : Memref sig .tc .vmem S1x8192 .i32) (h5 : M5.IsWhole)
    (M6 : Memref sig .tc .vmem S1024x1 .f32) (h6 : M6.IsWhole) (M7 : Memref sig .tc .vmem S1x1024 .f32) (h7 : M7.IsWhole)
    (M8 : Memref sig .tc .vmem S1024x1 .f32) (h8 : M8.IsWhole)
    (x2 : Vec F S1024x256 .bf16) (x3 : Vec F S8192x256 .bf16) (t4 : Vec F S1024x1 .i32) (t5 : Vec F S1x8192 .i32)
    (s6 : Vec F S1024x1 .f32) (s7 : Vec F S1x1024 .f32) (o8 : Vec F S1024x1 .f32)
    (a0 a1 a2 a3 : Vec F S1024x1 .f32) (E : Set ℕ) (K : PUnit → sProp 𝕄) :
    iprop(owns (c : Thread nD τ) M2 fullShare x2 ∗ owns (c : Thread nD τ) M3 fullShare x3 ∗ owns (c : Thread nD τ) M4 fullShare t4
        ∗ owns (c : Thread nD τ) M5 fullShare t5 ∗ owns (c : Thread nD τ) M6 fullShare s6 ∗ owns (c : Thread nD τ) M7 fullShare s7
        ∗ owns (c : Thread nD τ) M8 fullShare o8
        ∗ owns (c : Thread nD τ) sc0 fullShare a0 ∗ owns (c : Thread nD τ) sc1 fullShare a1
        ∗ owns (c : Thread nD τ) sc2 fullShare a2 ∗ owns (c : Thread nD τ) sc3 fullShare a3
      ∗ (iprop(owns (c : Thread nD τ) M2 fullShare x2 ∗ owns (c : Thread nD τ) M3 fullShare x3 ∗ owns (c : Thread nD τ) M4 fullShare t4
        ∗ owns (c : Thread nD τ) M5 fullShare t5 ∗ owns (c : Thread nD τ) M6 fullShare s6 ∗ owns (c : Thread nD τ) M7 fullShare s7
            ∗ owns (c : Thread nD τ) M8 fullShare (o8)
            ∗ owns (c : Thread nD τ) sc0 fullShare (next0 i x2 x3 t4 t5 s6 s7 k0_pay5) ∗ owns (c : Thread nD τ) sc1 fullShare (next1 i x2 x3 t4 t5 s6 s7 k0_pay6)
            ∗ owns (c : Thread nD τ) sc2 fullShare (next2 i t4 t5 k0_pay7) ∗ owns (c : Thread nD τ) sc3 fullShare (next3 i t4 t5 k0_pay8)) -∗ K ⟨⟩))
    ⊢ wp frame (wpE (defs₀ (F := F)) Variants.none c none) E
        (cc0__triplet_kernel i M2 h2 M3 h3 M4 h4 M5 h5 M6 h6 M7 h7 M8 h8 sc0 (Memref.isWhole_whole _) sc1 (Memref.isWhole_whole _) sc2 (Memref.isWhole_whole _) sc3 (Memref.isWhole_whole _)) K := by
  simp only [cc0__triplet_kernel_eq_skeleton]; unfold cc0__triplet_kernel_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%g0, %hg0, S0⟩, ⟨%g1, %hg1, S1⟩, ⟨%g2, %hg2, S2⟩, ⟨%g3, %hg3, S3⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  obtain rfl := (Memref.isWhole_whole cc0_scratch0).eq_unread hg0; obtain rfl := (Memref.isWhole_whole cc0_scratch1).eq_unread hg1
  obtain rfl := (Memref.isWhole_whole cc0_scratch2).eq_unread hg2; obtain rfl := (Memref.isWhole_whole cc0_scratch3).eq_unread hg3
  sl_exec (disch := first | exact hc0 | exact hc1)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H8]
  · iexists _; isplitr; swap; (· iexact H8)
    ipureintro
    first
      | exact h8.read_unread _
      | ((try sl_unfold_run_names); rw [read_store_head (S := S1024x1) _ hz2]; (try sl_unfold_run_names)
         simp only [View.readAt_eq_ld, View.readCov_unit_zero (S := S1024x1) _ hz2, View.readCov_cons_toLoadRect, hf2, hf3, hf4, hf5, hf6, hf7, hf8, hg0, hg1, hg2, hg3,
           View.ld_unit_zero (S := S1024x1) hz2, View.ld_unit_zero (S := S1024x256) hz2, View.ld_unit_zero (S := S1x1024) hz2]
         rfl)
  isplitl [S0]
  · iexists _; isplitr; swap; (· iexact S0)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  isplitl [S1]
  · iexists _; isplitr; swap; (· iexact S1)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  isplitl [S2]
  · iexists _; isplitr; swap; (· iexact S2)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  · iexists _; isplitr; swap; (· iexact S3)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl

set_option maxHeartbeats 16000000 in
/-- The last column tile: the accumulators are folded once more and the tile's row losses, formed from them, are stored whole into the output buffer. -/
theorem runLast (c : Dev nD) (i : grid0.Coords) (hc0 : ¬cond0 i) (hc1 : cond1 i)
    (M2 : Memref sig .tc .vmem S1024x256 .bf16) (h2 : M2.IsWhole) (M3 : Memref sig .tc .vmem S8192x256 .bf16) (h3 : M3.IsWhole)
    (M4 : Memref sig .tc .vmem S1024x1 .i32) (h4 : M4.IsWhole) (M5 : Memref sig .tc .vmem S1x8192 .i32) (h5 : M5.IsWhole)
    (M6 : Memref sig .tc .vmem S1024x1 .f32) (h6 : M6.IsWhole) (M7 : Memref sig .tc .vmem S1x1024 .f32) (h7 : M7.IsWhole)
    (M8 : Memref sig .tc .vmem S1024x1 .f32) (h8 : M8.IsWhole)
    (x2 : Vec F S1024x256 .bf16) (x3 : Vec F S8192x256 .bf16) (t4 : Vec F S1024x1 .i32) (t5 : Vec F S1x8192 .i32)
    (s6 : Vec F S1024x1 .f32) (s7 : Vec F S1x1024 .f32) (o8 : Vec F S1024x1 .f32)
    (a0 a1 a2 a3 : Vec F S1024x1 .f32) (E : Set ℕ) (K : PUnit → sProp 𝕄) :
    iprop(owns (c : Thread nD τ) M2 fullShare x2 ∗ owns (c : Thread nD τ) M3 fullShare x3 ∗ owns (c : Thread nD τ) M4 fullShare t4
        ∗ owns (c : Thread nD τ) M5 fullShare t5 ∗ owns (c : Thread nD τ) M6 fullShare s6 ∗ owns (c : Thread nD τ) M7 fullShare s7
        ∗ owns (c : Thread nD τ) M8 fullShare o8
        ∗ owns (c : Thread nD τ) sc0 fullShare a0 ∗ owns (c : Thread nD τ) sc1 fullShare a1
        ∗ owns (c : Thread nD τ) sc2 fullShare a2 ∗ owns (c : Thread nD τ) sc3 fullShare a3
      ∗ (iprop(owns (c : Thread nD τ) M2 fullShare x2 ∗ owns (c : Thread nD τ) M3 fullShare x3 ∗ owns (c : Thread nD τ) M4 fullShare t4
        ∗ owns (c : Thread nD τ) M5 fullShare t5 ∗ owns (c : Thread nD τ) M6 fullShare s6 ∗ owns (c : Thread nD τ) M7 fullShare s7
            ∗ owns (c : Thread nD τ) M8 fullShare (rowLosses (next0 i x2 x3 t4 t5 s6 s7 a0) (next1 i x2 x3 t4 t5 s6 s7 a1) (next2 i t4 t5 a2) (next3 i t4 t5 a3))
            ∗ owns (c : Thread nD τ) sc0 fullShare (next0 i x2 x3 t4 t5 s6 s7 a0) ∗ owns (c : Thread nD τ) sc1 fullShare (next1 i x2 x3 t4 t5 s6 s7 a1)
            ∗ owns (c : Thread nD τ) sc2 fullShare (next2 i t4 t5 a2) ∗ owns (c : Thread nD τ) sc3 fullShare (next3 i t4 t5 a3)) -∗ K ⟨⟩))
    ⊢ wp frame (wpE (defs₀ (F := F)) Variants.none c none) E
        (cc0__triplet_kernel i M2 h2 M3 h3 M4 h4 M5 h5 M6 h6 M7 h7 M8 h8 sc0 (Memref.isWhole_whole _) sc1 (Memref.isWhole_whole _) sc2 (Memref.isWhole_whole _) sc3 (Memref.isWhole_whole _)) K := by
  simp only [cc0__triplet_kernel_eq_skeleton]; unfold cc0__triplet_kernel_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%g0, %hg0, S0⟩, ⟨%g1, %hg1, S1⟩, ⟨%g2, %hg2, S2⟩, ⟨%g3, %hg3, S3⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  obtain rfl := (Memref.isWhole_whole cc0_scratch0).eq_unread hg0; obtain rfl := (Memref.isWhole_whole cc0_scratch1).eq_unread hg1
  obtain rfl := (Memref.isWhole_whole cc0_scratch2).eq_unread hg2; obtain rfl := (Memref.isWhole_whole cc0_scratch3).eq_unread hg3
  sl_exec (disch := first | exact hc0 | exact hc1)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H8]
  · iexists _; isplitr; swap; (· iexact H8)
    ipureintro
    first
      | exact h8.read_unread _
      | ((try sl_unfold_run_names); rw [read_store_head (S := S1024x1) _ hz2]; (try sl_unfold_run_names)
         simp only [View.readAt_eq_ld, View.readCov_unit_zero (S := S1024x1) _ hz2, View.readCov_cons_toLoadRect, hf2, hf3, hf4, hf5, hf6, hf7, hf8, hg0, hg1, hg2, hg3,
           View.ld_unit_zero (S := S1024x1) hz2, View.ld_unit_zero (S := S1024x256) hz2, View.ld_unit_zero (S := S1x1024) hz2]
         rfl)
  isplitl [S0]
  · iexists _; isplitr; swap; (· iexact S0)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  isplitl [S1]
  · iexists _; isplitr; swap; (· iexact S1)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  isplitl [S2]
  · iexists _; isplitr; swap; (· iexact S2)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  · iexists _; isplitr; swap; (· iexact S3)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl

end Cert.Kernel.Body

end
-- ==== Proof.BitAcc.lean ====
/-
  The four scratch accumulators point by point, and the row losses stored at the last column tile.

  The grid's 64 points run row tile by row tile (point t has row tile t / 8 and column tile t % 8). At a point whose
  column tile is 0 the accumulators restart; otherwise they continue from what the point before left. `accAt` is that
  recursion over what the body reads at each point (`Blocks`), `lossAt` the tile of row losses formed from the
  accumulators after a point (stored by the body only at the last column tile).
-/
import proofs.«135942_j20263655702978_2_alg».proof.Proof.BitStep

noncomputable section

namespace Cert.Kernel.Acc

open Cert.Kernel Cert.Kernel.Gen Cert.Kernel.Step
open Idealize.ShloMosaic

variable {F : FTy → Type} [FloatOps F]

/-- What the body reads at each point: the row-tile blocks (features, labels, squared lengths as a column), the
    column-tile block of squared lengths as a row, and the two arrays it keeps whole (features, labels as a row; the same
    at every point, indexed by the point only for uniformity). -/
structure Blocks (F : FTy → Type) [FloatOps F] where
  x2 : Fin cfg0.N → Vec F S1024x256 .bf16
  x3 : Fin cfg0.N → Vec F S8192x256 .bf16
  t4 : Fin cfg0.N → Vec F S1024x1 .i32
  t5 : Fin cfg0.N → Vec F S1x8192 .i32
  s6 : Fin cfg0.N → Vec F S1024x1 .f32
  s7 : Fin cfg0.N → Vec F S1x1024 .f32

/-- The four accumulators: running maximum over positives, running minimum over negatives, the two seen-flags. -/
abbrev Quad (F : FTy → Type) [FloatOps F] : Type :=
  Vec F S1024x1 .f32 × Vec F S1024x1 .f32 × Vec F S1024x1 .f32 × Vec F S1024x1 .f32

/-- The accumulators a row tile starts from: −∞, +∞, 0, 0. -/
def restart : Quad F := (k0_pay5, k0_pay6, k0_pay7, k0_pay8)

/-- One point's fold of the accumulators. -/
def fold (B : Blocks F) (t : Fin cfg0.N) (a : Quad F) : Quad F :=
  (next0 (grid0.coords t) (B.x2 t) (B.x3 t) (B.t4 t) (B.t5 t) (B.s6 t) (B.s7 t) a.1,
   next1 (grid0.coords t) (B.x2 t) (B.x3 t) (B.t4 t) (B.t5 t) (B.s6 t) (B.s7 t) a.2.1,
   next2 (grid0.coords t) (B.t4 t) (B.t5 t) a.2.2.1,
   next3 (grid0.coords t) (B.t4 t) (B.t5 t) a.2.2.2)

/-- The accumulators after point `n`. -/
def accAt (B : Blocks F) : (n : ℕ) → n < cfg0.N → Quad F
  | 0, h => fold B ⟨0, h⟩ restart
  | n + 1, h => if (n + 1) % 8 = 0 then fold B ⟨n + 1, h⟩ restart else fold B ⟨n + 1, h⟩ (accAt B n (Nat.lt_of_succ_lt h))

theorem accAt_first (B : Blocks F) (t : Fin cfg0.N) (h : t.val % 8 = 0) : accAt B t.val t.isLt = fold B t restart := by
  obtain ⟨n, hn⟩ := t
  cases n with
  | zero => rfl
  | succ n => exact if_pos h

theorem accAt_next (B : Blocks F) (t : Fin cfg0.N) (h : ¬ t.val % 8 = 0) :
    accAt B t.val t.isLt = fold B t (accAt B (t.val - 1) (Nat.lt_of_le_of_lt (Nat.sub_le _ _) t.isLt)) := by
  obtain ⟨n, hn⟩ := t
  cases n with
  | zero => exact absurd (Nat.zero_mod _) h
  | succ n => exact if_neg h

/-- The tile of row losses formed from the accumulators after point `t`. -/
def lossAt (B : Blocks F) (t : Fin cfg0.N) : Vec F S1024x1 .f32 :=
  rowLosses (accAt B t.val t.isLt).1 (accAt B t.val t.isLt).2.1 (accAt B t.val t.isLt).2.2.1 (accAt B t.val t.isLt).2.2.2

end Cert.Kernel.Acc

end
-- ==== Proof.BitData.lean ====
/-
  The kernel region's proof data and the body obligation.

  The region is entered after the host lines that scale the rows (the scaled features are handed to TWO windows of
  the pipeline: a row tile per point and the whole array kept resident), take the squared lengths and lay the labels
  and squared lengths out as a column and as a row. Per point the pipeline hands the body its six input blocks —
  each the block of its array at the point, fetched there or not — and the output's staging buffer. The body's own
  state between points is the four scratch accumulators: at anything before the first point, afterwards at the
  recursion's value after the point before (`Acc.accAt`). The output's buffer is stored only at the last column
  tile of a row tile, with that tile's row losses (`Acc.lossAt`), and is written back exactly there; at the other
  points the window is idle and its buffer is handed back as found.
-/
import proofs.«135942_j20263655702978_2_alg».proof.Proof.BitBody
import proofs.«135942_j20263655702978_2_alg».proof.Proof.BitAcc
import Idealize.ShloMosaic.Lib.Pipeline.Regions
import Idealize.ShloMosaic.Lib.Pipeline.FrameBody

set_option maxRecDepth 16384

noncomputable section

namespace Cert.Kernel.Run

open Cert.Kernel Cert.Kernel.Gen Cert.Kernel.Step Cert.Kernel.Acc Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- Core `c`'s buffers at launch, as the host operations' valuation; after the lines of the length function; and when
    the region is entered (after the remaining lines before it). -/
abbrev V₀ (c : Dev nD) : Valuation τ sig (Elt F) := fun b => (s₀ m ρ).mem ((c : Dev nD), b)
abbrev V₁ (c : Dev nD) : Valuation τ sig (Elt F) := StableHlo.after hostOps0 (V₀ m ρ c)
abbrev VE (c : Dev nD) : Valuation τ sig (Elt F) := StableHlo.after hostOps0_1 (V₁ m ρ c)
abbrev V (c : Dev nD) (b : Ref sig .tc) : Buf (Elt F) ((c : Thread nD τ).loc b) := VE m ρ c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- What the body reads at each point: the six input windows' blocks. -/
def blocks (c : Dev nD) : Blocks F where
  x2 t := iblk m ρ c 0 t
  x3 t := iblk m ρ c 1 t
  t4 t := iblk m ρ c 2 t
  t5 t := iblk m ρ c 3 t
  s6 t := iblk m ρ c 4 t
  s7 t := iblk m ρ c 5 t

/-! ## The two conditionals over the grid, and where the output window is idle -/

theorem hcond0 : ∀ t : Fin cfg0.N, cond0 (grid0.coords t) ↔ t.val % 8 = 0 :=
  (by decide +kernel : ∀ t : Fin grid0.N, cond0 (grid0.coords t) ↔ t.val % 8 = 0)
theorem hcond1 : ∀ t : Fin cfg0.N, cond1 (grid0.coords t) ↔ t.val % 8 = 7 :=
  (by decide +kernel : ∀ t : Fin grid0.N, cond1 (grid0.coords t) ↔ t.val % 8 = 7)
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem idle_6 : ∀ t : Fin cfg0.N, ¬cond1 (grid0.coords t) → cfg0.idle 6 (grid0.coords t) = true := by decide +kernel
theorem live_6 : ∀ t : Fin cfg0.N, cond1 (grid0.coords t) → cfg0.idle 6 (grid0.coords t) = false := by decide +kernel
theorem noFlush_6 : ∀ t : Fin cfg0.N, ¬cond1 (grid0.coords t) → (cfg0.win 6).flush t = false := by decide +kernel

/-- Each window's current staging memref at point `t`, as the pipeline passes it, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)

/-! ## The invariant between points: the four accumulators -/

def PhiS (c : Dev nD) : (n : ℕ) → n ≤ cfg0.N → sProp 𝕄
  | 0, _ => iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d))
  | n + 1, hn => iprop(owns (c : Thread nD τ) sc0 fullShare (accAt (blocks m ρ c) n hn).1 ∗ owns (c : Thread nD τ) sc1 fullShare (accAt (blocks m ρ c) n hn).2.1
      ∗ owns (c : Thread nD τ) sc2 fullShare (accAt (blocks m ρ c) n hn).2.2.1 ∗ owns (c : Thread nD τ) sc3 fullShare (accAt (blocks m ρ c) n hn).2.2.2)

theorem PhiS_zero (c : Dev nD) (n : ℕ) (h : n ≤ cfg0.N) (hz : n = 0) :
    PhiS m ρ c n h = iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)) := by
  subst hz; rfl

theorem PhiS_succ (c : Dev nD) (n : ℕ) (hn : n < cfg0.N) :
    PhiS m ρ c (n + 1) hn = iprop(owns (c : Thread nD τ) sc0 fullShare (accAt (blocks m ρ c) n hn).1 ∗ owns (c : Thread nD τ) sc1 fullShare (accAt (blocks m ρ c) n hn).2.1
      ∗ owns (c : Thread nD τ) sc2 fullShare (accAt (blocks m ρ c) n hn).2.2.1 ∗ owns (c : Thread nD τ) sc3 fullShare (accAt (blocks m ρ c) n hn).2.2.2) := rfl

theorem PhiS_pos (c : Dev nD) (n : ℕ) (h : n ≤ cfg0.N) (hz : n ≠ 0) :
    PhiS m ρ c n h = iprop(owns (c : Thread nD τ) sc0 fullShare (accAt (blocks m ρ c) (n - 1) (by omega)).1 ∗ owns (c : Thread nD τ) sc1 fullShare (accAt (blocks m ρ c) (n - 1) (by omega)).2.1
      ∗ owns (c : Thread nD τ) sc2 fullShare (accAt (blocks m ρ c) (n - 1) (by omega)).2.2.1 ∗ owns (c : Thread nD τ) sc3 fullShare (accAt (blocks m ρ c) (n - 1) (by omega)).2.2.2) := by
  cases n with
  | zero => exact absurd rfl hz
  | succ n => rfl

/-! ## The proof data -/

/-- The scaled features are read by two windows: each holds half of the array's share. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => lossAt (blocks m ρ c) t
  Φ t := PhiS m ρ c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem PhiS_castSucc (c : Dev nD) (t : Fin cfg0.N) :
    (dats m ρ 0 c).Φ t.castSucc = PhiS m ρ c t.val (Nat.le_of_lt t.isLt) := by
  dsimp only [dats]; simp only [Fin.coe_castSucc]

theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = iblk m ρ c 2 t := by dsimp only [dats]
theorem after_3 (c : Dev nD) (t : Fin cfg0.N) : (dats m ρ 0 c).after 3 t = iblk m ρ c 3 t := by dsimp only [dats]
theorem after_4 (c : Dev nD) (t : Fin cfg0.N) : (dats m ρ 0 c).after 4 t = iblk m ρ c 4 t := by dsimp only [dats]
theorem after_5 (c : Dev nD) (t : Fin cfg0.N) : (dats m ρ 0 c).after 5 t = iblk m ρ c 5 t := by dsimp only [dats]
theorem after_6 (c : Dev nD) (t : Fin cfg0.N) : (dats m ρ 0 c).after 6 t = lossAt (blocks m ρ c) t := by dsimp only [dats]

/-- Each input's current staging buffer holds its block at every point, fetched there or not. -/
theorem before_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m ρ 0 c).before 4 t d = iblk m ρ c 4 t :=
  ((dats m ρ 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m ρ 0 c).before 5 t d = iblk m ρ c 5 t :=
  ((dats m ρ 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d)))

def bodyPost (c : Dev nD) (t : Fin cfg0.N) : sProp 𝕄 :=
  iprop((dats m ρ 0 c).Φ t.succ ∗ (dats m ρ 0 c).owesAt () t.succ
    ∗ (dats m ρ 0 c).leavesExact 0 t ∗ (dats m ρ 0 c).leavesExact 1 t ∗ (dats m ρ 0 c).leavesExact 2 t
    ∗ (dats m ρ 0 c).leavesExact 3 t ∗ (dats m ρ 0 c).leavesExact 4 t ∗ (dats m ρ 0 c).leavesExact 5 t
    ∗ (dats m ρ 0 c).leavesExact 6 t)

set_option maxHeartbeats 8000000 in
/-- The body at any point: the inputs' buffers hold their blocks; the point's column tile decides the case; the
    accumulators come from the invariant (at anything where they restart) and go back at the recursion's next value. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1, before_2, before_3, before_4, before_5]
  rw [show (dats m ρ 0 c).owesAt () t.succ = (dats m ρ 0 c).owesAt () t.castSucc from rfl]
  rw [show (dats m ρ 0 c).Φ t.succ = PhiS m ρ c (t.val + 1) t.isLt from rfl, PhiS_succ]
  have hN : t.val < 64 := lt_of_lt_of_eq t.isLt (show cfg0.N = 64 from N_0)
  rw [show (dats m ρ 0 c).leavesExact 0 t = owns (c : Thread nD τ) (ms0 t) fullShare ((dats m ρ 0 c).after 0 t) from by
      unfold Dat.leavesExact; rw [live_0 t], after_0]
  rw [show (dats m ρ 0 c).leavesExact 1 t = owns (c : Thread nD τ) (ms1 t) fullShare ((dats m ρ 0 c).after 1 t) from by
      unfold Dat.leavesExact; rw [live_1 t], after_1]
  rw [show (dats m ρ 0 c).leavesExact 2 t = owns (c : Thread nD τ) (ms2 t) fullShare ((dats m ρ 0 c).after 2 t) from by
      unfold Dat.leavesExact; rw [live_2 t], after_2]
  rw [show (dats m ρ 0 c).leavesExact 3 t = owns (c : Thread nD τ) (ms3 t) fullShare ((dats m ρ 0 c).after 3 t) from by
      unfold Dat.leavesExact; rw [live_3 t], after_3]
  rw [show (dats m ρ 0 c).leavesExact 4 t = owns (c : Thread nD τ) (ms4 t) fullShare ((dats m ρ 0 c).after 4 t) from by
      unfold Dat.leavesExact; rw [live_4 t], after_4]
  rw [show (dats m ρ 0 c).leavesExact 5 t = owns (c : Thread nD τ) (ms5 t) fullShare ((dats m ρ 0 c).after 5 t) from by
      unfold Dat.leavesExact; rw [live_5 t], after_5]
  by_cases h0 : t.val % 8 = 0
  · have hc1 : ¬cond1 (grid0.coords t) := fun h => by have := (hcond1 t).mp h; omega
    rw [Dat.leavesExact_idle (dats m ρ 0 c) 6 t (idle_6 t hc1) (noFlush_6 t hc1)]
    rw [accAt_first (blocks m ρ c) t h0]
    by_cases hz : t.val = 0
    · rw [PhiS_castSucc m ρ c t, PhiS_zero m ρ c _ _ hz]
      iintro ⟨⟨⟨%e0, S0⟩, ⟨%e1, S1⟩, ⟨%e2, S2⟩, ⟨%e3, S3⟩⟩, Ho, ⟨%d0, H0⟩, ⟨%d1, H1⟩, ⟨%d2, H2⟩, ⟨%d3, H3⟩, ⟨%d4, H4⟩, ⟨%d5, H5⟩, ⟨%d6, H6⟩⟩
      iapply (runFirst c (grid0.coords t) ((hcond0 t).mpr h0) hc1 (ms0 t) (hs0 t) (ms1 t) (hs1 t) (ms2 t) (hs2 t) (ms3 t) (hs3 t) (ms4 t) (hs4 t) (ms5 t) (hs5 t) (ms6 t) (hs6 t)
          (iblk m ρ c 0 t) (iblk m ρ c 1 t) (iblk m ρ c 2 t) (iblk m ρ c 3 t) (iblk m ρ c 4 t) (iblk m ρ c 5 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3]
      · isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m ρ c t, PhiS_pos m ρ c _ _ hz]
      iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
      iapply (runFirst c (grid0.coords t) ((hcond0 t).mpr h0) hc1 (ms0 t) (hs0 t) (ms1 t) (hs1 t) (ms2 t) (hs2 t) (ms3 t) (hs3 t) (ms4 t) (hs4 t) (ms5 t) (hs5 t) (ms6 t) (hs6 t)
          (iblk m ρ c 0 t) (iblk m ρ c 1 t) (iblk m ρ c 2 t) (iblk m ρ c 3 t) (iblk m ρ c 4 t) (iblk m ρ c 5 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3]
      · isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    have hc0 : ¬cond0 (grid0.coords t) := fun h => h0 ((hcond0 t).mp h)
    rw [accAt_next (blocks m ρ c) t h0]
    rw [PhiS_castSucc m ρ c t, PhiS_pos m ρ c _ _ hz]
    by_cases h1 : t.val % 8 = 7
    · rw [show (dats m ρ 0 c).leavesExact 6 t = owns (c : Thread nD τ) (ms6 t) fullShare ((dats m ρ 0 c).after 6 t) from by
        unfold Dat.leavesExact; rw [live_6 t ((hcond1 t).mpr h1)], after_6]
      unfold lossAt; rw [accAt_next (blocks m ρ c) t h0]
      iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
      iapply (runLast c (grid0.coords t) hc0 ((hcond1 t).mpr h1) (ms0 t) (hs0 t) (ms1 t) (hs1 t) (ms2 t) (hs2 t) (ms3 t) (hs3 t) (ms4 t) (hs4 t) (ms5 t) (hs5 t) (ms6 t) (hs6 t)
          (iblk m ρ c 0 t) (iblk m ρ c 1 t) (iblk m ρ c 2 t) (iblk m ρ c 3 t) (iblk m ρ c 4 t) (iblk m ρ c 5 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3]
      · isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1 (grid0.coords t) := fun h => h1 ((hcond1 t).mp h)
      rw [Dat.leavesExact_idle (dats m ρ 0 c) 6 t (idle_6 t hc1) (noFlush_6 t hc1)]
      iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
      iapply (runMid c (grid0.coords t) hc0 hc1 (ms0 t) (hs0 t) (ms1 t) (hs1 t) (ms2 t) (hs2 t) (ms3 t) (hs3 t) (ms4 t) (hs4 t) (ms5 t) (hs5 t) (ms6 t) (hs6 t)
          (iblk m ρ c 0 t) (iblk m ρ c 1 t) (iblk m ρ c 2 t) (iblk m ρ c 3 t) (iblk m ρ c 4 t) (iblk m ρ c 5 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3]
      · isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.Kernel.Run

end
-- ==== Proof.BitLaunch.lean ====
/-
  The launch: @main as four segments — the host lines of the length function, the remaining host lines before the
  region (scaling, squared lengths, the label and squared-length layouts), the kernel region, and the host lines after
  it (the mean of the row losses) — composed by the library's rule for a list of segments. Entering the region, the
  scaled features' buffer is split by share between the two windows that read it; leaving it, only the row-loss array
  (written back whole by the region) and the buffers of the last lines are carried on, beside the two arguments.
  `run_main`: for any float values, from any memory with zero counters, every weakly fair execution terminates with the
  result buffer at the last lines' value of the region's row losses and both arguments as launched.
-/
import proofs.«135942_j20263655702978_2_alg».proof.Proof.BitData

set_option maxRecDepth 16384

noncomputable section

namespace Cert.Kernel.Run

open Cert.Kernel Cert.Kernel.Gen Cert.Kernel.Step Cert.Kernel.Acc Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole of the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned; no table is prefetched. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers through the host lines: the core owing nothing. -/
abbrev R (c : Dev nD) : sProp 𝕄 := iprop(∃ W, owes (c : Thread nD τ) (0 : CellTallies nD τ sig Unit) W)

def u₀ : UR sig nD τ := initOf (Pipeline.cells cfgs cellOf_inj) (Pipeline.launchToks cfgs cellOf_inj)

theorem fresh0 : ∀ op ∈ (hostOps0 (F := F)), op.fresh = ∅ := by
  intro _ h; (repeat (cases h with | head => rfl | tail _ h => ?_)); exact nomatch h
theorem fresh0_1 : ∀ op ∈ (hostOps0_1 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h

/-! ## The host lines before the region -/

def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (V₀ m ρ) R
def seg1 : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h)) fresh0_1 (V₁ m ρ) R

/-! ## The lines after the region: the mean of the row losses -/

/-- The array of row losses as the region leaves it. -/
def finalLoss (c : Dev nD) : Buf (Elt F) ((cfg0.win 6).arr.view.loc (c : Thread nD τ)) := (dats m ρ 0 c).arrAt 6 cfg0.N

/-- The buffers' contents when the region is left: as entered, with the row-loss array at what the region wrote. -/
abbrev VX (c : Dev nD) : Valuation τ sig (Elt F) := StableHlo.after [StableHlo.nullary main_v13 (finalLoss m ρ c)] (VE m ρ c)

/-- The buffers the last lines run within: the row-loss array and the four values they write. -/
def tailList : List (DevRef τ sig) :=
  [Proc.devRef .tc main_v13, Proc.devRef .tc main_cst_1, Proc.devRef .tc main_v14, Proc.devRef .tc main_cst_2, Proc.devRef .tc main_v15]
def tailSet : Finset (DevRef τ sig) := tailList.toFinset

theorem tail_sub : ∀ op ∈ (hostOps1 (F := F)), op.bufs ⊆ tailSet := by
  intro op h
  simp only [hostOps1, List.mem_cons, List.mem_nil_iff, or_false] at h
  rcases h with rfl | rfl | rfl | rfl <;>
    simp only [StableHlo.nullary_bufs, StableHlo.binary_bufs, tailSet, tailList] <;> decide

/-- The arguments ride beside the last lines untouched. -/
abbrev RT (c : Dev nD) : sProp 𝕄 :=
  iprop(R c ∗ (((c : Thread nD τ).loc main_arg0) ↦{fullShare} V m ρ c main_arg0) ∗ (((c : Thread nD τ).loc main_arg1) ↦{fullShare} V m ρ c main_arg1))

def segT : Pipeline.HostSeg (Name := ℕ) (U := UR sig nD τ) (pcfgs (F := F)) defs₀ 𝒱₀ L lv :=
  Pipeline.HostSeg.ofOps _ _ _ _ _ tailSet hostOps1 tail_sub fresh1 (VX m ρ) (RT m ρ)

/-- The pipeline's arrays, window by window: the scaled features' buffer appears twice, at the two halves of its share. -/
theorem arrays_open (c : Dev nD) (Fw : (w : Fin cfg0.W) → Buf (Elt F) ((cfg0.win w).arr.view.loc (c : Thread nD τ))) :
    ((dats m ρ 0 c).arrays Fw : sProp 𝕄)
      = iprop((((c : Thread nD τ).loc main_v5) ↦{fullShare.left} Fw 0) ∗ (((c : Thread nD τ).loc main_v5) ↦{fullShare.right} Fw 1)
        ∗ (((c : Thread nD τ).loc main_v10) ↦{fullShare} Fw 2) ∗ (((c : Thread nD τ).loc main_v11) ↦{fullShare} Fw 3)
        ∗ (((c : Thread nD τ).loc main_v9) ↦{fullShare} Fw 4) ∗ (((c : Thread nD τ).loc main_v12) ↦{fullShare} Fw 5)
        ∗ (((c : Thread nD τ).loc main_v13) ↦{fullShare} Fw 6)) := by
  unfold Dat.arrays
  rw [bigSep_W0]
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  have h6 : (cfg0.win 6).arr.view.set = Finset.univ := (arr_whole0 6).set_eq_univ
  rw [h0, h2, h3, h4, h5, h6]
  rfl

/-- The distinct buffers behind the windows' arrays, listed. -/
theorem arrBufs_open (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v10) ↦{fullShare} W main_v10)
        ∗ (((c : Thread nD τ).loc main_v11) ↦{fullShare} W main_v11) ∗ (((c : Thread nD τ).loc main_v9) ↦{fullShare} W main_v9)
        ∗ (((c : Thread nD τ).loc main_v12) ↦{fullShare} W main_v12) ∗ (((c : Thread nD τ).loc main_v13) ↦{fullShare} W main_v13)) := by
  unfold Pipeline.arrBufs
  rw [bigSep_eq_bigSepL_of_eq [main_v5, main_v10, main_v11, main_v9, main_v12, main_v13] (by decide) (by decide)]
  rfl

/-- The buffers of the last lines, held at a valuation, one by one. -/
theorem held_tail (c : Dev nD) (W : Valuation τ sig (Elt F)) :
    (StableHlo.held (c : Thread nD τ) tailSet W : sProp 𝕄)
      = iprop((((c : Thread nD τ).loc main_v13) ↦{fullShare} W main_v13) ∗ (((c : Thread nD τ).loc main_cst_1) ↦{fullShare} W main_cst_1)
        ∗ (((c : Thread nD τ).loc main_v14) ↦{fullShare} W main_v14) ∗ (((c : Thread nD τ).loc main_cst_2) ↦{fullShare} W main_cst_2)
        ∗ (((c : Thread nD τ).loc main_v15) ↦{fullShare} W main_v15)) := by
  unfold StableHlo.held tailSet
  rw [bigSep_eq_bigSepL_of_eq tailList rfl (by decide)]
  rfl

/-- The exit valuation at the row-loss array and elsewhere. -/
theorem VX_v13 (c : Dev nD) : VX m ρ c main_v13 = finalLoss m ρ c := by
  show StableHlo.after [StableHlo.nullary main_v13 (finalLoss m ρ c)] (VE m ρ c) (Proc.devRef .tc main_v13) = _
  rw [StableHlo.after_cons, StableHlo.after_nil]
  exact StableHlo.nullary_result' (τ := τ) (y := main_v13) (finalLoss m ρ c) _ (VE m ρ c)
theorem VX_ne (c : Dev nD) (r : Ref sig .tc) (h : r ≠ main_v13) : VX m ρ c r = V m ρ c r := by
  show StableHlo.after [StableHlo.nullary main_v13 (finalLoss m ρ c)] (VE m ρ c) (Proc.devRef .tc r) = _
  rw [StableHlo.after_cons, StableHlo.after_nil]
  exact StableHlo.nullary_result_ne' (τ := τ) (y := main_v13) (finalLoss m ρ c) _ (VE m ρ c) h

/-- At entry the seven windows' arrays are the six buffers at the region-entry contents, the scaled features' buffer
    shared between its two windows. -/
theorem arrays_entry (c : Dev nD) :
    iprop((((c : Thread nD τ).loc main_v5) ↦{fullShare.left} V m ρ c main_v5) ∗ (((c : Thread nD τ).loc main_v5) ↦{fullShare.right} V m ρ c main_v5)
        ∗ (((c : Thread nD τ).loc main_v10) ↦{fullShare} V m ρ c main_v10) ∗ (((c : Thread nD τ).loc main_v11) ↦{fullShare} V m ρ c main_v11)
        ∗ (((c : Thread nD τ).loc main_v9) ↦{fullShare} V m ρ c main_v9) ∗ (((c : Thread nD τ).loc main_v12) ↦{fullShare} V m ρ c main_v12)
        ∗ (((c : Thread nD τ).loc main_v13) ↦{fullShare} V m ρ c main_v13))
      ⊢ ((dats m ρ 0 c).arrays ((dats m ρ 0 c).arrAt · 0) : sProp 𝕄) := by
  rw [arrays_open]; exact BI.Entails.refl _

/-- At exit the row-loss array is held whole at what the region wrote. -/
theorem arrays_exit (c : Dev nD) :
    ((dats m ρ 0 c).arrays ((dats m ρ 0 c).arrAt · cfg0.N) : sProp 𝕄) ⊢ (((c : Thread nD τ).loc main_v13) ↦{fullShare} finalLoss m ρ c) := by
  rw [arrays_open]; unfold finalLoss
  iintro ⟨-, -, -, -, -, -, H⟩; iexact H

/-! ## The region -/

/-- What bypasses the region: the four buffers the last lines write and the two arguments, as the region is entered. -/
abbrev ZZ (c : Dev nD) : sProp 𝕄 :=
  iprop((((c : Thread nD τ).loc main_cst_1) ↦{fullShare} V m ρ c main_cst_1) ∗ (((c : Thread nD τ).loc main_v14) ↦{fullShare} V m ρ c main_v14)
    ∗ (((c : Thread nD τ).loc main_cst_2) ↦{fullShare} V m ρ c main_cst_2) ∗ (((c : Thread nD τ).loc main_v15) ↦{fullShare} V m ρ c main_v15)
    ∗ (((c : Thread nD τ).loc main_arg0) ↦{fullShare} V m ρ c main_arg0) ∗ (((c : Thread nD τ).loc main_arg1) ↦{fullShare} V m ρ c main_arg1))

set_option backward.isDefEq.respectTransparency.types false in
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (VE m ρ c) ∗ R c)
  post c := iprop(StableHlo.held (c : Thread nD τ) tailSet (VX m ρ c) ∗ RT m ρ c)
  X c := iprop(emp)
  Y c := iprop(emp)
  Z c := ZZ m ρ c
  hentry c := by
    rw [show StableHlo.held (c : Thread nD τ) (Pipeline.ucRefs τ sig) (VE m ρ c) = unscopedBufs c (V m ρ c) from (Pipeline.unscopedBufs_held c _).symm,
      Pipeline.unscopedBufs_split₀ cfgs 0 winFacts₀0.arr_unscoped c (V m ρ c), arrBufs_open, unscopedRest0_eq]
    iintro ⟨⟨⟨⟨A5, A10, A11, A9, A12, A13⟩, ⟨Ha0, Ha1, -, -, -, -, -, -, -, -, -, -, -, -, -, -, Hc1, H14, Hc2, H15⟩⟩, HO⟩, -, -⟩
    ihave A5s := ((pointsTo_share (PosShare.mem_left_op_right fullShare)).1) $$ A5
    icases A5s with ⟨A5l, A5r⟩
    imodintro
    isplitl [A5l A5r A10 A11 A9 A12 A13]
    · iapply (arrays_entry m ρ c)
      isplitl [A5l]; · iexact A5l
      isplitl [A5r]; · iexact A5r
      isplitl [A10]; · iexact A10
      isplitl [A11]; · iexact A11
      isplitl [A9]; · iexact A9
      isplitl [A12]; · iexact A12
      iexact A13
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hc1]; · iexact Hc1
    isplitl [H14]; · iexact H14
    isplitl [Hc2]; · iexact Hc2
    isplitl [H15]; · iexact H15
    isplitl [Ha0]; · iexact Ha0
    iexact Ha1
  hin c := by
    rw [show (dats m ρ 0 c).Φ 0 = PhiS m ρ c 0 (Nat.zero_le _) from rfl, PhiS_zero m ρ c 0 _ rfl, scopedRest0_eq]
    simp only [sc0, sc1, sc2, sc3, owns_whole]
    iintro ⟨-, -, H⟩; iexact H
  hout c := by
    rw [show (dats m ρ 0 c).Φ (Fin.last cfg0.N) = PhiS m ρ c cfg0.N (le_refl _) from rfl,
      PhiS_pos m ρ c _ _ (by rw [show cfg0.N = 64 from N_0]; decide), Pipeline.ownSems0_none, scopedRest0_eq]
    simp only [sc0, sc1, sc2, sc3, owns_whole]
    iintro ⟨H0, H1, H2, H3⟩
    isplitr; · iempintro
    isplitr; · iempintro
    isplitl [H0]; · iexists _; iexact H0
    isplitl [H1]; · iexists _; iexact H1
    isplitl [H2]; · iexists _; iexact H2
    iexists _; iexact H3
  hexit c := by
    rw [held_tail, VX_v13, VX_ne m ρ c main_cst_1 (by decide), VX_ne m ρ c main_v14 (by decide), VX_ne m ρ c main_cst_2 (by decide), VX_ne m ρ c main_v15 (by decide)]
    iintro ⟨Ha, HO, -, ⟨Hc1, H14, Hc2, H15, Ha0, Ha1⟩⟩
    ihave H13 := (arrays_exit m ρ c) $$ Ha
    imodintro
    isplitl [H13 Hc1 H14 Hc2 H15]
    · isplitl [H13]; · iexact H13
      isplitl [Hc1]; · iexact Hc1
      isplitl [H14]; · iexact H14
      isplitl [Hc2]; · iexact Hc2
      iexact H15
    isplitl [HO]
    · unfold Pipeline.Dat.owesAt Pipeline.owesWithin
      icases HO with ⟨%W, -, HO⟩; iexists W; iexact HO
    isplitl [Ha0]; · iexact Ha0
    iexact Ha1

abbrev segs : List (Pipeline.Seg (pcfgs (F := F)) adm (dats m ρ) () defs₀ 𝒱₀ L lv) :=
  [.host (seg0 m ρ), .host (seg1 m ρ), .region (reg0 m ρ), .host (segT m ρ)]

/-- What the run ends with: the buffers of the last lines after them, and the two arguments. -/
abbrev Tₙ (c : Dev nD) : sProp 𝕄 :=
  iprop(StableHlo.held (c : Thread nD τ) tailSet (StableHlo.after hostOps1 (VX m ρ c))
    ∗ (((c : Thread nD τ).loc main_arg0) ↦{fullShare} V m ρ c main_arg0) ∗ (((c : Thread nD τ).loc main_arg1) ↦{fullShare} V m ρ c main_arg1))

/-- The physical post: the result buffer at the last lines' value of the region's row losses, the arguments as they
    were when the region was entered. -/
def QC : PUnit × MemSt nD τ sig (Elt F) → Prop := fun r =>
  ∀ c : Dev nD, r.2.mem ((c : Thread nD τ).loc main_v15) = StableHlo.after hostOps1 (VX m ρ c) main_v15
    ∧ r.2.mem ((c : Thread nD τ).loc main_arg0) = V m ρ c main_arg0
    ∧ r.2.mem ((c : Thread nD τ).loc main_arg1) = V m ρ c main_arg1

set_option backward.isDefEq.respectTransparency.types false in
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_chain, Pipeline.Seg.run_eq_chain]; exact BI.Entails.refl _)
    (by simp only [Pipeline.Seg.pipes_host, Pipeline.Seg.pipes_region, Pipeline.Seg.pipes_nil]; decide) (O₀ := 0) (hL := fun _ _ => rfl) (G := fun _ => iprop(emp)) (u₀ := u₀)
    (hu₀ := by
      have h : (ownU u₀ : sProp 𝕄) ⊢ BI.own ((EP (F := F)) (initOf (Pipeline.cells (Pipeline.pin (pcfgs (F := F)) adm) cellOf_inj) (Pipeline.launchToks (Pipeline.pin (pcfgs (F := F)) adm) cellOf_inj))) := BI.Entails.refl _
      iintro Hu
      ihave H := (h) $$ Hu
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => .rfl, fun _ => .rfl, fun c => by
      show iprop(StableHlo.held (c : Thread nD τ) tailSet (StableHlo.after hostOps1 (VX m ρ c)) ∗ RT m ρ c) ⊢ _
      iintro ⟨Hh, HR, Ha0, Ha1⟩
      isplitl [Hh Ha0 Ha1]
      · isplitl [Hh]; · iexact Hh
        isplitl [Ha0]; · iexact Ha0
        iexact Ha1
      iexact HR⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v15) = StableHlo.after hostOps1 (VX m ρ c) main_v15
      ∧ s.mem ((c : Thread nD τ).loc main_arg0) = V m ρ c main_arg0
      ∧ s.mem ((c : Thread nD τ).loc main_arg1) = V m ρ c main_arg1)
    (hfin := fun c s' => by
      dsimp only [Tₙ]; rw [held_tail]
      iintro ⟨⟨⟨-, -, -, -, H15⟩, Ha0, Ha1⟩, HSI⟩
      icombine HSI H15 gives %h15
      icombine HSI Ha0 gives %h0
      icombine HSI Ha1 gives %h1
      imodintro
      isplitr; · ipureintro; exact ⟨Buf.eq_of_forall_mem_univ h15, Buf.eq_of_forall_mem_univ h0, Buf.eq_of_forall_mem_univ h1⟩
      iexact HSI)
    (hQ := fun _ h => h)

end Cert.Kernel.Run

end
-- ==== Proof.BitFrame.lean ====
/-
  The frame: the program terminates on every weakly fair execution, nothing faults, and its two argument arrays end as
  they were launched. The run gives each argument at the contents the region was entered with; no host line before the
  region writes an argument (each writes only its own result), so those are the launch contents.
-/
import proofs.«135942_j20263655702978_2_alg».proof.Proof.BitLaunch

set_option maxRecDepth 16384

noncomputable section

namespace Cert.Kernel.Run

open Cert.Kernel Cert.Kernel.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- No line of the length function writes an argument. -/
theorem not_written0 (b : Ref sig .tc) (hb : b = main_arg0 ∨ b = main_arg1) :
    ∀ op ∈ (hostOps0 (F := F)), Proc.devRef .tc b ∉ op.writes := by
  intro op hop
  simp only [List.mem_cons, List.mem_nil_iff, or_false] at hop
  rcases hop with rfl | rfl | rfl | rfl | rfl <;>
    simp only [StableHlo.unary_writes, StableHlo.binary_writes, StableHlo.nullary_writes, Finset.mem_singleton] <;>
    exact StableHlo.devRef_ne_of_ne (by rcases hb with rfl | rfl <;> decide)

/-- Nor does any of the remaining lines before the region. -/
theorem not_written0_1 (b : Ref sig .tc) (hb : b = main_arg0 ∨ b = main_arg1) :
    ∀ op ∈ (hostOps0_1 (F := F)), Proc.devRef .tc b ∉ op.writes := by
  intro op hop
  simp only [List.mem_cons, List.mem_nil_iff, or_false] at hop
  rcases hop with rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by rcases hb with rfl | rfl <;> decide)

/-- So each argument enters the region as launched. -/
theorem V_arg (c : Dev nD) (b : Ref sig .tc) (hb : b = main_arg0 ∨ b = main_arg1) : V m ρ c b = m ((c : Thread nD τ).loc b) :=
  (StableHlo.after_of_forall_not_mem (b := Proc.devRef .tc b) hostOps0_1 (V₁ m ρ c) (not_written0_1 b hb)).trans
    (StableHlo.after_of_forall_not_mem (b := Proc.devRef .tc b) hostOps0 (V₀ m ρ c) (not_written0 b hb))

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (V_arg m ρ c main_arg0 (.inl rfl)), (h c).2.2.trans (V_arg m ρ c main_arg1 (.inr rfl))⟩)
    (run_main m ρ)

end Cert.Kernel.Run

end
-- ==== Proof.KerStep.lean ====
/-
  One grid point of the kernel as pure functions of what it reads.

  At grid point (i, j) the body reads: the row tile of the scaled features (1024 rows), the WHOLE scaled feature
  array — of which it takes the 1024 rows of column tile j —, the row tile of the labels, the WHOLE label row — of
  which it takes the 1024 entries of column tile j —, the row tile of squared lengths as a column and the column
  tile of squared lengths as a row. From these it forms the 1024×1024 tile of squared distances and the tile of
  label agreements, and folds them into four per-row accumulators carried in scratch: the running maximum over
  positives, the running minimum over negatives, and two flags saying a positive / a negative has been seen.
  At j = 0 the accumulators restart from −∞, +∞, 0, 0; at the last column tile the row losses are formed from them.
  Every function here is the body's own arithmetic (the payload terms), only named by what it means.
-/
import proofs.«135942_j20263655702978_2_alg».proof.Proof.Gen.KernelIdeal.Skeleton
import Idealize.ShloMosaic.Lib.Pipeline.FrameBody

noncomputable section

namespace Cert.KernelIdeal.Step

open Cert.KernelIdeal Cert.KernelIdeal.Gen
open Idealize.ShloMosaic

variable {F : FTy → Type} [FloatOps F]

/-- The rows of column tile `j` out of the whole feature array, and the entries of column tile `j` of the label row. -/
def colX (i : grid0.Coords) (x3 : Vec F S8192x256 .bf16) : Vec F S1024x256 .bf16 :=
  View.ld x3 (Rect.unit (s := S8192x256) (k0_off1 i) S1024x256.size (k0_off1_inb i))
def colT (i : grid0.Coords) (t5 : Vec F S1x8192 .i32) : Vec F S1x1024 .i32 :=
  View.ld t5 (Rect.unit (s := S1x8192) (k0_off2 i) S1x1024.size (k0_off2_inb i))

/-- The tile of squared distances and the tile of label agreements at the point. -/
def dist (i : grid0.Coords) (x2 : Vec F S1024x256 .bf16) (x3 : Vec F S8192x256 .bf16) (s6 : Vec F S1024x1 .f32) (s7 : Vec F S1x1024 .f32) :
    FVec F S1024x1024 .f32 := k0_pay9 x2 (colX i x3) s6 s7
def agree (i : grid0.Coords) (t4 : Vec F S1024x1 .i32) (t5 : Vec F S1x8192 .i32) : IVec S1024x1024 1 :=
  k0_pay10 (F := F) t4 (colT i t5)

/-- The four accumulators after the point, from the tiles and the accumulators before it. -/
def next0 (i : grid0.Coords) (x2 : Vec F S1024x256 .bf16) (x3 : Vec F S8192x256 .bf16) (t4 : Vec F S1024x1 .i32) (t5 : Vec F S1x8192 .i32)
    (s6 : Vec F S1024x1 .f32) (s7 : Vec F S1x1024 .f32) (a0 : Vec F S1024x1 .f32) : Vec F S1024x1 .f32 :=
  k0_pay17 (dist i x2 x3 s6 s7) (agree i t4 t5) (k0_pay11 i) (k0_pay12 i) a0
def next1 (i : grid0.Coords) (x2 : Vec F S1024x256 .bf16) (x3 : Vec F S8192x256 .bf16) (t4 : Vec F S1024x1 .i32) (t5 : Vec F S1x8192 .i32)
    (s6 : Vec F S1024x1 .f32) (s7 : Vec F S1x1024 .f32) (a1 : Vec F S1024x1 .f32) : Vec F S1024x1 .f32 :=
  k0_pay1 (k0_pay18 (dist i x2 x3 s6 s7) (agree i t4 t5) a1)
def next2 (i : grid0.Coords) (t4 : Vec F S1024x1 .i32) (t5 : Vec F S1x8192 .i32) (a2 : Vec F S1024x1 .f32) : Vec F S1024x1 .f32 :=
  k0_pay2 (k0_pay15 (F := F) (agree (F := F) i t4 t5) (k0_pay11 i) (k0_pay12 i)) a2
def next3 (i : grid0.Coords) (t4 : Vec F S1024x1 .i32) (t5 : Vec F S1x8192 .i32) (a3 : Vec F S1024x1 .f32) : Vec F S1024x1 .f32 :=
  k0_pay3 (k0_pay16 (F := F) (agree (F := F) i t4 t5)) a3

/-- The row losses of the tile, from the four accumulators at the last column tile. -/
def rowLosses (b0 b1 b2 b3 : Vec F S1024x1 .f32) : Vec F S1024x1 .f32 := k0_pay4 b0 b1 b2 b3

end Cert.KernelIdeal.Step

end
-- ==== Proof.KerBody.lean ====
/-
  The kernel body at one grid point, as three triples — one per control case of its two conditionals. Each says: from
  the seven staging buffers and the four scratch accumulators held whole at given contents, the body runs to its
  return leaving the input buffers as found, the accumulators at the point's fold of them (restarted first at the
  first column tile), and the output buffer either as found or, at the last column tile, at the tile's row losses.
  The arithmetic is not opened here: the contents are the step functions that name it.
-/
import proofs.«135942_j20263655702978_2_alg».proof.Proof.KerStep
import proofs.«135942_j20263655702978_2_alg».proof.Proof.Gen.KernelIdeal.Launch
import proofs.«135942_j20263655702978_2_alg».proof.Proof.Gen.KernelIdeal.Points
import Idealize.ShloMosaic.Lib.Pipeline.Value
import Idealize.ShloMosaic.Lib.Tactic
import Idealize.ShloMosaic.Lib.Pipeline.Kit

set_option maxRecDepth 16384

noncomputable section

namespace Cert.KernelIdeal.Body

open Cert.KernelIdeal Cert.KernelIdeal.Gen Cert.KernelIdeal.Step
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first conditional's condition (restart of the accumulators) and the second's (forming the row losses). -/
abbrev cond0 (i : grid0.Coords) : Prop := (Scalar.cmpi .ne (Scalar.extui (Scalar.cmpi .eq (BitVec.ofNat 32 (i 1).val) 0#32)) 0#32) = 1#1
abbrev cond1 (i : grid0.Coords) : Prop := k0_cond2 i = 1#1

abbrev sc0 : Memref sig .tc .vmem S1024x1 .f32 := Memref.whole cc0_scratch0
abbrev sc1 : Memref sig .tc .vmem S1024x1 .f32 := Memref.whole cc0_scratch1
abbrev sc2 : Memref sig .tc .vmem S1024x1 .f32 := Memref.whole cc0_scratch2
abbrev sc3 : Memref sig .tc .vmem S1024x1 .f32 := Memref.whole cc0_scratch3

theorem hz2 : (![0, 0] : Fin 2 → Nat) = fun _ => 0 := by funext a; fin_cases a <;> rfl

/-- What a whole memref reads after ONE store through its whole rectangle: the stored value. -/
theorem read_store_whole {sp : Space} {S : Shape} {e : EltTy} (M : Memref sig .tc sp S e)
    {off : Fin S.rank → Nat} (h : off = fun _ => 0) (inb : ∀ a, off a + S.size a ≤ S.size a)
    (f : M.view.ty.Contents (Elt F)) (w : S.Idx → Elt F e) :
    M.view.read (Elt F) (M.view.writes (Elt F) f [(⟨Rect.unit off S.size inb, w⟩ : View.Piece (Elt F) S e)]) = w := by
  rw [View.read_writes_eq_canon _ _ _ (fun y => ⟨_, List.mem_singleton_self _, View.mem_set_unit_zero h inb y⟩), View.canon_unit_zero h inb]

/-- What a whole memref reads after a list of stores whose LAST is through its whole rectangle: that store's value. -/
theorem read_store_head {sp : Space} {S : Shape} {e : EltTy} (M : Memref sig .tc sp S e)
    {off : Fin S.rank → Nat} (h : off = fun _ => 0) (inb : ∀ a, off a + S.size a ≤ S.size a)
    (f : M.view.ty.Contents (Elt F)) (w : S.Idx → Elt F e) (L : List (View.Piece (Elt F) S e)) :
    M.view.read (Elt F) (M.view.writes (Elt F) f ((⟨Rect.unit off S.size inb, w⟩ : View.Piece (Elt F) S e) :: L)) = w := by
  rw [View.read_writes_eq_canon _ _ _ (fun y => ⟨_, List.mem_cons_self, View.mem_set_unit_zero h inb y⟩), View.canon_cons_unit_zero h inb]

set_option maxHeartbeats 16000000 in
/-- A middle column tile (neither the first nor the last): the four accumulators are folded once; the output buffer is left as found. -/
theorem runMid (c : Dev nD) (i : grid0.Coords) (hc0 : ¬cond0 i) (hc1 : ¬cond1 i)
    (M2 : Memref sig .tc .vmem S1024x256 .bf16) (h2 : M2.IsWhole) (M3 : Memref sig .tc .vmem S8192x256 .bf16) (h3 : M3.IsWhole)
    (M4 : Memref sig .tc .vmem S1024x1 .i32) (h4 : M4.IsWhole) (M5 : Memref sig .tc .vmem S1x8192 .i32) (h5 : M5.IsWhole)
    (M6 : Memref sig .tc .vmem S1024x1 .f32) (h6 : M6.IsWhole) (M7 : Memref sig .tc .vmem S1x1024 .f32) (h7 : M7.IsWhole)
    (M8 : Memref sig .tc .vmem S1024x1 .f32) (h8 : M8.IsWhole)
    (x2 : Vec F S1024x256 .bf16) (x3 : Vec F S8192x256 .bf16) (t4 : Vec F S1024x1 .i32) (t5 : Vec F S1x8192 .i32)
    (s6 : Vec F S1024x1 .f32) (s7 : Vec F S1x1024 .f32) (o8 : Vec F S1024x1 .f32)
    (a0 a1 a2 a3 : Vec F S1024x1 .f32) (E : Set ℕ) (K : PUnit → sProp 𝕄) :
    iprop(owns (c : Thread nD τ) M2 fullShare x2 ∗ owns (c : Thread nD τ) M3 fullShare x3 ∗ owns (c : Thread nD τ) M4 fullShare t4
        ∗ owns (c : Thread nD τ) M5 fullShare t5 ∗ owns (c : Thread nD τ) M6 fullShare s6 ∗ owns (c : Thread nD τ) M7 fullShare s7
        ∗ owns (c : Thread nD τ) M8 fullShare o8
        ∗ owns (c : Thread nD τ) sc0 fullShare a0 ∗ owns (c : Thread nD τ) sc1 fullShare a1
        ∗ owns (c : Thread nD τ) sc2 fullShare a2 ∗ owns (c : Thread nD τ) sc3 fullShare a3
      ∗ (iprop(owns (c : Thread nD τ) M2 fullShare x2 ∗ owns (c : Thread nD τ) M3 fullShare x3 ∗ owns (c : Thread nD τ) M4 fullShare t4
        ∗ owns (c : Thread nD τ) M5 fullShare t5 ∗ owns (c : Thread nD τ) M6 fullShare s6 ∗ owns (c : Thread nD τ) M7 fullShare s7
            ∗ owns (c : Thread nD τ) M8 fullShare (o8)
            ∗ owns (c : Thread nD τ) sc0 fullShare (next0 i x2 x3 t4 t5 s6 s7 a0) ∗ owns (c : Thread nD τ) sc1 fullShare (next1 i x2 x3 t4 t5 s6 s7 a1)
            ∗ owns (c : Thread nD τ) sc2 fullShare (next2 i t4 t5 a2) ∗ owns (c : Thread nD τ) sc3 fullShare (next3 i t4 t5 a3)) -∗ K ⟨⟩))
    ⊢ wp frame (wpE (defs₀ (F := F)) Variants.none c none) E
        (cc0__triplet_kernel i M2 h2 M3 h3 M4 h4 M5 h5 M6 h6 M7 h7 M8 h8 sc0 (Memref.isWhole_whole _) sc1 (Memref.isWhole_whole _) sc2 (Memref.isWhole_whole _) sc3 (Memref.isWhole_whole _)) K := by
  simp only [cc0__triplet_kernel_eq_skeleton]; unfold cc0__triplet_kernel_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%g0, %hg0, S0⟩, ⟨%g1, %hg1, S1⟩, ⟨%g2, %hg2, S2⟩, ⟨%g3, %hg3, S3⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  obtain rfl := (Memref.isWhole_whole cc0_scratch0).eq_unread hg0; obtain rfl := (Memref.isWhole_whole cc0_scratch1).eq_unread hg1
  obtain rfl := (Memref.isWhole_whole cc0_scratch2).eq_unread hg2; obtain rfl := (Memref.isWhole_whole cc0_scratch3).eq_unread hg3
  sl_exec (disch := first | exact hc0 | exact hc1)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H8]
  · iexists _; isplitr; swap; (· iexact H8)
    ipureintro
    first
      | exact h8.read_unread _
      | ((try sl_unfold_run_names); rw [read_store_head (S := S1024x1) _ hz2]; (try sl_unfold_run_names)
         simp only [View.readAt_eq_ld, View.readCov_unit_zero (S := S1024x1) _ hz2, View.readCov_cons_toLoadRect, hf2, hf3, hf4, hf5, hf6, hf7, hf8, hg0, hg1, hg2, hg3,
           View.ld_unit_zero (S := S1024x1) hz2, View.ld_unit_zero (S := S1024x256) hz2, View.ld_unit_zero (S := S1x1024) hz2]
         rfl)
  isplitl [S0]
  · iexists _; isplitr; swap; (· iexact S0)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  isplitl [S1]
  · iexists _; isplitr; swap; (· iexact S1)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  isplitl [S2]
  · iexists _; isplitr; swap; (· iexact S2)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  · iexists _; isplitr; swap; (· iexact S3)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl

set_option maxHeartbeats 16000000 in
/-- The first column tile: the accumulators restart from −∞, +∞, 0, 0 and are folded once; the output buffer is left as found. -/
theorem runFirst (c : Dev nD) (i : grid0.Coords) (hc0 : cond0 i) (hc1 : ¬cond1 i)
    (M2 : Memref sig .tc .vmem S1024x256 .bf16) (h2 : M2.IsWhole) (M3 : Memref sig .tc .vmem S8192x256 .bf16) (h3 : M3.IsWhole)
    (M4 : Memref sig .tc .vmem S1024x1 .i32) (h4 : M4.IsWhole) (M5 : Memref sig .tc .vmem S1x8192 .i32) (h5 : M5.IsWhole)
    (M6 : Memref sig .tc .vmem S1024x1 .f32) (h6 : M6.IsWhole) (M7 : Memref sig .tc .vmem S1x1024 .f32) (h7 : M7.IsWhole)
    (M8 : Memref sig .tc .vmem S1024x1 .f32) (h8 : M8.IsWhole)
    (x2 : Vec F S1024x256 .bf16) (x3 : Vec F S8192x256 .bf16) (t4 : Vec F S1024x1 .i32) (t5 : Vec F S1x8192 .i32)
    (s6 : Vec F S1024x1 .f32) (s7 : Vec F S1x1024 .f32) (o8 : Vec F S1024x1 .f32)
    (a0 a1 a2 a3 : Vec F S1024x1 .f32) (E : Set ℕ) (K : PUnit → sProp 𝕄) :
    iprop(owns (c : Thread nD τ) M2 fullShare x2 ∗ owns (c : Thread nD τ) M3 fullShare x3 ∗ owns (c : Thread nD τ) M4 fullShare t4
        ∗ owns (c : Thread nD τ) M5 fullShare t5 ∗ owns (c : Thread nD τ) M6 fullShare s6 ∗ owns (c : Thread nD τ) M7 fullShare s7
        ∗ owns (c : Thread nD τ) M8 fullShare o8
        ∗ owns (c : Thread nD τ) sc0 fullShare a0 ∗ owns (c : Thread nD τ) sc1 fullShare a1
        ∗ owns (c : Thread nD τ) sc2 fullShare a2 ∗ owns (c : Thread nD τ) sc3 fullShare a3
      ∗ (iprop(owns (c : Thread nD τ) M2 fullShare x2 ∗ owns (c : Thread nD τ) M3 fullShare x3 ∗ owns (c : Thread nD τ) M4 fullShare t4
        ∗ owns (c : Thread nD τ) M5 fullShare t5 ∗ owns (c : Thread nD τ) M6 fullShare s6 ∗ owns (c : Thread nD τ) M7 fullShare s7
            ∗ owns (c : Thread nD τ) M8 fullShare (o8)
            ∗ owns (c : Thread nD τ) sc0 fullShare (next0 i x2 x3 t4 t5 s6 s7 k0_pay5) ∗ owns (c : Thread nD τ) sc1 fullShare (next1 i x2 x3 t4 t5 s6 s7 k0_pay6)
            ∗ owns (c : Thread nD τ) sc2 fullShare (next2 i t4 t5 k0_pay7) ∗ owns (c : Thread nD τ) sc3 fullShare (next3 i t4 t5 k0_pay8)) -∗ K ⟨⟩))
    ⊢ wp frame (wpE (defs₀ (F := F)) Variants.none c none) E
        (cc0__triplet_kernel i M2 h2 M3 h3 M4 h4 M5 h5 M6 h6 M7 h7 M8 h8 sc0 (Memref.isWhole_whole _) sc1 (Memref.isWhole_whole _) sc2 (Memref.isWhole_whole _) sc3 (Memref.isWhole_whole _)) K := by
  simp only [cc0__triplet_kernel_eq_skeleton]; unfold cc0__triplet_kernel_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%g0, %hg0, S0⟩, ⟨%g1, %hg1, S1⟩, ⟨%g2, %hg2, S2⟩, ⟨%g3, %hg3, S3⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  obtain rfl := (Memref.isWhole_whole cc0_scratch0).eq_unread hg0; obtain rfl := (Memref.isWhole_whole cc0_scratch1).eq_unread hg1
  obtain rfl := (Memref.isWhole_whole cc0_scratch2).eq_unread hg2; obtain rfl := (Memref.isWhole_whole cc0_scratch3).eq_unread hg3
  sl_exec (disch := first | exact hc0 | exact hc1)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H8]
  · iexists _; isplitr; swap; (· iexact H8)
    ipureintro
    first
      | exact h8.read_unread _
      | ((try sl_unfold_run_names); rw [read_store_head (S := S1024x1) _ hz2]; (try sl_unfold_run_names)
         simp only [View.readAt_eq_ld, View.readCov_unit_zero (S := S1024x1) _ hz2, View.readCov_cons_toLoadRect, hf2, hf3, hf4, hf5, hf6, hf7, hf8, hg0, hg1, hg2, hg3,
           View.ld_unit_zero (S := S1024x1) hz2, View.ld_unit_zero (S := S1024x256) hz2, View.ld_unit_zero (S := S1x1024) hz2]
         rfl)
  isplitl [S0]
  · iexists _; isplitr; swap; (· iexact S0)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  isplitl [S1]
  · iexists _; isplitr; swap; (· iexact S1)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  isplitl [S2]
  · iexists _; isplitr; swap; (· iexact S2)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  · iexists _; isplitr; swap; (· iexact S3)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl

set_option maxHeartbeats 16000000 in
/-- The last column tile: the accumulators are folded once more and the tile's row losses, formed from them, are stored whole into the output buffer. -/
theorem runLast (c : Dev nD) (i : grid0.Coords) (hc0 : ¬cond0 i) (hc1 : cond1 i)
    (M2 : Memref sig .tc .vmem S1024x256 .bf16) (h2 : M2.IsWhole) (M3 : Memref sig .tc .vmem S8192x256 .bf16) (h3 : M3.IsWhole)
    (M4 : Memref sig .tc .vmem S1024x1 .i32) (h4 : M4.IsWhole) (M5 : Memref sig .tc .vmem S1x8192 .i32) (h5 : M5.IsWhole)
    (M6 : Memref sig .tc .vmem S1024x1 .f32) (h6 : M6.IsWhole) (M7 : Memref sig .tc .vmem S1x1024 .f32) (h7 : M7.IsWhole)
    (M8 : Memref sig .tc .vmem S1024x1 .f32) (h8 : M8.IsWhole)
    (x2 : Vec F S1024x256 .bf16) (x3 : Vec F S8192x256 .bf16) (t4 : Vec F S1024x1 .i32) (t5 : Vec F S1x8192 .i32)
    (s6 : Vec F S1024x1 .f32) (s7 : Vec F S1x1024 .f32) (o8 : Vec F S1024x1 .f32)
    (a0 a1 a2 a3 : Vec F S1024x1 .f32) (E : Set ℕ) (K : PUnit → sProp 𝕄) :
    iprop(owns (c : Thread nD τ) M2 fullShare x2 ∗ owns (c : Thread nD τ) M3 fullShare x3 ∗ owns (c : Thread nD τ) M4 fullShare t4
        ∗ owns (c : Thread nD τ) M5 fullShare t5 ∗ owns (c : Thread nD τ) M6 fullShare s6 ∗ owns (c : Thread nD τ) M7 fullShare s7
        ∗ owns (c : Thread nD τ) M8 fullShare o8
        ∗ owns (c : Thread nD τ) sc0 fullShare a0 ∗ owns (c : Thread nD τ) sc1 fullShare a1
        ∗ owns (c : Thread nD τ) sc2 fullShare a2 ∗ owns (c : Thread nD τ) sc3 fullShare a3
      ∗ (iprop(owns (c : Thread nD τ) M2 fullShare x2 ∗ owns (c : Thread nD τ) M3 fullShare x3 ∗ owns (c : Thread nD τ) M4 fullShare t4
        ∗ owns (c : Thread nD τ) M5 fullShare t5 ∗ owns (c : Thread nD τ) M6 fullShare s6 ∗ owns (c : Thread nD τ) M7 fullShare s7
            ∗ owns (c : Thread nD τ) M8 fullShare (rowLosses (next0 i x2 x3 t4 t5 s6 s7 a0) (next1 i x2 x3 t4 t5 s6 s7 a1) (next2 i t4 t5 a2) (next3 i t4 t5 a3))
            ∗ owns (c : Thread nD τ) sc0 fullShare (next0 i x2 x3 t4 t5 s6 s7 a0) ∗ owns (c : Thread nD τ) sc1 fullShare (next1 i x2 x3 t4 t5 s6 s7 a1)
            ∗ owns (c : Thread nD τ) sc2 fullShare (next2 i t4 t5 a2) ∗ owns (c : Thread nD τ) sc3 fullShare (next3 i t4 t5 a3)) -∗ K ⟨⟩))
    ⊢ wp frame (wpE (defs₀ (F := F)) Variants.none c none) E
        (cc0__triplet_kernel i M2 h2 M3 h3 M4 h4 M5 h5 M6 h6 M7 h7 M8 h8 sc0 (Memref.isWhole_whole _) sc1 (Memref.isWhole_whole _) sc2 (Memref.isWhole_whole _) sc3 (Memref.isWhole_whole _)) K := by
  simp only [cc0__triplet_kernel_eq_skeleton]; unfold cc0__triplet_kernel_skel
  simp only [k0_part1_eq_skeleton, k0_part2_eq_skeleton]; unfold k0_part1_skel k0_part2_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩,
    ⟨%g0, %hg0, S0⟩, ⟨%g1, %hg1, S1⟩, ⟨%g2, %hg2, S2⟩, ⟨%g3, %hg3, S3⟩, Hk⟩
  obtain rfl := h2.eq_unread hf2; obtain rfl := h3.eq_unread hf3; obtain rfl := h4.eq_unread hf4; obtain rfl := h5.eq_unread hf5
  obtain rfl := h6.eq_unread hf6; obtain rfl := h7.eq_unread hf7; obtain rfl := h8.eq_unread hf8
  obtain rfl := (Memref.isWhole_whole cc0_scratch0).eq_unread hg0; obtain rfl := (Memref.isWhole_whole cc0_scratch1).eq_unread hg1
  obtain rfl := (Memref.isWhole_whole cc0_scratch2).eq_unread hg2; obtain rfl := (Memref.isWhole_whole cc0_scratch3).eq_unread hg3
  sl_exec (disch := first | exact hc0 | exact hc1)
  sl_step
  iapply Hk
  isplitl [H2]; · iexists _; isplitr; · ipureintro; exact h2.read_unread _
                  iexact H2
  isplitl [H3]; · iexists _; isplitr; · ipureintro; exact h3.read_unread _
                  iexact H3
  isplitl [H4]; · iexists _; isplitr; · ipureintro; exact h4.read_unread _
                  iexact H4
  isplitl [H5]; · iexists _; isplitr; · ipureintro; exact h5.read_unread _
                  iexact H5
  isplitl [H6]; · iexists _; isplitr; · ipureintro; exact h6.read_unread _
                  iexact H6
  isplitl [H7]; · iexists _; isplitr; · ipureintro; exact h7.read_unread _
                  iexact H7
  isplitl [H8]
  · iexists _; isplitr; swap; (· iexact H8)
    ipureintro
    first
      | exact h8.read_unread _
      | ((try sl_unfold_run_names); rw [read_store_head (S := S1024x1) _ hz2]; (try sl_unfold_run_names)
         simp only [View.readAt_eq_ld, View.readCov_unit_zero (S := S1024x1) _ hz2, View.readCov_cons_toLoadRect, hf2, hf3, hf4, hf5, hf6, hf7, hf8, hg0, hg1, hg2, hg3,
           View.ld_unit_zero (S := S1024x1) hz2, View.ld_unit_zero (S := S1024x256) hz2, View.ld_unit_zero (S := S1x1024) hz2]
         rfl)
  isplitl [S0]
  · iexists _; isplitr; swap; (· iexact S0)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  isplitl [S1]
  · iexists _; isplitr; swap; (· iexact S1)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  isplitl [S2]
  · iexists _; isplitr; swap; (· iexact S2)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl
  · iexists _; isplitr; swap; (· iexact S3)
    ipureintro; (try sl_unfold_run_names); rw [read_store_head (S := S1024x1) _ hz2]; (try sl_unfold_run_names)
    simp only [View.readAt_eq_ld, View.readCov_unit_zero (S := S1024x1) _ hz2, View.readCov_cons_toLoadRect, hf2, hf3, hf4, hf5, hf6, hf7, hf8, hg0, hg1, hg2, hg3,
      View.ld_unit_zero (S := S1024x1) hz2, View.ld_unit_zero (S := S1024x256) hz2, View.ld_unit_zero (S := S1x1024) hz2]
    rfl

end Cert.KernelIdeal.Body

end
-- ==== Proof.KerAcc.lean ====
/-
  The four scratch accumulators point by point, and the row losses stored at the last column tile.

  The grid's 64 points run row tile by row tile (point t has row tile t / 8 and column tile t % 8). At a point whose
  column tile is 0 the accumulators restart; otherwise they continue from what the point before left. `accAt` is that
  recursion over what the body reads at each point (`Blocks`), `lossAt` the tile of row losses formed from the
  accumulators after a point (stored by the body only at the last column tile).
-/
import proofs.«135942_j20263655702978_2_alg».proof.Proof.KerStep

noncomputable section

namespace Cert.KernelIdeal.Acc

open Cert.KernelIdeal Cert.KernelIdeal.Gen Cert.KernelIdeal.Step
open Idealize.ShloMosaic

variable {F : FTy → Type} [FloatOps F]

/-- What the body reads at each point: the row-tile blocks (features, labels, squared lengths as a column), the
    column-tile block of squared lengths as a row, and the two arrays it keeps whole (features, labels as a row; the same
    at every point, indexed by the point only for uniformity). -/
structure Blocks (F : FTy → Type) [FloatOps F] where
  x2 : Fin cfg0.N → Vec F S1024x256 .bf16
  x3 : Fin cfg0.N → Vec F S8192x256 .bf16
  t4 : Fin cfg0.N → Vec F S1024x1 .i32
  t5 : Fin cfg0.N → Vec F S1x8192 .i32
  s6 : Fin cfg0.N → Vec F S1024x1 .f32
  s7 : Fin cfg0.N → Vec F S1x1024 .f32

/-- The four accumulators: running maximum over positives, running minimum over negatives, the two seen-flags. -/
abbrev Quad (F : FTy → Type) [FloatOps F] : Type :=
  Vec F S1024x1 .f32 × Vec F S1024x1 .f32 × Vec F S1024x1 .f32 × Vec F S1024x1 .f32

/-- The accumulators a row tile starts from: −∞, +∞, 0, 0. -/
def restart : Quad F := (k0_pay5, k0_pay6, k0_pay7, k0_pay8)

/-- One point's fold of the accumulators. -/
def fold (B : Blocks F) (t : Fin cfg0.N) (a : Quad F) : Quad F :=
  (next0 (grid0.coords t) (B.x2 t) (B.x3 t) (B.t4 t) (B.t5 t) (B.s6 t) (B.s7 t) a.1,
   next1 (grid0.coords t) (B.x2 t) (B.x3 t) (B.t4 t) (B.t5 t) (B.s6 t) (B.s7 t) a.2.1,
   next2 (grid0.coords t) (B.t4 t) (B.t5 t) a.2.2.1,
   next3 (grid0.coords t) (B.t4 t) (B.t5 t) a.2.2.2)

/-- The accumulators after point `n`. -/
def accAt (B : Blocks F) : (n : ℕ) → n < cfg0.N → Quad F
  | 0, h => fold B ⟨0, h⟩ restart
  | n + 1, h => if (n + 1) % 8 = 0 then fold B ⟨n + 1, h⟩ restart else fold B ⟨n + 1, h⟩ (accAt B n (Nat.lt_of_succ_lt h))

theorem accAt_first (B : Blocks F) (t : Fin cfg0.N) (h : t.val % 8 = 0) : accAt B t.val t.isLt = fold B t restart := by
  obtain ⟨n, hn⟩ := t
  cases n with
  | zero => rfl
  | succ n => exact if_pos h

theorem accAt_next (B : Blocks F) (t : Fin cfg0.N) (h : ¬ t.val % 8 = 0) :
    accAt B t.val t.isLt = fold B t (accAt B (t.val - 1) (Nat.lt_of_le_of_lt (Nat.sub_le _ _) t.isLt)) := by
  obtain ⟨n, hn⟩ := t
  cases n with
  | zero => exact absurd (Nat.zero_mod _) h
  | succ n => exact if_neg h

/-- The tile of row losses formed from the accumulators after point `t`. -/
def lossAt (B : Blocks F) (t : Fin cfg0.N) : Vec F S1024x1 .f32 :=
  rowLosses (accAt B t.val t.isLt).1 (accAt B t.val t.isLt).2.1 (accAt B t.val t.isLt).2.2.1 (accAt B t.val t.isLt).2.2.2

end Cert.KernelIdeal.Acc

end
-- ==== Proof.KerData.lean ====
/-
  The kernel region's proof data and the body obligation.

  The region is entered after the host lines that scale the rows (the scaled features are handed to TWO windows of
  the pipeline: a row tile per point and the whole array kept resident), take the squared lengths and lay the labels
  and squared lengths out as a column and as a row. Per point the pipeline hands the body its six input blocks —
  each the block of its array at the point, fetched there or not — and the output's staging buffer. The body's own
  state between points is the four scratch accumulators: at anything before the first point, afterwards at the
  recursion's value after the point before (`Acc.accAt`). The output's buffer is stored only at the last column
  tile of a row tile, with that tile's row losses (`Acc.lossAt`), and is written back exactly there; at the other
  points the window is idle and its buffer is handed back as found.
-/
import proofs.«135942_j20263655702978_2_alg».proof.Proof.KerBody
import proofs.«135942_j20263655702978_2_alg».proof.Proof.KerAcc
import Idealize.ShloMosaic.Lib.Pipeline.Regions
import Idealize.ShloMosaic.Lib.Pipeline.FrameBody

set_option maxRecDepth 16384

noncomputable section

namespace Cert.KernelIdeal.Run

open Cert.KernelIdeal Cert.KernelIdeal.Gen Cert.KernelIdeal.Step Cert.KernelIdeal.Acc Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents the region is entered with -/

/-- Core `c`'s buffers at launch, as the host operations' valuation; after the lines of the length function; and when
    the region is entered (after the remaining lines before it). -/
abbrev V₀ (c : Dev nD) : Valuation τ sig (Elt F) := fun b => (s₀ m ρ).mem ((c : Dev nD), b)
abbrev V₁ (c : Dev nD) : Valuation τ sig (Elt F) := StableHlo.after hostOps0 (V₀ m ρ c)
abbrev VE (c : Dev nD) : Valuation τ sig (Elt F) := StableHlo.after hostOps0_1 (V₁ m ρ c)
abbrev V (c : Dev nD) (b : Ref sig .tc) : Buf (Elt F) ((c : Thread nD τ).loc b) := VE m ρ c b

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))

/-- What the body reads at each point: the six input windows' blocks. -/
def blocks (c : Dev nD) : Blocks F where
  x2 t := iblk m ρ c 0 t
  x3 t := iblk m ρ c 1 t
  t4 t := iblk m ρ c 2 t
  t5 t := iblk m ρ c 3 t
  s6 t := iblk m ρ c 4 t
  s7 t := iblk m ρ c 5 t

/-! ## The two conditionals over the grid, and where the output window is idle -/

theorem hcond0 : ∀ t : Fin cfg0.N, cond0 (grid0.coords t) ↔ t.val % 8 = 0 :=
  (by decide +kernel : ∀ t : Fin grid0.N, cond0 (grid0.coords t) ↔ t.val % 8 = 0)
theorem hcond1 : ∀ t : Fin cfg0.N, cond1 (grid0.coords t) ↔ t.val % 8 = 7 :=
  (by decide +kernel : ∀ t : Fin grid0.N, cond1 (grid0.coords t) ↔ t.val % 8 = 7)
theorem live_0 : ∀ t : Fin cfg0.N, cfg0.idle 0 (grid0.coords t) = false := fun _ => rfl
theorem live_1 : ∀ t : Fin cfg0.N, cfg0.idle 1 (grid0.coords t) = false := fun _ => rfl
theorem live_2 : ∀ t : Fin cfg0.N, cfg0.idle 2 (grid0.coords t) = false := fun _ => rfl
theorem live_3 : ∀ t : Fin cfg0.N, cfg0.idle 3 (grid0.coords t) = false := fun _ => rfl
theorem live_4 : ∀ t : Fin cfg0.N, cfg0.idle 4 (grid0.coords t) = false := fun _ => rfl
theorem live_5 : ∀ t : Fin cfg0.N, cfg0.idle 5 (grid0.coords t) = false := fun _ => rfl
theorem idle_6 : ∀ t : Fin cfg0.N, ¬cond1 (grid0.coords t) → cfg0.idle 6 (grid0.coords t) = true := by decide +kernel
theorem live_6 : ∀ t : Fin cfg0.N, cond1 (grid0.coords t) → cfg0.idle 6 (grid0.coords t) = false := by decide +kernel
theorem noFlush_6 : ∀ t : Fin cfg0.N, ¬cond1 (grid0.coords t) → (cfg0.win 6).flush t = false := by decide +kernel

/-- Each window's current staging memref at point `t`, as the pipeline passes it, and its wholeness. -/
abbrev ms0 (t : Fin cfg0.N) : Memref sig .tc .vmem S1024x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x256 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x8192 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x1024 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S1024x1 .f32 := win0_6.stage (cfg0.slots t 6)
abbrev hs6 (t : Fin cfg0.N) : (ms6 t).IsWhole := hstage0_6 ((cfg0.slots t 6).cast nbuf0_6)

/-! ## The invariant between points: the four accumulators -/

def PhiS (c : Dev nD) : (n : ℕ) → n ≤ cfg0.N → sProp 𝕄
  | 0, _ => iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d))
  | n + 1, hn => iprop(owns (c : Thread nD τ) sc0 fullShare (accAt (blocks m ρ c) n hn).1 ∗ owns (c : Thread nD τ) sc1 fullShare (accAt (blocks m ρ c) n hn).2.1
      ∗ owns (c : Thread nD τ) sc2 fullShare (accAt (blocks m ρ c) n hn).2.2.1 ∗ owns (c : Thread nD τ) sc3 fullShare (accAt (blocks m ρ c) n hn).2.2.2)

theorem PhiS_zero (c : Dev nD) (n : ℕ) (h : n ≤ cfg0.N) (hz : n = 0) :
    PhiS m ρ c n h = iprop((∃ d, owns (c : Thread nD τ) sc0 fullShare d) ∗ (∃ d, owns (c : Thread nD τ) sc1 fullShare d)
      ∗ (∃ d, owns (c : Thread nD τ) sc2 fullShare d) ∗ (∃ d, owns (c : Thread nD τ) sc3 fullShare d)) := by
  subst hz; rfl

theorem PhiS_succ (c : Dev nD) (n : ℕ) (hn : n < cfg0.N) :
    PhiS m ρ c (n + 1) hn = iprop(owns (c : Thread nD τ) sc0 fullShare (accAt (blocks m ρ c) n hn).1 ∗ owns (c : Thread nD τ) sc1 fullShare (accAt (blocks m ρ c) n hn).2.1
      ∗ owns (c : Thread nD τ) sc2 fullShare (accAt (blocks m ρ c) n hn).2.2.1 ∗ owns (c : Thread nD τ) sc3 fullShare (accAt (blocks m ρ c) n hn).2.2.2) := rfl

theorem PhiS_pos (c : Dev nD) (n : ℕ) (h : n ≤ cfg0.N) (hz : n ≠ 0) :
    PhiS m ρ c n h = iprop(owns (c : Thread nD τ) sc0 fullShare (accAt (blocks m ρ c) (n - 1) (by omega)).1 ∗ owns (c : Thread nD τ) sc1 fullShare (accAt (blocks m ρ c) (n - 1) (by omega)).2.1
      ∗ owns (c : Thread nD τ) sc2 fullShare (accAt (blocks m ρ c) (n - 1) (by omega)).2.2.1 ∗ owns (c : Thread nD τ) sc3 fullShare (accAt (blocks m ρ c) (n - 1) (by omega)).2.2.2) := by
  cases n with
  | zero => exact absurd rfl hz
  | succ n => rfl

/-! ## The proof data -/

/-- The scaled features are read by two windows: each holds half of the array's share. -/
def dats (_ : Fin 1) (c : Dev nD) : Dat τ (Elt F) Unit ℕ (UR sig nD τ) ℕ cfg0 c where
  A w := V m ρ c (Pipeline.arrRef spec0 w)
  after w t := match w with
    | ⟨0, _⟩ => iblk m ρ c 0 t
    | ⟨1, _⟩ => iblk m ρ c 1 t
    | ⟨2, _⟩ => iblk m ρ c 2 t
    | ⟨3, _⟩ => iblk m ρ c 3 t
    | ⟨4, _⟩ => iblk m ρ c 4 t
    | ⟨5, _⟩ => iblk m ρ c 5 t
    | ⟨6, _⟩ => lossAt (blocks m ρ c) t
  Φ t := PhiS m ρ c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

theorem A_eq (c : Dev nD) (w : Fin cfg0.W) : (dats m ρ 0 c).A w = V m ρ c (Pipeline.arrRef spec0 w) := by
  dsimp only [dats]

theorem PhiS_castSucc (c : Dev nD) (t : Fin cfg0.N) :
    (dats m ρ 0 c).Φ t.castSucc = PhiS m ρ c t.val (Nat.le_of_lt t.isLt) := by
  dsimp only [dats]; simp only [Fin.coe_castSucc]

theorem after_0 (c : Dev nD) (t : Fin cfg0.N) : (dats m ρ 0 c).after 0 t = iblk m ρ c 0 t := by dsimp only [dats]
theorem after_1 (c : Dev nD) (t : Fin cfg0.N) : (dats m ρ 0 c).after 1 t = iblk m ρ c 1 t := by dsimp only [dats]
theorem after_2 (c : Dev nD) (t : Fin cfg0.N) : (dats m ρ 0 c).after 2 t = iblk m ρ c 2 t := by dsimp only [dats]
theorem after_3 (c : Dev nD) (t : Fin cfg0.N) : (dats m ρ 0 c).after 3 t = iblk m ρ c 3 t := by dsimp only [dats]
theorem after_4 (c : Dev nD) (t : Fin cfg0.N) : (dats m ρ 0 c).after 4 t = iblk m ρ c 4 t := by dsimp only [dats]
theorem after_5 (c : Dev nD) (t : Fin cfg0.N) : (dats m ρ 0 c).after 5 t = iblk m ρ c 5 t := by dsimp only [dats]
theorem after_6 (c : Dev nD) (t : Fin cfg0.N) : (dats m ρ 0 c).after 6 t = lossAt (blocks m ρ c) t := by dsimp only [dats]

/-- Each input's current staging buffer holds its block at every point, fetched there or not. -/
theorem before_0 (c : Dev nD) (t : Fin cfg0.N) (d) : (dats m ρ 0 c).before 0 t d = iblk m ρ c 0 t :=
  ((dats m ρ 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m ρ 0 c).before 1 t d = iblk m ρ c 1 t :=
  ((dats m ρ 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m ρ 0 c).before 2 t d = iblk m ρ c 2 t :=
  ((dats m ρ 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m ρ 0 c).before 3 t d = iblk m ρ c 3 t :=
  ((dats m ρ 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m ρ 0 c).before 4 t d = iblk m ρ c 4 t :=
  ((dats m ρ 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m ρ 0 c).before 5 t d = iblk m ρ c 5 t :=
  ((dats m ρ 0 c).before_in_eq_fetched 5 rfl (fun _ => rfl) (fun _ _ _ => rfl)
    (fun t => by rw [after_5]; unfold Dat.blockOf iblk; rw [A_eq]; try rfl) t d).trans
    (by unfold Dat.fetched Dat.blockOf iblk; rw [A_eq]; try rfl)

/-! ## The body obligation -/

def bodyPre (c : Dev nD) (t : Fin cfg0.N) : sProp 𝕄 :=
  iprop((dats m ρ 0 c).Φ t.castSucc ∗ (dats m ρ 0 c).owesAt () t.castSucc
    ∗ (∃ d, owns (c : Thread nD τ) (ms0 t) fullShare ((dats m ρ 0 c).before 0 t d))
    ∗ (∃ d, owns (c : Thread nD τ) (ms1 t) fullShare ((dats m ρ 0 c).before 1 t d))
    ∗ (∃ d, owns (c : Thread nD τ) (ms2 t) fullShare ((dats m ρ 0 c).before 2 t d))
    ∗ (∃ d, owns (c : Thread nD τ) (ms3 t) fullShare ((dats m ρ 0 c).before 3 t d))
    ∗ (∃ d, owns (c : Thread nD τ) (ms4 t) fullShare ((dats m ρ 0 c).before 4 t d))
    ∗ (∃ d, owns (c : Thread nD τ) (ms5 t) fullShare ((dats m ρ 0 c).before 5 t d))
    ∗ (∃ d, owns (c : Thread nD τ) (ms6 t) fullShare ((dats m ρ 0 c).before 6 t d)))

def bodyPost (c : Dev nD) (t : Fin cfg0.N) : sProp 𝕄 :=
  iprop((dats m ρ 0 c).Φ t.succ ∗ (dats m ρ 0 c).owesAt () t.succ
    ∗ (dats m ρ 0 c).leavesExact 0 t ∗ (dats m ρ 0 c).leavesExact 1 t ∗ (dats m ρ 0 c).leavesExact 2 t
    ∗ (dats m ρ 0 c).leavesExact 3 t ∗ (dats m ρ 0 c).leavesExact 4 t ∗ (dats m ρ 0 c).leavesExact 5 t
    ∗ (dats m ρ 0 c).leavesExact 6 t)

set_option maxHeartbeats 8000000 in
/-- The body at any point: the inputs' buffers hold their blocks; the point's column tile decides the case; the
    accumulators come from the invariant (at anything where they restart) and go back at the recursion's next value. -/
theorem sound_body (c : Dev nD) (t : Fin cfg0.N) :
    bodyPre m ρ c t ⊢ wp frame (wpE (defs₀ (F := F)) Variants.none c none) Set.univ (bodyAt0 t) (fun _ => bodyPost m ρ c t) := by
  unfold bodyPre bodyPost bodyAt0
  simp only [before_0, before_1, before_2, before_3, before_4, before_5]
  rw [show (dats m ρ 0 c).owesAt () t.succ = (dats m ρ 0 c).owesAt () t.castSucc from rfl]
  rw [show (dats m ρ 0 c).Φ t.succ = PhiS m ρ c (t.val + 1) t.isLt from rfl, PhiS_succ]
  have hN : t.val < 64 := lt_of_lt_of_eq t.isLt (show cfg0.N = 64 from N_0)
  rw [show (dats m ρ 0 c).leavesExact 0 t = owns (c : Thread nD τ) (ms0 t) fullShare ((dats m ρ 0 c).after 0 t) from by
      unfold Dat.leavesExact; rw [live_0 t], after_0]
  rw [show (dats m ρ 0 c).leavesExact 1 t = owns (c : Thread nD τ) (ms1 t) fullShare ((dats m ρ 0 c).after 1 t) from by
      unfold Dat.leavesExact; rw [live_1 t], after_1]
  rw [show (dats m ρ 0 c).leavesExact 2 t = owns (c : Thread nD τ) (ms2 t) fullShare ((dats m ρ 0 c).after 2 t) from by
      unfold Dat.leavesExact; rw [live_2 t], after_2]
  rw [show (dats m ρ 0 c).leavesExact 3 t = owns (c : Thread nD τ) (ms3 t) fullShare ((dats m ρ 0 c).after 3 t) from by
      unfold Dat.leavesExact; rw [live_3 t], after_3]
  rw [show (dats m ρ 0 c).leavesExact 4 t = owns (c : Thread nD τ) (ms4 t) fullShare ((dats m ρ 0 c).after 4 t) from by
      unfold Dat.leavesExact; rw [live_4 t], after_4]
  rw [show (dats m ρ 0 c).leavesExact 5 t = owns (c : Thread nD τ) (ms5 t) fullShare ((dats m ρ 0 c).after 5 t) from by
      unfold Dat.leavesExact; rw [live_5 t], after_5]
  by_cases h0 : t.val % 8 = 0
  · have hc1 : ¬cond1 (grid0.coords t) := fun h => by have := (hcond1 t).mp h; omega
    rw [Dat.leavesExact_idle (dats m ρ 0 c) 6 t (idle_6 t hc1) (noFlush_6 t hc1)]
    rw [accAt_first (blocks m ρ c) t h0]
    by_cases hz : t.val = 0
    · rw [PhiS_castSucc m ρ c t, PhiS_zero m ρ c _ _ hz]
      iintro ⟨⟨⟨%e0, S0⟩, ⟨%e1, S1⟩, ⟨%e2, S2⟩, ⟨%e3, S3⟩⟩, Ho, ⟨%d0, H0⟩, ⟨%d1, H1⟩, ⟨%d2, H2⟩, ⟨%d3, H3⟩, ⟨%d4, H4⟩, ⟨%d5, H5⟩, ⟨%d6, H6⟩⟩
      iapply (runFirst c (grid0.coords t) ((hcond0 t).mpr h0) hc1 (ms0 t) (hs0 t) (ms1 t) (hs1 t) (ms2 t) (hs2 t) (ms3 t) (hs3 t) (ms4 t) (hs4 t) (ms5 t) (hs5 t) (ms6 t) (hs6 t)
          (iblk m ρ c 0 t) (iblk m ρ c 1 t) (iblk m ρ c 2 t) (iblk m ρ c 3 t) (iblk m ρ c 4 t) (iblk m ρ c 5 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3]
      · isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m ρ c t, PhiS_pos m ρ c _ _ hz]
      iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
      iapply (runFirst c (grid0.coords t) ((hcond0 t).mpr h0) hc1 (ms0 t) (hs0 t) (ms1 t) (hs1 t) (ms2 t) (hs2 t) (ms3 t) (hs3 t) (ms4 t) (hs4 t) (ms5 t) (hs5 t) (ms6 t) (hs6 t)
          (iblk m ρ c 0 t) (iblk m ρ c 1 t) (iblk m ρ c 2 t) (iblk m ρ c 3 t) (iblk m ρ c 4 t) (iblk m ρ c 5 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3]
      · isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    have hc0 : ¬cond0 (grid0.coords t) := fun h => h0 ((hcond0 t).mp h)
    rw [accAt_next (blocks m ρ c) t h0]
    rw [PhiS_castSucc m ρ c t, PhiS_pos m ρ c _ _ hz]
    by_cases h1 : t.val % 8 = 7
    · rw [show (dats m ρ 0 c).leavesExact 6 t = owns (c : Thread nD τ) (ms6 t) fullShare ((dats m ρ 0 c).after 6 t) from by
        unfold Dat.leavesExact; rw [live_6 t ((hcond1 t).mpr h1)], after_6]
      unfold lossAt; rw [accAt_next (blocks m ρ c) t h0]
      iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
      iapply (runLast c (grid0.coords t) hc0 ((hcond1 t).mpr h1) (ms0 t) (hs0 t) (ms1 t) (hs1 t) (ms2 t) (hs2 t) (ms3 t) (hs3 t) (ms4 t) (hs4 t) (ms5 t) (hs5 t) (ms6 t) (hs6 t)
          (iblk m ρ c 0 t) (iblk m ρ c 1 t) (iblk m ρ c 2 t) (iblk m ρ c 3 t) (iblk m ρ c 4 t) (iblk m ρ c 5 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3]
      · isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond1 (grid0.coords t) := fun h => h1 ((hcond1 t).mp h)
      rw [Dat.leavesExact_idle (dats m ρ 0 c) 6 t (idle_6 t hc1) (noFlush_6 t hc1)]
      iintro ⟨⟨S0, S1, S2, S3⟩, Ho, ⟨%d0, H0⟩, ⟨%d1, H1⟩, ⟨%d2, H2⟩, ⟨%d3, H3⟩, ⟨%d4, H4⟩, ⟨%d5, H5⟩, ⟨%d6, H6⟩⟩
      iapply (runMid c (grid0.coords t) hc0 hc1 (ms0 t) (hs0 t) (ms1 t) (hs1 t) (ms2 t) (hs2 t) (ms3 t) (hs3 t) (ms4 t) (hs4 t) (ms5 t) (hs5 t) (ms6 t) (hs6 t)
          (iblk m ρ c 0 t) (iblk m ρ c 1 t) (iblk m ρ c 2 t) (iblk m ρ c 3 t) (iblk m ρ c 4 t) (iblk m ρ c 5 t) _ _ _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [S0]; · iexact S0
      isplitl [S1]; · iexact S1
      isplitl [S2]; · iexact S2
      isplitl [S3]; · iexact S3
      iintro ⟨H0, H1, H2, H3, H4, H5, H6, S0, S1, S2, S3⟩
      isplitl [S0 S1 S2 S3]
      · isplitl [S0]; · iexact S0
        isplitl [S1]; · iexact S1
        isplitl [S2]; · iexact S2
        iexact S3
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m ρ 0 c) (defs₀ (F := F)) Variants.none () Set.univ := fun t => by
  rw [bigSep_W0, bigSep_W0]
  exact sound_body m ρ c t

end Cert.KernelIdeal.Run

end
-- ==== Proof.KerLaunch.lean ====
/-
  The launch: @main as four segments — the host lines of the length function, the remaining host lines before the
  region (scaling, squared lengths, the label and squared-length layouts), the kernel region, and the host lines after
  it (the mean of the row losses) — composed by the library's rule for a list of segments. Entering the region, the
  scaled features' buffer is split by share between the two windows that read it; leaving it, only the row-loss array
  (written back whole by the region) and the buffers of the last lines are carried on, beside the two arguments.
  `run_main`: for any float values, from any memory with zero counters, every weakly fair execution terminates with the
  result buffer at the last lines' value of the region's row losses and both arguments as launched.
-/
import proofs.«135942_j20263655702978_2_alg».proof.Proof.KerData

set_option maxRecDepth 16384

noncomputable section

namespace Cert.KernelIdeal.Run

open Cert.KernelIdeal Cert.KernelIdeal.Gen Cert.KernelIdeal.Step Cert.KernelIdeal.Acc Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The pipeline library's algebra is the whole of the certificate's. -/
abbrev EP : Emb (UR sig nD τ) (MT nD τ sig Unit (Elt F) ℕ (UR sig nD τ) ℕ) := emb₁

variable (m : (ℓ : Loc nD τ sig) → Buf (Elt F) ℓ) (ρ : Dev nD → PrngReg)

abbrev 𝒱₀ : Variants := Variants.none
/-- No core owes another anything: no level is assigned; no table is prefetched. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm
/-- What rides beside the buffers through the host lines: the core owing nothing. -/
abbrev R (c : Dev nD) : sProp 𝕄 := iprop(∃ W, owes (c : Thread nD τ) (0 : CellTallies nD τ sig Unit) W)

def u₀ : UR sig nD τ := initOf (Pipeline.cells cfgs cellOf_inj) (Pipeline.launchToks cfgs cellOf_inj)

theorem fresh0 : ∀ op ∈ (hostOps0 (F := F)), op.fresh = ∅ := by
  intro _ h; (repeat (cases h with | head => rfl | tail _ h => ?_)); exact nomatch h
theorem fresh0_1 : ∀ op ∈ (hostOps0_1 (F := F)), op.fresh = ∅ := by
  intro _ h; (repeat (cases h with | head => rfl | tail _ h => ?_)); exact nomatch h
theorem fresh1 : ∀ op ∈ (hostOps1 (F := F)), op.fresh = ∅ := by
  intro _ h; (repeat (cases h with | head => rfl | tail _ h => ?_)); exact nomatch h

/-! ## The host lines before the region -/

def seg0 : Pipeline.HostSeg (Name := ℕ) (U := UR sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) fresh0 (V₀ m ρ) R
def seg1 : Pipeline.HostSeg (Name := ℕ) (U := UR sig nD τ) (pcfgs (F := F)) defs₀ 𝒱₀ L lv :=
  Pipeline.HostSeg.ofOps _ _ _ _ _ (Pipeline.ucRefs τ sig) hostOps0_1
    (fun op h => Pipeline.sub_ucRefs op ((List.forall_iff_forall_mem.mp hostOps0_1_sub) op h)) fresh0_1 (V₁ m ρ) R

/-! ## The lines after the region: the mean of the row losses -/

/-- The array of row losses as the region leaves it. -/
def finalLoss (c : Dev nD) : Buf (Elt F) ((cfg0.win 6).arr.view.loc (c : Thread nD τ)) := (dats m ρ 0 c).arrAt 6 cfg0.N

/-- The buffers' contents when the region is left: as entered, with the row-loss array at what the region wrote. -/
abbrev VX (c : Dev nD) : Valuation τ sig (Elt F) := StableHlo.after [StableHlo.nullary main_v13 (finalLoss m ρ c)] (VE m ρ c)

/-- The buffers the last lines run within: the row-loss array and the four values they write. -/
def tailList : List (DevRef τ sig) :=
  [Proc.devRef .tc main_v13, Proc.devRef .tc main_cst_1, Proc.devRef .tc main_v14, Proc.devRef .tc main_cst_2, Proc.devRef .tc main_v15]
def tailSet : Finset (DevRef τ sig) := tailList.toFinset

theorem tail_sub : ∀ op ∈ (hostOps1 (F := F)), op.bufs ⊆ tailSet := by
  intro op h
  simp only [hostOps1, List.mem_cons, List.mem_nil_iff, or_false] at h
  rcases h with rfl | rfl | rfl | rfl <;>
    simp only [StableHlo.nullary_bufs, StableHlo.binary_bufs, tailSet, tailList] <;> decide

/-- The arguments ride beside the last lines untouched. -/
abbrev RT (c : Dev nD) : sProp 𝕄 :=
  iprop(R c ∗ (((c : Thread nD τ).loc main_arg0) ↦{fullShare} V m ρ c main_arg0) ∗ (((c : Thread nD τ).loc main_arg1) ↦{fullShare} V m ρ c main_arg1))

def segT : Pipeline.HostSeg (Name := ℕ) (U := UR sig nD τ) (pcfgs (F := F)) defs₀ 𝒱₀ L lv :=
  Pipeline.HostSeg.ofOps _ _ _ _ _ tailSet hostOps1 tail_sub fresh1 (VX m ρ) (RT m ρ)

/-- The pipeline's arrays, window by window: the scaled features' buffer appears twice, at the two halves of its share. -/
theorem arrays_open (c : Dev nD) (Fw : (w : Fin cfg0.W) → Buf (Elt F) ((cfg0.win w).arr.view.loc (c : Thread nD τ))) :
    ((dats m ρ 0 c).arrays Fw : sProp 𝕄)
      = iprop((((c : Thread nD τ).loc main_v5) ↦{fullShare.left} Fw 0) ∗ (((c : Thread nD τ).loc main_v5) ↦{fullShare.right} Fw 1)
        ∗ (((c : Thread nD τ).loc main_v10) ↦{fullShare} Fw 2) ∗ (((c : Thread nD τ).loc main_v11) ↦{fullShare} Fw 3)
        ∗ (((c : Thread nD τ).loc main_v9) ↦{fullShare} Fw 4) ∗ (((c : Thread nD τ).loc main_v12) ↦{fullShare} Fw 5)
        ∗ (((c : Thread nD τ).loc main_v13) ↦{fullShare} Fw 6)) := by
  unfold Dat.arrays
  rw [bigSep_W0]
  have h0 : (cfg0.win 0).arr.view.set = Finset.univ := (arr_whole0 0).set_eq_univ
  have h2 : (cfg0.win 2).arr.view.set = Finset.univ := (arr_whole0 2).set_eq_univ
  have h3 : (cfg0.win 3).arr.view.set = Finset.univ := (arr_whole0 3).set_eq_univ
  have h4 : (cfg0.win 4).arr.view.set = Finset.univ := (arr_whole0 4).set_eq_univ
  have h5 : (cfg0.win 5).arr.view.set = Finset.univ := (arr_whole0 5).set_eq_univ
  have h6 : (cfg0.win 6).arr.view.set = Finset.univ := (arr_whole0 6).set_eq_univ
  rw [h0, h2, h3, h4, h5, h6]
  rfl

/-- The distinct buffers behind the windows' arrays, listed. -/
theorem arrBufs_open (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_v5) ↦{fullShare} W main_v5) ∗ (((c : Thread nD τ).loc main_v10) ↦{fullShare} W main_v10)
        ∗ (((c : Thread nD τ).loc main_v11) ↦{fullShare} W main_v11) ∗ (((c : Thread nD τ).loc main_v9) ↦{fullShare} W main_v9)
        ∗ (((c : Thread nD τ).loc main_v12) ↦{fullShare} W main_v12) ∗ (((c : Thread nD τ).loc main_v13) ↦{fullShare} W main_v13)) := by
  unfold Pipeline.arrBufs
  rw [bigSep_eq_bigSepL_of_eq [main_v5, main_v10, main_v11, main_v9, main_v12, main_v13] (by decide) (by decide)]
  rfl

/-- The buffers of the last lines, held at a valuation, one by one. -/
theorem held_tail (c : Dev nD) (W : Valuation τ sig (Elt F)) :
    (StableHlo.held (c : Thread nD τ) tailSet W : sProp 𝕄)
      = iprop((((c : Thread nD τ).loc main_v13) ↦{fullShare} W main_v13) ∗ (((c : Thread nD τ).loc main_cst_1) ↦{fullShare} W main_cst_1)
        ∗ (((c : Thread nD τ).loc main_v14) ↦{fullShare} W main_v14) ∗ (((c : Thread nD τ).loc main_cst_2) ↦{fullShare} W main_cst_2)
        ∗ (((c : Thread nD τ).loc main_v15) ↦{fullShare} W main_v15)) := by
  unfold StableHlo.held tailSet
  rw [bigSep_eq_bigSepL_of_eq tailList rfl (by decide)]
  rfl

/-- The exit valuation at the row-loss array and elsewhere. -/
theorem VX_v13 (c : Dev nD) : VX m ρ c main_v13 = finalLoss m ρ c := by
  show StableHlo.after [StableHlo.nullary main_v13 (finalLoss m ρ c)] (VE m ρ c) (Proc.devRef .tc main_v13) = _
  rw [StableHlo.after_cons, StableHlo.after_nil]
  exact StableHlo.nullary_result' (τ := τ) (y := main_v13) (finalLoss m ρ c) _ (VE m ρ c)
theorem VX_ne (c : Dev nD) (r : Ref sig .tc) (h : r ≠ main_v13) : VX m ρ c r = V m ρ c r := by
  show StableHlo.after [StableHlo.nullary main_v13 (finalLoss m ρ c)] (VE m ρ c) (Proc.devRef .tc r) = _
  rw [StableHlo.after_cons, StableHlo.after_nil]
  exact StableHlo.nullary_result_ne' (τ := τ) (y := main_v13) (finalLoss m ρ c) _ (VE m ρ c) h

/-- At entry the seven windows' arrays are the six buffers at the region-entry contents, the scaled features' buffer
    shared between its two windows. -/
theorem arrays_entry (c : Dev nD) :
    iprop((((c : Thread nD τ).loc main_v5) ↦{fullShare.left} V m ρ c main_v5) ∗ (((c : Thread nD τ).loc main_v5) ↦{fullShare.right} V m ρ c main_v5)
        ∗ (((c : Thread nD τ).loc main_v10) ↦{fullShare} V m ρ c main_v10) ∗ (((c : Thread nD τ).loc main_v11) ↦{fullShare} V m ρ c main_v11)
        ∗ (((c : Thread nD τ).loc main_v9) ↦{fullShare} V m ρ c main_v9) ∗ (((c : Thread nD τ).loc main_v12) ↦{fullShare} V m ρ c main_v12)
        ∗ (((c : Thread nD τ).loc main_v13) ↦{fullShare} V m ρ c main_v13))
      ⊢ ((dats m ρ 0 c).arrays ((dats m ρ 0 c).arrAt · 0) : sProp 𝕄) := by
  rw [arrays_open]; exact BI.Entails.refl _

/-- At exit the row-loss array is held whole at what the region wrote. -/
theorem arrays_exit (c : Dev nD) :
    ((dats m ρ 0 c).arrays ((dats m ρ 0 c).arrAt · cfg0.N) : sProp 𝕄) ⊢ (((c : Thread nD τ).loc main_v13) ↦{fullShare} finalLoss m ρ c) := by
  rw [arrays_open]; unfold finalLoss
  iintro ⟨-, -, -, -, -, -, H⟩; iexact H

/-! ## The region -/

/-- What bypasses the region: the four buffers the last lines write and the two arguments, as the region is entered. -/
abbrev ZZ (c : Dev nD) : sProp 𝕄 :=
  iprop((((c : Thread nD τ).loc main_cst_1) ↦{fullShare} V m ρ c main_cst_1) ∗ (((c : Thread nD τ).loc main_v14) ↦{fullShare} V m ρ c main_v14)
    ∗ (((c : Thread nD τ).loc main_cst_2) ↦{fullShare} V m ρ c main_cst_2) ∗ (((c : Thread nD τ).loc main_v15) ↦{fullShare} V m ρ c main_v15)
    ∗ (((c : Thread nD τ).loc main_arg0) ↦{fullShare} V m ρ c main_arg0) ∗ (((c : Thread nD τ).loc main_arg1) ↦{fullShare} V m ρ c main_arg1))

set_option backward.isDefEq.respectTransparency.types false in
def reg0 : Pipeline.RegionSeg (pcfgs (F := F)) adm (dats m ρ) () defs₀ 𝒱₀ L lv 0 where
  win := winFacts₀0
  block_pos := block_pos0
  stage_whole := stage_whole0
  K := PEmpty
  osem := fun k => k.elim
  ho := Pipeline.OwnSemFacts.none _
  hbody c := (body_obligation m ρ c).loose
  hwaits := Pipeline.hwaits_of_owed_zero _ _ _ _ L lv 0 fun _ _ => rfl
  pre c := iprop(StableHlo.held (c : Thread nD τ) (Pipeline.ucRefs τ sig) (VE m ρ c) ∗ R c)
  post c := iprop(StableHlo.held (c : Thread nD τ) tailSet (VX m ρ c) ∗ RT m ρ c)
  X c := iprop(emp)
  Y c := iprop(emp)
  Z c := ZZ m ρ c
  hentry c := by
    rw [show StableHlo.held (c : Thread nD τ) (Pipeline.ucRefs τ sig) (VE m ρ c) = unscopedBufs c (V m ρ c) from (Pipeline.unscopedBufs_held c _).symm,
      Pipeline.unscopedBufs_split₀ cfgs 0 winFacts₀0.arr_unscoped c (V m ρ c), arrBufs_open, unscopedRest0_eq]
    iintro ⟨⟨⟨⟨A5, A10, A11, A9, A12, A13⟩, ⟨Ha0, Ha1, -, -, -, -, -, -, -, -, -, -, -, -, -, -, Hc1, H14, Hc2, H15⟩⟩, HO⟩, -, -⟩
    ihave A5s := ((pointsTo_share (PosShare.mem_left_op_right fullShare)).1) $$ A5
    icases A5s with ⟨A5l, A5r⟩
    imodintro
    isplitl [A5l A5r A10 A11 A9 A12 A13]
    · iapply (arrays_entry m ρ c)
      isplitl [A5l]; · iexact A5l
      isplitl [A5r]; · iexact A5r
      isplitl [A10]; · iexact A10
      isplitl [A11]; · iexact A11
      isplitl [A9]; · iexact A9
      isplitl [A12]; · iexact A12
      iexact A13
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hc1]; · iexact Hc1
    isplitl [H14]; · iexact H14
    isplitl [Hc2]; · iexact Hc2
    isplitl [H15]; · iexact H15
    isplitl [Ha0]; · iexact Ha0
    iexact Ha1
  hin c := by
    rw [show (dats m ρ 0 c).Φ 0 = PhiS m ρ c 0 (Nat.zero_le _) from rfl, PhiS_zero m ρ c 0 _ rfl, scopedRest0_eq]
    simp only [sc0, sc1, sc2, sc3, owns_whole]
    iintro ⟨-, -, H⟩; iexact H
  hout c := by
    rw [show (dats m ρ 0 c).Φ (Fin.last cfg0.N) = PhiS m ρ c cfg0.N (le_refl _) from rfl,
      PhiS_pos m ρ c _ _ (by rw [show cfg0.N = 64 from N_0]; decide), Pipeline.ownSems0_none, scopedRest0_eq]
    simp only [sc0, sc1, sc2, sc3, owns_whole]
    iintro ⟨H0, H1, H2, H3⟩
    isplitr; · iempintro
    isplitr; · iempintro
    isplitl [H0]; · iexists _; iexact H0
    isplitl [H1]; · iexists _; iexact H1
    isplitl [H2]; · iexists _; iexact H2
    iexists _; iexact H3
  hexit c := by
    rw [held_tail, VX_v13, VX_ne m ρ c main_cst_1 (by decide), VX_ne m ρ c main_v14 (by decide), VX_ne m ρ c main_cst_2 (by decide), VX_ne m ρ c main_v15 (by decide)]
    iintro ⟨Ha, HO, -, ⟨Hc1, H14, Hc2, H15, Ha0, Ha1⟩⟩
    ihave H13 := (arrays_exit m ρ c) $$ Ha
    imodintro
    isplitl [H13 Hc1 H14 Hc2 H15]
    · isplitl [H13]; · iexact H13
      isplitl [Hc1]; · iexact Hc1
      isplitl [H14]; · iexact H14
      isplitl [Hc2]; · iexact Hc2
      iexact H15
    isplitl [HO]
    · unfold Pipeline.Dat.owesAt Pipeline.owesWithin
      icases HO with ⟨%W, -, HO⟩; iexists W; iexact HO
    isplitl [Ha0]; · iexact Ha0
    iexact Ha1

abbrev segs : List (Pipeline.Seg (pcfgs (F := F)) adm (dats m ρ) () defs₀ 𝒱₀ L lv) :=
  [.host (seg0 m ρ), .host (seg1 m ρ), .region (reg0 m ρ), .host (segT m ρ)]

/-- What the run ends with: the buffers of the last lines after them, and the two arguments. -/
abbrev Tₙ (c : Dev nD) : sProp 𝕄 :=
  iprop(StableHlo.held (c : Thread nD τ) tailSet (StableHlo.after hostOps1 (VX m ρ c))
    ∗ (((c : Thread nD τ).loc main_arg0) ↦{fullShare} V m ρ c main_arg0) ∗ (((c : Thread nD τ).loc main_arg1) ↦{fullShare} V m ρ c main_arg1))

/-- The physical post: the result buffer at the last lines' value of the region's row losses, the arguments as they
    were when the region was entered. -/
def QC : PUnit × MemSt nD τ sig (Elt F) → Prop := fun r =>
  ∀ c : Dev nD, r.2.mem ((c : Thread nD τ).loc main_v15) = StableHlo.after hostOps1 (VX m ρ c) main_v15
    ∧ r.2.mem ((c : Thread nD τ).loc main_arg0) = V m ρ c main_arg0
    ∧ r.2.mem ((c : Thread nD τ).loc main_arg1) = V m ρ c main_arg1

set_option backward.isDefEq.respectTransparency.types false in
theorem run_main : θ_run defs (onTc (τ := τ) (main (F := F))) (s₀ m ρ) (QC m ρ) :=
  Pipeline.θ_run_regions_kit (pcfgs (F := F)) adm (dats m ρ) () cellOf_inj EP defs₀ 𝒱₀ L lv m ρ main (segs m ρ)
    (fun c Q => by rw [main_chain, Pipeline.Seg.run_eq_chain]; exact BI.Entails.refl _)
    (by simp only [Pipeline.Seg.pipes_host, Pipeline.Seg.pipes_region, Pipeline.Seg.pipes_nil]; decide) (O₀ := 0) (hL := fun _ _ => rfl) (G := fun _ => iprop(emp)) (u₀ := u₀)
    (hu₀ := by
      have h : (ownU u₀ : sProp 𝕄) ⊢ BI.own ((EP (F := F)) (initOf (Pipeline.cells (Pipeline.pin (pcfgs (F := F)) adm) cellOf_inj) (Pipeline.launchToks (Pipeline.pin (pcfgs (F := F)) adm) cellOf_inj))) := BI.Entails.refl _
      iintro Hu
      ihave H := (h) $$ Hu
      imodintro
      isplitl [H]; · iexact H
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c)) (Tₙ := Tₙ m ρ)
    (hch := ⟨fun _ => .rfl, fun _ => .rfl, fun _ => .rfl, fun _ => .rfl, fun c => by
      show iprop(StableHlo.held (c : Thread nD τ) tailSet (StableHlo.after hostOps1 (VX m ρ c)) ∗ RT m ρ c) ⊢ _
      iintro ⟨Hh, HR, Ha0, Ha1⟩
      isplitl [Hh Ha0 Ha1]
      · isplitl [Hh]; · iexact Hh
        isplitl [Ha0]; · iexact Ha0
        iexact Ha1
      iexact HR⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => s.mem ((c : Thread nD τ).loc main_v15) = StableHlo.after hostOps1 (VX m ρ c) main_v15
      ∧ s.mem ((c : Thread nD τ).loc main_arg0) = V m ρ c main_arg0
      ∧ s.mem ((c : Thread nD τ).loc main_arg1) = V m ρ c main_arg1)
    (hfin := fun c s' => by
      dsimp only [Tₙ]; rw [held_tail]
      iintro ⟨⟨⟨-, -, -, -, H15⟩, Ha0, Ha1⟩, HSI⟩
      icombine HSI H15 gives %h15
      icombine HSI Ha0 gives %h0
      icombine HSI Ha1 gives %h1
      imodintro
      isplitr; · ipureintro; exact ⟨Buf.eq_of_forall_mem_univ h15, Buf.eq_of_forall_mem_univ h0, Buf.eq_of_forall_mem_univ h1⟩
      iexact HSI)
    (hQ := fun _ h => h)

end Cert.KernelIdeal.Run

end
-- ==== Proof.KerFrame.lean ====
/-
  The frame: the program terminates on every weakly fair execution, nothing faults, and its two argument arrays end as
  they were launched. The run gives each argument at the contents the region was entered with; no host line before the
  region writes an argument (each writes only its own result), so those are the launch contents.
-/
import proofs.«135942_j20263655702978_2_alg».proof.Proof.KerLaunch

set_option maxRecDepth 16384

noncomputable section

namespace Cert.KernelIdeal.Run

open Cert.KernelIdeal Cert.KernelIdeal.Gen
open Idealize.ShloMosaic Idealize.ShloMosaic.TcCoe
open Idealize.SL Idealize.SL.Sem

variable {F : FTy → Type} [FloatOps F]

variable (m : (ℓ : Loc nD τ sig) → Buf (Elt F) ℓ) (ρ : Dev nD → PrngReg)

/-- No line of the length function writes an argument. -/
theorem not_written0 (b : Ref sig .tc) (hb : b = main_arg0 ∨ b = main_arg1) :
    ∀ op ∈ (hostOps0 (F := F)), Proc.devRef .tc b ∉ op.writes := by
  intro op hop
  simp only [List.mem_cons, List.mem_nil_iff, or_false] at hop
  rcases hop with rfl | rfl | rfl | rfl | rfl <;>
    simp only [StableHlo.unary_writes, StableHlo.binary_writes, StableHlo.nullary_writes, Finset.mem_singleton] <;>
    exact StableHlo.devRef_ne_of_ne (by rcases hb with rfl | rfl <;> decide)

/-- Nor does any of the remaining lines before the region. -/
theorem not_written0_1 (b : Ref sig .tc) (hb : b = main_arg0 ∨ b = main_arg1) :
    ∀ op ∈ (hostOps0_1 (F := F)), Proc.devRef .tc b ∉ op.writes := by
  intro op hop
  simp only [List.mem_cons, List.mem_nil_iff, or_false] at hop
  rcases hop with rfl | rfl | rfl | rfl | rfl | rfl | rfl | rfl | rfl | rfl | rfl | rfl | rfl | rfl <;>
    simp only [StableHlo.unary_writes, StableHlo.binary_writes, StableHlo.nullary_writes, StableHlo.reshape_writes, Finset.mem_singleton] <;>
    exact StableHlo.devRef_ne_of_ne (by rcases hb with rfl | rfl <;> decide)

/-- So each argument enters the region as launched. -/
theorem V_arg (c : Dev nD) (b : Ref sig .tc) (hb : b = main_arg0 ∨ b = main_arg1) : V m ρ c b = m ((c : Thread nD τ).loc b) :=
  (StableHlo.after_of_forall_not_mem (b := Proc.devRef .tc b) hostOps0_1 (V₁ m ρ c) (not_written0_1 b hb)).trans
    (StableHlo.after_of_forall_not_mem (b := Proc.devRef .tc b) hostOps0 (V₀ m ρ c) (not_written0 b hb))

/-- THE FRAME, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.1.trans (V_arg m ρ c main_arg0 (.inl rfl)), (h c).2.2.trans (V_arg m ρ c main_arg1 (.inr rfl))⟩)
    (run_main m ρ)

end Cert.KernelIdeal.Run

end
-- ==== Proof.KerFinal.lean ====
/-
  The region's result array in closed form, and the value the last host lines make of it.

  The row-loss array is written back only at the last column tile of each row tile: point t with t % 8 = 7 writes rows
  1024·(t / 8) … 1024·(t / 8) + 1023 of the one column, and those eight blocks cover the array. So if the tile of row
  losses at each such point is, row by row, a function `Lr` of the GLOBAL row index, the array after the run is `Lr` of its
  row index. The last lines then take the sum of the array from the zero word and divide by the row count.
-/
import proofs.«135942_j20263655702978_2_alg».proof.Proof.KerFrame
import Idealize.ShloMosaic.Lib.ValueIdx

set_option maxRecDepth 16384

noncomputable section

namespace Cert.KernelIdeal.Run

open Cert.KernelIdeal Cert.KernelIdeal.Gen Cert.KernelIdeal.Acc
open Idealize.ShloMosaic Idealize.ShloMosaic.TcCoe Idealize.ShloMosaic.ValueIdx
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The output window's block index at point `t`: row tile t / 8, the one column. -/
theorem idx6 : ∀ t : Fin cfg0.N, win0_6.index t (0 : Fin 2) = t.val / 8 ∧ win0_6.index t (1 : Fin 2) = 0 :=
  (by decide +kernel : ∀ t : Fin grid0.N, win0_6.index t (0 : Fin 2) = t.val / 8 ∧ win0_6.index t (1 : Fin 2) = 0)

/-- An index of the row-loss array is in point `t`'s block iff each coordinate is in the block's range. -/
theorem mem_blk6 (t : Fin cfg0.N) (i : S8192x1.Idx) :
    i ∈ ((cfg0.win 6).blk t).view.set ↔ ∀ a : Fin 2, win0_6.index t a * S1024x1.size a ≤ (i a).val ∧ (i a).val < win0_6.index t a * S1024x1.size a + S1024x1.size a := by
  show i ∈ ((View.whole main_v13).slice (win0_6.rect t)).set ↔ _
  rw [View.set_slice_whole, Rect.mem_set_unit]
  exact Iff.rfl

/-- Every row is in the block of the last column tile of its row tile. -/
theorem cover6 (i : S8192x1.Idx) : ∃ t : Fin cfg0.N, (cfg0.win 6).flush t = true ∧ i ∈ ((cfg0.win 6).blk t).view.set := by
  have hi0 : (i 0).val < 8192 := (i 0).isLt
  have hi1 : (i 1).val < 1 := (i 1).isLt
  have hN : 8 * ((i 0).val / 1024) + 7 < cfg0.N := by rw [show cfg0.N = 64 from N_0]; omega
  refine ⟨⟨8 * ((i 0).val / 1024) + 7, hN⟩, (flush0_6 _).mpr (by show (8 * ((i 0).val / 1024) + 7) % 8 = 7; omega), ?_⟩
  rw [mem_blk6]
  obtain ⟨e0, e1⟩ := idx6 ⟨8 * ((i 0).val / 1024) + 7, hN⟩
  intro a
  match a with
  | ⟨0, _⟩ =>
    show win0_6.index ⟨8 * ((i 0).val / 1024) + 7, hN⟩ (0 : Fin 2) * 1024 ≤ (i 0).val ∧ (i 0).val < win0_6.index ⟨8 * ((i 0).val / 1024) + 7, hN⟩ (0 : Fin 2) * 1024 + 1024
    rw [e0]; show (8 * ((i 0).val / 1024) + 7) / 8 * 1024 ≤ (i 0).val ∧ (i 0).val < (8 * ((i 0).val / 1024) + 7) / 8 * 1024 + 1024
    omega
  | ⟨1, _⟩ =>
    show win0_6.index ⟨8 * ((i 0).val / 1024) + 7, hN⟩ (1 : Fin 2) * 1 ≤ (i 1).val ∧ (i 1).val < win0_6.index ⟨8 * ((i 0).val / 1024) + 7, hN⟩ (1 : Fin 2) * 1 + 1
    rw [e1]; omega

/-- THE ROW-LOSS ARRAY after the run: `Lr` of the row index, when each written-back tile is `Lr` of its global rows. -/
theorem finalLoss_eq (c : Dev nD) (Lr : Fin 8192 → Elt F .f32)
    (hL : ∀ (t : Fin cfg0.N), t.val % 8 = 7 → ∀ (p : Fin 1024) (r : Fin 8192), r.val = 1024 * (t.val / 8) + p.val →
      lossAt (blocks m ρ c) t (ix2 p (0 : Fin 1)) = Lr r) :
    finalLoss m ρ c = fun i => Lr (i 0) := by
  unfold finalLoss
  refine (dats m ρ 0 c).arrAt_eq_of_cover 6 (fun i => Lr (i 0)) (fun t hf => ?_) cover6
  show (cfg0.win 6).cut (grid0.coords t) ((dats m ρ 0 c).after 6 t) = _
  rw [after_6]
  funext j
  obtain ⟨p, z, rfl⟩ : ∃ (p : Fin 1024) (z : Fin 1), j = ix2 p z := ⟨j 0, j 1, eq_ix2 j⟩
  obtain rfl : z = 0 := Subsingleton.elim _ _
  obtain ⟨e0, e1⟩ := idx6 t
  refine hL t ((flush0_6 t).mp hf) p _ ?_
  show win0_6.index t (0 : Fin 2) * 1024 + 1 * p.val = 1024 * (t.val / 8) + p.val
  rw [e0]; omega

end Cert.KernelIdeal.Run

end
-- ==== Proof.KerBlocks.lean ====
/-
  The six input blocks read at an index. A block's entry at (p, k) is the array's entry at
  (block index on axis 0 × block rows + p, block index on axis 1 × block columns + k); the block indices are decided
  over the grid: the row-tile windows sit at row tile t / 8, the column-tile window at column tile t % 8, the two
  resident windows at the origin.
-/
import proofs.«135942_j20263655702978_2_alg».proof.Proof.KerData
import Idealize.ShloMosaic.Lib.ValueIdx

set_option maxRecDepth 16384

noncomputable section

namespace Cert.KernelIdeal.Run

open Cert.KernelIdeal Cert.KernelIdeal.Gen
open Idealize.ShloMosaic Idealize.ShloMosaic.TcCoe Idealize.ShloMosaic.ValueIdx

variable {F : FTy → Type} [FloatOps F]

variable (m : (ℓ : Loc nD τ sig) → Buf (Elt F) ℓ) (ρ : Dev nD → PrngReg)

theorem idxIn : ∀ t : Fin cfg0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0
    ∧ win0_5.index t (0 : Fin 2) = 0 ∧ win0_5.index t (1 : Fin 2) = t.val % 8 :=
  (by decide +kernel : ∀ t : Fin grid0.N,
    win0_0.index t (0 : Fin 2) = t.val / 8 ∧ win0_0.index t (1 : Fin 2) = 0
    ∧ win0_1.index t (0 : Fin 2) = 0 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = 0
    ∧ win0_4.index t (0 : Fin 2) = t.val / 8 ∧ win0_4.index t (1 : Fin 2) = 0
    ∧ win0_5.index t (0 : Fin 2) = 0 ∧ win0_5.index t (1 : Fin 2) = t.val % 8)

theorem iblk0_apply (c : Dev nD) (t : Fin cfg0.N) (p : Fin 1024) (k : Fin 256) (r : Fin 8192) (s : Fin 256) (hr : r.val = 1024 * (t.val / 8) + p.val) (hs : s.val = k.val) :
    iblk m ρ c 0 t (ix2 p k) = V m ρ c main_v5 (ix2 r s) := by
  obtain ⟨a0, a1, b0, b1, c0, c1, d0, d1, g0, g1, h0, h1⟩ := idxIn t
  show V m ρ c main_v5 (((cfg0.win 0).blk t).view.emb (ix2 p k)) = V m ρ c main_v5 (ix2 r s)
  refine congrArg _ (funext fun a => Fin.ext ?_)
  match a with
  | ⟨0, _⟩ => show win0_0.index t (0 : Fin 2) * 1024 + 1 * p.val = r.val; rw [a0]; omega
  | ⟨1, _⟩ => show win0_0.index t (1 : Fin 2) * 256 + 1 * k.val = s.val; rw [a1]; omega

theorem iblk1_apply (c : Dev nD) (t : Fin cfg0.N) (p : Fin 8192) (k : Fin 256) (r : Fin 8192) (s : Fin 256) (hr : r.val = p.val) (hs : s.val = k.val) :
    iblk m ρ c 1 t (ix2 p k) = V m ρ c main_v5 (ix2 r s) := by
  obtain ⟨a0, a1, b0, b1, c0, c1, d0, d1, g0, g1, h0, h1⟩ := idxIn t
  show V m ρ c main_v5 (((cfg0.win 1).blk t).view.emb (ix2 p k)) = V m ρ c main_v5 (ix2 r s)
  refine congrArg _ (funext fun a => Fin.ext ?_)
  match a with
  | ⟨0, _⟩ => show win0_1.index t (0 : Fin 2) * 8192 + 1 * p.val = r.val; rw [b0]; omega
  | ⟨1, _⟩ => show win0_1.index t (1 : Fin 2) * 256 + 1 * k.val = s.val; rw [b1]; omega

theorem iblk2_apply (c : Dev nD) (t : Fin cfg0.N) (p : Fin 1024) (k : Fin 1) (r : Fin 8192) (s : Fin 1) (hr : r.val = 1024 * (t.val / 8) + p.val) (hs : s.val = k.val) :
    iblk m ρ c 2 t (ix2 p k) = V m ρ c main_v10 (ix2 r s) := by
  obtain ⟨a0, a1, b0, b1, c0, c1, d0, d1, g0, g1, h0, h1⟩ := idxIn t
  show V m ρ c main_v10 (((cfg0.win 2).blk t).view.emb (ix2 p k)) = V m ρ c main_v10 (ix2 r s)
  refine congrArg _ (funext fun a => Fin.ext ?_)
  match a with
  | ⟨0, _⟩ => show win0_2.index t (0 : Fin 2) * 1024 + 1 * p.val = r.val; rw [c0]; omega
  | ⟨1, _⟩ => show win0_2.index t (1 : Fin 2) * 1 + 1 * k.val = s.val; rw [c1]; omega

theorem iblk3_apply (c : Dev nD) (t : Fin cfg0.N) (p : Fin 1) (k : Fin 8192) (r : Fin 1) (s : Fin 8192) (hr : r.val = p.val) (hs : s.val = k.val) :
    iblk m ρ c 3 t (ix2 p k) = V m ρ c main_v11 (ix2 r s) := by
  obtain ⟨a0, a1, b0, b1, c0, c1, d0, d1, g0, g1, h0, h1⟩ := idxIn t
  show V m ρ c main_v11 (((cfg0.win 3).blk t).view.emb (ix2 p k)) = V m ρ c main_v11 (ix2 r s)
  refine congrArg _ (funext fun a => Fin.ext ?_)
  match a with
  | ⟨0, _⟩ => show win0_3.index t (0 : Fin 2) * 1 + 1 * p.val = r.val; rw [d0]; omega
  | ⟨1, _⟩ => show win0_3.index t (1 : Fin 2) * 8192 + 1 * k.val = s.val; rw [d1]; omega

theorem iblk4_apply (c : Dev nD) (t : Fin cfg0.N) (p : Fin 1024) (k : Fin 1) (r : Fin 8192) (s : Fin 1) (hr : r.val = 1024 * (t.val / 8) + p.val) (hs : s.val = k.val) :
    iblk m ρ c 4 t (ix2 p k) = V m ρ c main_v9 (ix2 r s) := by
  obtain ⟨a0, a1, b0, b1, c0, c1, d0, d1, g0, g1, h0, h1⟩ := idxIn t
  show V m ρ c main_v9 (((cfg0.win 4).blk t).view.emb (ix2 p k)) = V m ρ c main_v9 (ix2 r s)
  refine congrArg _ (funext fun a => Fin.ext ?_)
  match a with
  | ⟨0, _⟩ => show win0_4.index t (0 : Fin 2) * 1024 + 1 * p.val = r.val; rw [g0]; omega
  | ⟨1, _⟩ => show win0_4.index t (1 : Fin 2) * 1 + 1 * k.val = s.val; rw [g1]; omega

theorem iblk5_apply (c : Dev nD) (t : Fin cfg0.N) (p : Fin 1) (k : Fin 1024) (r : Fin 1) (s : Fin 8192) (hr : r.val = p.val) (hs : s.val = 1024 * (t.val % 8) + k.val) :
    iblk m ρ c 5 t (ix2 p k) = V m ρ c main_v12 (ix2 r s) := by
  obtain ⟨a0, a1, b0, b1, c0, c1, d0, d1, g0, g1, h0, h1⟩ := idxIn t
  show V m ρ c main_v12 (((cfg0.win 5).blk t).view.emb (ix2 p k)) = V m ρ c main_v12 (ix2 r s)
  refine congrArg _ (funext fun a => Fin.ext ?_)
  match a with
  | ⟨0, _⟩ => show win0_5.index t (0 : Fin 2) * 1 + 1 * p.val = r.val; rw [h0]; omega
  | ⟨1, _⟩ => show win0_5.index t (1 : Fin 2) * 1024 + 1 * k.val = s.val; rw [h1]; omega

end Cert.KernelIdeal.Run

end
-- ==== Proof.KerTileIdx.lean ====
/-
  The kernel's grid coordinates, slice offsets and layout operations read at an index.

  Point t of the 8×8 grid has row tile t / 8 and column tile t % 8. The two sliced loads of the body — the 1024 rows of
  column tile j out of the whole feature array, the 1024 entries of column tile j out of the label row — start at
  1024·j, so entry s of the slice is entry 1024·j + s of the whole. Then the layout forms the body uses: a column
  broadcast over the lanes, a vector given a trailing unit axis, and the product into a zero accumulator read at (p, s)
  as the sum over the 256 contracted entries.
-/
import proofs.«135942_j20263655702978_2_alg».proof.Proof.KerStep
import Idealize.ShloMosaic.Lib.ValueLayout
import Idealize.ShloMosaic.PureOps.Ideal.Laws

noncomputable section

open scoped BigOperators

namespace Cert.KernelIdeal.Tile

open Cert.KernelIdeal Cert.KernelIdeal.Gen Cert.KernelIdeal.Step
open Idealize.ShloMosaic Idealize.ShloMosaic.ValueIdx

theorem coords_val : ∀ t : Fin grid0.N, (grid0.coords t 0).val = t.val / 8 ∧ (grid0.coords t 1).val = t.val % 8 := by
  decide +kernel

theorem off1_val : ∀ i : grid0.Coords, k0_off1 i 0 = 1024 * (i 1).val ∧ k0_off1 i 1 = 0 := by decide +kernel
theorem off2_val : ∀ i : grid0.Coords, k0_off2 i 0 = 0 ∧ k0_off2 i 1 = 1024 * (i 1).val := by decide +kernel

theorem colX_apply (i : grid0.Coords) (x3 : Vec Ideal S8192x256 .bf16) (s : Fin 1024) (k : Fin 256) (r : Fin 8192)
    (hr : r.val = 1024 * (i 1).val + s.val) : colX i x3 (ix2 s k) = x3 (ix2 r k) := by
  unfold colX
  refine congrArg x3 (funext fun a => Fin.ext ?_)
  match a with
  | ⟨0, _⟩ =>
    show k0_off1 i 0 + 1 * s.val = r.val
    rw [(off1_val i).1, hr]; omega
  | ⟨1, _⟩ =>
    show k0_off1 i 1 + 1 * k.val = k.val
    rw [(off1_val i).2]; omega

theorem colT_apply (i : grid0.Coords) (t5 : Vec Ideal S1x8192 .i32) (s : Fin 1024) (r : Fin 8192)
    (hr : r.val = 1024 * (i 1).val + s.val) : colT i t5 (ix2 (0 : Fin 1) s) = t5 (ix2 (0 : Fin 1) r) := by
  unfold colT
  refine congrArg t5 (funext fun a => Fin.ext ?_)
  match a with
  | ⟨0, _⟩ =>
    show k0_off2 i 0 + 1 * 0 = 0
    rw [(off2_val i).1]
  | ⟨1, _⟩ =>
    show k0_off2 i 1 + 1 * s.val = r.val
    rw [(off2_val i).2, hr]; omega

/-- A column broadcast over the lanes: at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector given a trailing unit axis: at (p, 0), the operand at p. -/
theorem shapeCast_a_a1_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

abbrev dotD : DotDims S1024x256 S256x1024 S1024x1024 := dot_S1024x256_S256x1024_S1024x1024_1_0_0_1_n_n

theorem dotD_lhs0 (j : S1024x1024.Idx) (q : dotD.contr.Idx) : (dotD.lhsIdx j q 0).val = (j 0).val := by
  unfold DotDims.lhsIdx
  rw [dif_neg (show ¬(0 : Fin S1024x256.rank) ∈ dotD.lhsBatch by decide), dif_pos (show (0 : Fin S1024x256.rank) ∈ dotD.lhsNonContracting by decide)]
  rfl
theorem dotD_lhs1 (j : S1024x1024.Idx) (q : dotD.contr.Idx) : (dotD.lhsIdx j q 1).val = (q ⟨0, by decide⟩).val :=
  dotD.lhsIdx_val_of_single rfl j q
theorem dotD_rhs0 (j : S1024x1024.Idx) (q : dotD.contr.Idx) : (dotD.rhsIdx j q 0).val = (q ⟨0, by decide⟩).val :=
  dotD.rhsIdx_val_of_single rfl j q
theorem dotD_rhs1 (j : S1024x1024.Idx) (q : dotD.contr.Idx) : (dotD.rhsIdx j q 1).val = (j 1).val := by
  unfold DotDims.rhsIdx
  rw [dif_neg (show ¬(1 : Fin S256x1024.rank) ∈ dotD.rhsBatch by decide), dif_pos (show (1 : Fin S256x1024.rank) ∈ dotD.rhsNonContracting by decide)]
  rfl

/-- The product into the zero accumulator at (p, s): the sum over the 256 contracted entries. -/
theorem matmul_zero_apply (A : FVec Ideal S1024x256 .bf16) (Bt : FVec Ideal S256x1024 .bf16) (p s : Fin 1024) :
    matmul dotD none A Bt (constant S1024x1024 .f32 0x00000000#32) (ix2 p s) = ∑ k : Fin 256, A (ix2 p k) * Bt (ix2 k s) := by
  simp only [matmul]
  rw [Ideal.matmul_constant_zero_apply, ← Equiv.sum_comp (contrEquiv1 dotD 256 rfl rfl).symm]
  refine Finset.sum_congr rfl fun k _ => ?_
  have hk := contrEquiv1_symm_val dotD 256 rfl rfl k
  have el : dotD.lhsIdx (ix2 p s) ((contrEquiv1 dotD 256 rfl rfl).symm k) = ix2 p k := funext fun a => Fin.ext (by
    match a with
    | ⟨0, _⟩ => exact dotD_lhs0 _ _
    | ⟨1, _⟩ => exact (dotD_lhs1 _ _).trans hk)
  have er : dotD.rhsIdx (ix2 p s) ((contrEquiv1 dotD 256 rfl rfl).symm k) = ix2 k s := funext fun a => Fin.ext (by
    match a with
    | ⟨0, _⟩ => exact (dotD_rhs0 _ _).trans hk
    | ⟨1, _⟩ => exact dotD_rhs1 _ _)
  rw [el, er]

end Cert.KernelIdeal.Tile

end
-- ==== Proof.Spec.lean ====
/-
  The hard-mining triplet margin loss as ONE function of the two argument arrays, over the extended reals.

  Rows of the feature array are first scaled to unit length: with n(r) = √(Σₖ x(r,k)²) the scaled row is
  x̂(r,k) = x(r,k) / (n(r) + ε). The squared distance between rows r and s is
  d(r,s) = (q(r) + q(s)) − 2·Σₖ x̂(r,k)·x̂(s,k) with q(r) = Σₖ x̂(r,k)². Column s is a POSITIVE of row r when the
  labels agree and s ≠ r, a NEGATIVE when the labels differ. The hardest positive distance of a row is
  √(max ε (sup of d over its positives)), or 0 when it has none; the hardest negative distance is
  √(max ε (inf of d over its negatives)), or the fallback 1.3 when it has none. A row's loss is
  max 0 ((positive − negative) + 0.3) and the result is the mean of the 8192 row losses.

  The clip-and-root is applied AFTER the extremum here. Since y ↦ √(max ε y) is monotone, applying it to each
  entry first and taking the extremum afterwards gives the same number (`clipRoot_sup`, `clipRoot_inf` in the
  module that compares the two programs); that is the only law separating the two programs.
  Float literals stay as their bit patterns: both programs spell the same words.
-/
import Idealize.ShloMosaic.PureOps.Ideal
import Idealize.ShloMosaic.Lib.ValueIdx

noncomputable section

open scoped BigOperators

namespace Cert.Triplet

open Idealize.ShloMosaic Idealize.ShloMosaic.ValueIdx

/-- The feature array, 8192 rows of 256 entries, and the label vector. -/
abbrev Feat : Type := (⟨2, ![8192, 256]⟩ : Shape).Idx → EReal
abbrev Lab : Type := (⟨1, ![8192]⟩ : Shape).Idx → BitVec 32

/-- The literals, as both programs spell them: ε, 0, 2, the margin 0.3, the fallback 1.3, the row count 8192. -/
def eps : EReal := Ideal.ofBits .f32 0x2B8CBCCC#32
def zero : EReal := Ideal.ofBits .f32 0x00000000#32
def two : EReal := Ideal.ofBits .f32 0x40000000#32
def margin : EReal := Ideal.ofBits .f32 0x3E99999A#32
def noNeg : EReal := Ideal.ofBits .f32 0x3FA66666#32
def rows : EReal := Ideal.ofBits .f32 0x46000000#32

/-- The length of row `r`: the root of the sum of its squares (the sum starts from the zero word). -/
def len (x : Feat) (r : Fin 8192) : EReal := Ideal.sqrt (zero + ∑ k : Fin 256, x (ix2 r k) * x (ix2 r k))

/-- Row `r` scaled: each entry over the row's length plus ε. -/
def unit (x : Feat) (r : Fin 8192) (k : Fin 256) : EReal := Ideal.div (x (ix2 r k)) (len x r + eps)

/-- The squared length of the scaled row, and the inner product of two scaled rows. -/
def sqLen (x : Feat) (r : Fin 8192) : EReal := zero + ∑ k : Fin 256, unit x r k * unit x r k
def inner (x : Feat) (r s : Fin 8192) : EReal := ∑ k : Fin 256, unit x r k * unit x s k

/-- The squared distance between scaled rows `r` and `s`. -/
def dist2 (x : Feat) (r s : Fin 8192) : EReal := (sqLen x r + sqLen x s) - two * inner x r s

/-- Column `s` is a positive of row `r`: same label, another row. A negative: another label. -/
def IsPos (t : Lab) (r s : Fin 8192) : Prop := t (ix1 r) = t (ix1 s) ∧ r ≠ s
def IsNeg (t : Lab) (r s : Fin 8192) : Prop := ¬ t (ix1 r) = t (ix1 s)

instance (t : Lab) (r s : Fin 8192) : Decidable (IsPos t r s) := by unfold IsPos; infer_instance
instance (t : Lab) (r s : Fin 8192) : Decidable (IsNeg t r s) := by unfold IsNeg; infer_instance

/-- Clip below at ε, then take the root: monotone on the extended reals. -/
def clipRoot (y : EReal) : EReal := Ideal.sqrt (max eps y)

/-- The largest squared distance to a positive of row `r` (⊥ when it has none), the smallest to a negative (⊤ when none). -/
def posSup (x : Feat) (t : Lab) (r : Fin 8192) : EReal :=
  Finset.univ.sup fun s : Fin 8192 => if IsPos t r s then dist2 x r s else ⊥
def negInf (x : Feat) (t : Lab) (r : Fin 8192) : EReal :=
  Finset.univ.inf fun s : Fin 8192 => if IsNeg t r s then dist2 x r s else ⊤

/-- The hardest positive and hardest negative distances of row `r`, with their fallbacks. -/
def hardPos (x : Feat) (t : Lab) (r : Fin 8192) : EReal :=
  if ∃ s, IsPos t r s then clipRoot (posSup x t r) else zero
def hardNeg (x : Feat) (t : Lab) (r : Fin 8192) : EReal :=
  if ∃ s, IsNeg t r s then clipRoot (negInf x t r) else noNeg

/-- Row `r`'s loss, and the mean over the rows (the sum starts from the zero word). -/
def rowLoss (x : Feat) (t : Lab) (r : Fin 8192) : EReal := max zero ((hardPos x t r - hardNeg x t r) + margin)
def loss (x : Feat) (t : Lab) : EReal := Ideal.div (zero + ∑ r : Fin 8192, rowLoss x t r) rows

end Cert.Triplet

end
-- ==== Proof.SpecG.lean ====
/-
  The row loss of the specification, stated over ANY scaled rows `u`, squared lengths `q` and labels `lab` — the form the
  kernel's per-tile arithmetic is compared with, before `u` and `q` are identified with the scaled rows and squared
  lengths of the feature array. At `u := unit x`, `q := sqLen x`, `lab r := t (ix1 r)` these are the specification's own
  (`rowLoss_eq`), by unfolding.
-/
import proofs.«135942_j20263655702978_2_alg».proof.Proof.Spec

noncomputable section

open scoped BigOperators

namespace Cert.Triplet

open Idealize.ShloMosaic Idealize.ShloMosaic.ValueIdx

variable (u : Fin 8192 → Fin 256 → EReal) (q : Fin 8192 → EReal) (lab : Fin 8192 → BitVec 32)

/-- Squared distance between rows `r` and `s` from the scaled rows and their squared lengths. -/
def dist2G (r s : Fin 8192) : EReal := (q r + q s) - two * ∑ k : Fin 256, u r k * u s k

def IsPosG (r s : Fin 8192) : Prop := lab r = lab s ∧ r ≠ s
def IsNegG (r s : Fin 8192) : Prop := ¬ lab r = lab s
instance (r s : Fin 8192) : Decidable (IsPosG lab r s) := by unfold IsPosG; infer_instance
instance (r s : Fin 8192) : Decidable (IsNegG lab r s) := by unfold IsNegG; infer_instance

def posSupG (r : Fin 8192) : EReal := Finset.univ.sup fun s : Fin 8192 => if IsPosG lab r s then dist2G u q r s else ⊥
def negInfG (r : Fin 8192) : EReal := Finset.univ.inf fun s : Fin 8192 => if IsNegG lab r s then dist2G u q r s else ⊤
def hardPosG (r : Fin 8192) : EReal := if ∃ s, IsPosG lab r s then clipRoot (posSupG u q lab r) else zero
def hardNegG (r : Fin 8192) : EReal := if ∃ s, IsNegG lab r s then clipRoot (negInfG u q lab r) else noNeg
def rowLossG (r : Fin 8192) : EReal := max zero ((hardPosG u q lab r - hardNegG u q lab r) + margin)

/-- The specification's row loss is the parametrized one at the feature array's scaled rows and squared lengths. -/
theorem rowLoss_eq (x : Feat) (t : Lab) (r : Fin 8192) :
    rowLoss x t r = rowLossG (unit x) (sqLen x) (fun r => t (ix1 r)) r := rfl

end Cert.Triplet

end
-- ==== Proof.KerTileDist.lean ====
/-
  The body's tiles read at an index (p, s) of the 1024×1024 tile.

  The tile of squared distances is (sq_i(p) + sq_j(s)) − 2·Σₖ x_i(p,k)·x_j(s,k); the tile of label agreements is the
  bit "the two labels are equal words". The kernel excludes the diagonal by comparing the global row index
  1024·i + p with the global column index 1024·j + s as 32-bit words: both are below 8192, so the words are equal
  exactly when the naturals are. A positive is an agreement off the diagonal, a negative a disagreement.
-/
import proofs.«135942_j20263655702978_2_alg».proof.Proof.KerTileIdx
import proofs.«135942_j20263655702978_2_alg».proof.Proof.SpecG

noncomputable section

open scoped BigOperators

namespace Cert.KernelIdeal.Tile

open Cert.KernelIdeal Cert.KernelIdeal.Gen Cert.KernelIdeal.Step
open Idealize.ShloMosaic Idealize.ShloMosaic.ValueIdx

/-- The tile of squared distances at (p, s). -/
theorem dist_apply (i : grid0.Coords) (x2 : Vec Ideal S1024x256 .bf16) (x3 : Vec Ideal S8192x256 .bf16)
    (s6 : Vec Ideal S1024x1 .f32) (s7 : Vec Ideal S1x1024 .f32) (p s : Fin 1024) :
    Step.dist i x2 x3 s6 s7 (ix2 p s)
      = (s6 (ix2 p (0 : Fin 1)) + s7 (ix2 (0 : Fin 1) s))
          - Cert.Triplet.two * ∑ k : Fin 256, x2 (ix2 p k) * colX i x3 (ix2 s k) := by
  unfold Step.dist k0_pay9
  show (broadcastTo S1024x1024 (shapeCast S1024x1 s6 shapeCasts_S1024x1_S1024x1) broadcasts_S1024x1_S1024x1024 (ix2 p s)
        + broadcastTo S1024x1024 (shapeCast S1x1024 s7 shapeCasts_S1x1024_S1x1024) broadcasts_S1x1024_S1024x1024 (ix2 p s))
      - Cert.Triplet.two * matmul dotD none (shapeCast S1024x256 x2 shapeCasts_S1024x256_S1024x256)
          (transpose S256x1024 [1, 0] (shapeCast S1024x256 (colX i x3) shapeCasts_S1024x256_S1024x256) transposes_S1024x256_p1_0_S256x1024)
          (constant S1024x1024 .f32 0x00000000#32) (ix2 p s) = _
  rw [shapeCast_self, shapeCast_self, shapeCast_self, shapeCast_self, broadcastTo_a1_ab_apply, broadcastTo_1b_ab_apply,
    matmul_zero_apply]
  refine congrArg _ (congrArg _ (Finset.sum_congr rfl fun k _ => ?_))
  rw [transpose_ix2_apply]

/-- The tile of label agreements at (p, s): the bit "the two labels are equal words". -/
theorem agree_apply (i : grid0.Coords) (t4 : Vec Ideal S1024x1 .i32) (t5 : Vec Ideal S1x8192 .i32) (p s : Fin 1024) :
    agree (F := Ideal) i t4 t5 (ix2 p s) = IntOp.cmpi .eq (t4 (ix2 p (0 : Fin 1))) (colT i t5 (ix2 (0 : Fin 1) s)) := by
  unfold agree k0_pay10
  show IntOp.cmpi .eq (broadcastTo S1024x1024 (shapeCast S1024x1 t4 shapeCasts_S1024x1_S1024x1) broadcasts_S1024x1_S1024x1024 (ix2 p s))
      (broadcastTo S1024x1024 (shapeCast S1x1024 (colT i t5) shapeCasts_S1x1024_S1x1024) broadcasts_S1x1024_S1024x1024 (ix2 p s)) = _
  rw [shapeCast_self, shapeCast_self, broadcastTo_a1_ab_apply, broadcastTo_1b_ab_apply]

/-- The global row index and the global column index, as the 32-bit words the kernel forms. -/
theorem rowWord_apply (i : grid0.Coords) (p s : Fin 1024) :
    k0_pay11 i (ix2 p s) = BitVec.ofNat 32 (i 0).val * 1024#32 + BitVec.ofNat 32 p.val := by
  unfold k0_pay11
  show broadcastTo S1024x1024 (addi (broadcast S1024x1 (Scalar.muli (BitVec.ofNat 32 (i 0).val) 1024#32))
      (iota .tc S1024x1 32 [0] iota_S1024x1_d0_w32)) broadcasts_S1024x1_S1024x1024 (ix2 p s) = _
  rw [broadcastTo_a1_ab_apply]
  show BitVec.ofNat 32 (i 0).val * 1024#32 + iota .tc S1024x1 32 [0] iota_S1024x1_d0_w32 (ix2 p (0 : Fin 1)) = _
  rw [iota_single_apply]

theorem colWord_apply (i : grid0.Coords) (p s : Fin 1024) :
    k0_pay12 i (ix2 p s) = BitVec.ofNat 32 (i 1).val * 1024#32 + BitVec.ofNat 32 s.val := by
  unfold k0_pay12
  show broadcastTo S1024x1024 (addi (broadcast S1x1024 (Scalar.muli (BitVec.ofNat 32 (i 1).val) 1024#32))
      (iota .tc S1x1024 32 [1] iota_S1x1024_d1_w32)) broadcasts_S1x1024_S1024x1024 (ix2 p s) = _
  rw [broadcastTo_1b_ab_apply]
  show BitVec.ofNat 32 (i 1).val * 1024#32 + iota .tc S1x1024 32 [1] iota_S1x1024_d1_w32 (ix2 (0 : Fin 1) s) = _
  rw [iota_single_apply]

/-- Such a word is the natural number 1024·c + p: nothing wraps below 8192. -/
theorem word_toNat (c : ℕ) (hc : c < 8) (p : Fin 1024) :
    (BitVec.ofNat 32 c * 1024#32 + BitVec.ofNat 32 p.val).toNat = 1024 * c + p.val := by
  have := p.isLt
  rw [BitVec.toNat_add, BitVec.toNat_mul, BitVec.toNat_ofNat, BitVec.toNat_ofNat, BitVec.toNat_ofNat]
  omega

theorem ofBool_eq_one (b : Bool) : BitVec.ofBool b = 1#1 ↔ b = true := by cases b <;> decide

theorem cmpi_eq_bit {w : ℕ} (x y : BitVec w) : IntOp.cmpi .eq x y = 1#1 ↔ x = y := by
  show BitVec.ofBool (x == y) = 1#1 ↔ x = y
  rw [ofBool_eq_one, beq_iff_eq]

/-- The two index words are equal exactly when the global row index is the global column index. -/
theorem eye_bit (i : grid0.Coords) (p s : Fin 1024) :
    IntOp.cmpi .eq (k0_pay11 i (ix2 p s)) (k0_pay12 i (ix2 p s)) = 1#1
      ↔ 1024 * (i 0).val + p.val = 1024 * (i 1).val + s.val := by
  rw [cmpi_eq_bit, rowWord_apply, colWord_apply, ← BitVec.toNat_inj, word_toNat _ (i 0).isLt, word_toNat _ (i 1).isLt]

theorem bit_and_not (a b : BitVec 1) : IntOp.andi a (IntOp.xori b 1#1) = 1#1 ↔ a = 1#1 ∧ ¬ b = 1#1 := by
  rcases BitVec.eq_zero_or_eq_one a with h | h <;> rcases BitVec.eq_zero_or_eq_one b with h' | h' <;> subst h <;> subst h' <;> decide

theorem bit_not (a : BitVec 1) : IntOp.xori a 1#1 = 1#1 ↔ ¬ a = 1#1 := by
  rcases BitVec.eq_zero_or_eq_one a with h | h <;> subst h <;> decide

theorem pay13_apply (v29 : IVec S1024x1024 1) (v38 v39 : IVec S1024x1024 32) (j : S1024x1024.Idx) :
    k0_pay13 v29 v38 v39 j = IntOp.andi (v29 j) (IntOp.xori (IntOp.cmpi .eq (v38 j) (v39 j)) 1#1) := rfl

theorem pay14_apply (v29 : IVec S1024x1024 1) (j : S1024x1024.Idx) : k0_pay14 v29 j = IntOp.xori (v29 j) 1#1 := rfl

/-- The positive mask at (p, s): the labels agree and the global indices differ. -/
theorem pos_bit (i : grid0.Coords) (t4 : Vec Ideal S1024x1 .i32) (t5 : Vec Ideal S1x8192 .i32) (p s : Fin 1024) :
    k0_pay13 (agree (F := Ideal) i t4 t5) (k0_pay11 i) (k0_pay12 i) (ix2 p s) = 1#1
      ↔ t4 (ix2 p (0 : Fin 1)) = colT i t5 (ix2 (0 : Fin 1) s) ∧ ¬ 1024 * (i 0).val + p.val = 1024 * (i 1).val + s.val := by
  rw [pay13_apply, bit_and_not, agree_apply, cmpi_eq_bit, eye_bit]

/-- The negative mask at (p, s): the labels differ. -/
theorem neg_bit (i : grid0.Coords) (t4 : Vec Ideal S1024x1 .i32) (t5 : Vec Ideal S1x8192 .i32) (p s : Fin 1024) :
    k0_pay14 (agree (F := Ideal) i t4 t5) (ix2 p s) = 1#1 ↔ ¬ t4 (ix2 p (0 : Fin 1)) = colT i t5 (ix2 (0 : Fin 1) s) := by
  rw [pay14_apply, bit_not, agree_apply, cmpi_eq_bit]

end Cert.KernelIdeal.Tile

end
-- ==== Proof.KerTileRed.lean ====
/-
  The body's reductions and stores read at a row p of the tile.

  The lane maximum from −∞ is the supremum over the 1024 lanes, the lane minimum from +∞ the infimum. So after a point the
  running maximum over positives is the larger of what it was and the supremum over the lanes of (positive ? distance : −∞),
  the running minimum over negatives the smaller of what it was and the infimum of (negative ? distance : +∞); a seen-flag
  is the lane maximum of a 1/0 mask tested against zero and converted, that is 1 when some lane of the mask is set and 0
  otherwise. The row losses are max 0 ((ap − an) + margin) with ap, an the clipped roots of the two extrema, replaced by
  their fallbacks when the flag is not above zero.
-/
import proofs.«135942_j20263655702978_2_alg».proof.Proof.KerTileDist

noncomputable section

open scoped BigOperators

namespace Cert.KernelIdeal.Tile

open Cert.KernelIdeal Cert.KernelIdeal.Gen Cert.KernelIdeal.Step
open Idealize.ShloMosaic Idealize.ShloMosaic.ValueIdx

/-! The words of the body's constants as extended reals. -/
theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]
theorem ofBits_one : Ideal.ofBits .f32 0x3F800000#32 = 1 := by simp [Ideal.ofBits, Ideal.ieee, -EReal.coe_mul]; norm_num

/-- Row p of the tile with lane k inserted is the index (p, k). -/
theorem lift_row (p k : Fin 1024) : reduces_S1024x1024_S1024.lift (ix1 p) k = ix2 p k :=
  funext fun a => match a with | ⟨0, _⟩ => Fin.ext rfl | ⟨1, _⟩ => Fin.ext rfl

/-- The lane maximum from −∞ of row p: the supremum over the 1024 lanes. -/
theorem rowMax_apply (src : FVec Ideal S1024x1024 .f32) (p : Fin 1024) :
    multiReduction (F := Ideal) .maximumf [1] S1024 src 0xFF800000#32 reduces_S1024x1024_S1024 (.inl rfl) rfl (ix1 p)
      = Finset.univ.sup fun s : Fin 1024 => src (ix2 p s) := by
  refine (Ideal.multiReduction_maximumf_single src 0xFF800000#32 reduces_S1024x1024_S1024 (.inl rfl) rfl (ix1 p)).trans ?_
  show (Finset.univ : Finset (Fin 1024)).fold max (Ideal.ofBits .f32 0xFF800000#32)
      (fun k : Fin 1024 => src (reduces_S1024x1024_S1024.lift (ix1 p) k)) = _
  rw [ofBits_negInf]
  simp only [lift_row]
  rfl

/-- The lane minimum from +∞ of row p: the infimum over the 1024 lanes. -/
theorem rowMin_apply (src : FVec Ideal S1024x1024 .f32) (p : Fin 1024) :
    multiReduction (F := Ideal) .minimumf [1] S1024 src 0x7F800000#32 reduces_S1024x1024_S1024 (.inl rfl) rfl (ix1 p)
      = Finset.univ.inf fun s : Fin 1024 => src (ix2 p s) := by
  refine (multiReduction_minimumf_eq_fold src 0x7F800000#32 reduces_S1024x1024_S1024 (.inl rfl) rfl (ix1 p)).trans ?_
  refine (reduces_S1024x1024_S1024.fold_filter_drop_single _ _ src (ix1 p)).trans ?_
  show (Finset.univ : Finset (Fin 1024)).fold min (Ideal.ofBits .f32 0x7F800000#32)
      (fun k : Fin 1024 => src (reduces_S1024x1024_S1024.lift (ix1 p) k)) = _
  rw [ofBits_posInf]
  simp only [lift_row]
  rfl

theorem select_bit {α : Type} (c : IVec S1024x1024 1) (a b : S1024x1024.Idx → α) (j : S1024x1024.Idx) :
    select c a b j = if c j = 1#1 then a j else b j := rfl

/-- The running maximum over positives after the point, at row p. -/
theorem pay17_apply (v21 : FVec Ideal S1024x1024 .f32) (v29 : IVec S1024x1024 1) (v38 v39 : IVec S1024x1024 32)
    (v70 : Vec Ideal S1024x1 .f32) (p : Fin 1024) :
    k0_pay17 v21 v29 v38 v39 v70 (ix2 p (0 : Fin 1))
      = max (v70 (ix2 p (0 : Fin 1)))
          (Finset.univ.sup fun s : Fin 1024 => if k0_pay13 v29 v38 v39 (ix2 p s) = 1#1 then v21 (ix2 p s) else ⊥) := by
  unfold k0_pay17
  refine (congrFun (shapeCast_self _ _) _).trans ?_
  refine congrArg (max (v70 (ix2 p (0 : Fin 1)))) ?_
  refine (shapeCast_a_a1_apply _ _ p 0).trans ?_
  refine (rowMax_apply _ p).trans ?_
  refine Finset.sup_congr rfl fun s _ => ?_
  show (if k0_pay13 v29 v38 v39 (ix2 p s) = 1#1 then v21 (ix2 p s) else Ideal.ofBits .f32 0xFF800000#32) = _
  rw [ofBits_negInf]

/-- The running minimum over negatives after the point, at row p. -/
theorem pay18_apply (v21 : FVec Ideal S1024x1024 .f32) (v29 : IVec S1024x1024 1) (v75 : Vec Ideal S1024x1 .f32) (p : Fin 1024) :
    k0_pay18 v21 v29 v75 (ix2 p (0 : Fin 1))
      = min (v75 (ix2 p (0 : Fin 1)))
          (Finset.univ.inf fun s : Fin 1024 => if k0_pay14 v29 (ix2 p s) = 1#1 then v21 (ix2 p s) else ⊤) := by
  unfold k0_pay18
  refine congrArg (min (v75 (ix2 p (0 : Fin 1)))) ?_
  refine (shapeCast_a_a1_apply _ _ p 0).trans ?_
  refine (rowMin_apply _ p).trans ?_
  refine Finset.inf_congr rfl fun s _ => ?_
  show (if k0_pay14 v29 (ix2 p s) = 1#1 then v21 (ix2 p s) else Ideal.ofBits .f32 0x7F800000#32) = _
  rw [ofBits_posInf]

theorem cmp_ogt_bit (x y : EReal) : Ideal.cmp .ogt x y = 1#1 ↔ y < x := by
  show BitVec.ofBool (decide (y < x)) = 1#1 ↔ y < x
  rw [ofBool_eq_one, decide_eq_true_eq]

/-- A one-bit word widened and converted: the flag 1 or 0. -/
theorem flag_of_bit (b : BitVec 1) : FloatOps.sitofp (F := Ideal) .f32 (b.setWidth 32) = if b = 1#1 then (1 : EReal) else 0 := by
  rcases BitVec.eq_zero_or_eq_one b with h | h <;> subst h
  · show (((BitVec.setWidth 32 0#1).toInt : ℝ) : EReal) = _
    rw [if_neg (by decide), show (BitVec.setWidth 32 0#1).toInt = 0 by decide]; simp
  · show (((BitVec.setWidth 32 1#1).toInt : ℝ) : EReal) = _
    rw [if_pos rfl, show (BitVec.setWidth 32 1#1).toInt = 1 by decide]; simp

/-- The lane maximum of a 1/0 mask is above zero exactly when some lane is set. -/
theorem zero_lt_sup_mask (c : Fin 1024 → Prop) [DecidablePred c] :
    Ideal.ofBits .f32 0x00000000#32
        < (Finset.univ.sup fun s : Fin 1024 => if c s then Ideal.ofBits .f32 0x3F800000#32 else Ideal.ofBits .f32 0x00000000#32)
      ↔ ∃ s, c s := by
  rw [Ideal.ofBits_zero_f32, ofBits_one, Finset.lt_sup_iff]
  constructor
  · rintro ⟨s, _, hs⟩
    by_cases h : c s
    · exact ⟨s, h⟩
    · rw [if_neg h] at hs; exact absurd hs (lt_irrefl _)
  · rintro ⟨s, h⟩
    exact ⟨s, Finset.mem_univ _, by rw [if_pos h]; exact zero_lt_one⟩

/-- The flag "a lane of the mask is set in row p", from a mask's 1/0 select. -/
theorem flag_apply (m : IVec S1024x1024 1) (p : Fin 1024) :
    (sitofp (F := Ideal) .f32 (extui 32 (shapeCast S1024x1 (cmpf .ogt
        (multiReduction (F := Ideal) .maximumf [1] S1024
          (select m (broadcast S1024x1024 (Scalar.ofBits (F := Ideal) .f32 0x3F800000#32)) (broadcast S1024x1024 (Scalar.ofBits (F := Ideal) .f32 0x00000000#32)))
          0xFF800000#32 reduces_S1024x1024_S1024 (.inl rfl) rfl)
        (broadcast S1024 (Scalar.ofBits (F := Ideal) .f32 0x00000000#32))) shapeCasts_S1024_S1024x1) natLt_1_32) : FVec Ideal S1024x1 .f32) (ix2 p (0 : Fin 1))
      = if ∃ s : Fin 1024, m (ix2 p s) = 1#1 then (1 : EReal) else 0 := by
  rw [sitofp_apply, extui_apply, shapeCast_a_a1_apply, flag_of_bit]
  refine if_congr ?_ rfl rfl
  rw [cmpf_apply, Ideal.cmpf_def, cmp_ogt_bit, rowMax_apply, broadcast_apply]
  exact zero_lt_sup_mask fun s => m (ix2 p s) = 1#1

theorem pay15_apply (v29 : IVec S1024x1024 1) (v38 v39 : IVec S1024x1024 32) (p : Fin 1024) :
    k0_pay15 (F := Ideal) v29 v38 v39 (ix2 p (0 : Fin 1)) = if ∃ s : Fin 1024, k0_pay13 v29 v38 v39 (ix2 p s) = 1#1 then (1 : EReal) else 0 := by
  unfold k0_pay15
  exact flag_apply (k0_pay13 v29 v38 v39) p

theorem pay16_apply (v29 : IVec S1024x1024 1) (p : Fin 1024) :
    k0_pay16 (F := Ideal) v29 (ix2 p (0 : Fin 1)) = if ∃ s : Fin 1024, k0_pay14 v29 (ix2 p s) = 1#1 then (1 : EReal) else 0 := by
  unfold k0_pay16
  exact flag_apply (k0_pay14 v29) p

theorem pay1_apply (v76 : FVec Ideal S1024x1 .f32) (j : S1024x1.Idx) : k0_pay1 v76 j = v76 j := by
  unfold k0_pay1
  exact congrFun (shapeCast_self _ _) _

theorem pay2_apply (v60 : FVec Ideal S1024x1 .f32) (v80 : Vec Ideal S1024x1 .f32) (j : S1024x1.Idx) : k0_pay2 v60 v80 j = max (v80 j) (v60 j) := by
  unfold k0_pay2
  exact congrFun (shapeCast_self _ _) _

theorem pay3_apply (v69 : FVec Ideal S1024x1 .f32) (v85 : Vec Ideal S1024x1 .f32) (j : S1024x1.Idx) : k0_pay3 v69 v85 j = max (v85 j) (v69 j) := by
  unfold k0_pay3
  exact congrFun (shapeCast_self _ _) _

/-! The accumulators a row tile starts from. -/
theorem pay5_apply (j : S1024x1.Idx) : k0_pay5 (F := Ideal) j = ⊥ := by
  unfold k0_pay5
  refine (congrFun (shapeCast_self _ _) _).trans ?_
  exact ofBits_negInf
theorem pay6_apply (j : S1024x1.Idx) : k0_pay6 (F := Ideal) j = ⊤ := by
  unfold k0_pay6
  refine (congrFun (shapeCast_self _ _) _).trans ?_
  exact ofBits_posInf
theorem pay7_apply (j : S1024x1.Idx) : k0_pay7 (F := Ideal) j = 0 := by
  unfold k0_pay7
  refine (congrFun (shapeCast_self _ _) _).trans ?_
  exact Ideal.ofBits_zero_f32
theorem pay8_apply (j : S1024x1.Idx) : k0_pay8 (F := Ideal) j = 0 := by
  unfold k0_pay8
  refine (congrFun (shapeCast_self _ _) _).trans ?_
  exact Ideal.ofBits_zero_f32

/-- The row losses formed from the four accumulators, at a row. -/
theorem pay4_apply (v93 v96 v101 v106 : Vec Ideal S1024x1 .f32) (j : S1024x1.Idx) :
    k0_pay4 v93 v96 v101 v106 j
      = max Triplet.zero (((if Triplet.zero < v101 j then Triplet.clipRoot (v93 j) else Triplet.zero)
          - (if Triplet.zero < v106 j then Triplet.clipRoot (v96 j) else Triplet.noNeg)) + Triplet.margin) := by
  unfold k0_pay4
  show max Triplet.zero ((Scalar.select (Ideal.cmp .ogt (v101 j) Triplet.zero) (Triplet.clipRoot (v93 j)) Triplet.zero
        - Scalar.select (Ideal.cmp .ogt (v106 j) Triplet.zero) (Triplet.clipRoot (v96 j)) Triplet.noNeg) + Triplet.margin) = _
  unfold Scalar.select
  exact congrArg _ (congrArg (· + _) (congrArg₂ (· - ·) (if_congr (cmp_ogt_bit _ _) rfl rfl) (if_congr (cmp_ogt_bit _ _) rfl rfl)))

/-- Zero is below a 0/1 flag exactly when the flag is set. -/
theorem zero_lt_flag (E : Prop) [Decidable E] : Triplet.zero < (if E then (1 : EReal) else 0) ↔ E := by
  unfold Triplet.zero
  rw [Ideal.ofBits_zero_f32]
  by_cases h : E <;> simp [h]

theorem max_zero_flag (E : Prop) [Decidable E] : max (0 : EReal) (if E then (1 : EReal) else 0) = if E then (1 : EReal) else 0 := by
  by_cases h : E <;> simp [h]

end Cert.KernelIdeal.Tile

end
-- ==== Proof.KerTileSup.lean ====
/-
  Extrema and existence over the 8192 columns, tile by tile.

  The supremum (infimum) of a function over the columns below 1024·(n+1) is the join (meet) of the one over the columns
  below 1024·n with the one over the 1024 columns of tile n; over no column it is ⊥ (⊤), over the columns below 1024·8 it
  is the one over all columns. Likewise "some column below the bound has the property". Last, the two seen-flags as
  extended reals: the larger of two 0/1 flags is the flag of the disjunction.
-/
import proofs.«135942_j20263655702978_2_alg».proof.Proof.SpecG

namespace Cert.KernelIdeal.Tile

section Sup
variable {α : Type} [SemilatticeSup α] [OrderBot α]

theorem le_sup_at {ι : Type} [Fintype ι] (f : ι → α) (x : ι) {a : α} (h : a = f x) : a ≤ Finset.univ.sup f :=
  h ▸ Finset.le_sup (Finset.mem_univ x)

theorem sup_tile_step (g : Fin 8192 → α) (n : ℕ) (c : Fin 1024 → Fin 8192) (hc : ∀ s, (c s).val = 1024 * n + s.val) :
    (Finset.univ.sup fun x : Fin 8192 => if x.val < 1024 * n then g x else ⊥) ⊔ (Finset.univ.sup fun s : Fin 1024 => g (c s))
      = Finset.univ.sup fun x : Fin 8192 => if x.val < 1024 * (n + 1) then g x else ⊥ := by
  apply le_antisymm
  · apply sup_le
    · refine Finset.sup_le fun x _ => ?_
      by_cases h : x.val < 1024 * n
      · rw [if_pos h]
        exact le_sup_at (fun x : Fin 8192 => if x.val < 1024 * (n + 1) then g x else ⊥) x (if_pos (by omega)).symm
      · rw [if_neg h]; exact bot_le
    · refine Finset.sup_le fun s _ => ?_
      have hlt : (c s).val < 1024 * (n + 1) := by rw [hc]; have := s.isLt; omega
      exact le_sup_at (fun x : Fin 8192 => if x.val < 1024 * (n + 1) then g x else ⊥) (c s) (if_pos hlt).symm
  · refine Finset.sup_le fun x _ => ?_
    by_cases h : x.val < 1024 * (n + 1)
    · rw [if_pos h]
      by_cases h' : x.val < 1024 * n
      · exact le_sup_of_le_left (le_sup_at (fun x : Fin 8192 => if x.val < 1024 * n then g x else ⊥) x (if_pos h').symm)
      · have hs : x.val - 1024 * n < 1024 := by omega
        have hx : c ⟨x.val - 1024 * n, hs⟩ = x := Fin.ext (by rw [hc]; show 1024 * n + (x.val - 1024 * n) = x.val; omega)
        exact le_sup_of_le_right (le_sup_at (fun s : Fin 1024 => g (c s)) ⟨x.val - 1024 * n, hs⟩ (congrArg g hx.symm))
    · rw [if_neg h]; exact bot_le

theorem sup_tile_zero (g : Fin 8192 → α) : (Finset.univ.sup fun x : Fin 8192 => if x.val < 1024 * 0 then g x else ⊥) = ⊥ := by
  refine le_antisymm (Finset.sup_le fun x _ => ?_) bot_le
  rw [if_neg (by omega)]

theorem sup_tile_all (g : Fin 8192 → α) : (Finset.univ.sup fun x : Fin 8192 => if x.val < 1024 * (7 + 1) then g x else ⊥) = Finset.univ.sup g :=
  Finset.sup_congr rfl fun x _ => if_pos (by have := x.isLt; omega)

end Sup

section Inf
variable {α : Type} [SemilatticeInf α] [OrderTop α]

theorem inf_le_at {ι : Type} [Fintype ι] (f : ι → α) (x : ι) {a : α} (h : a = f x) : Finset.univ.inf f ≤ a :=
  h ▸ Finset.inf_le (Finset.mem_univ x)

theorem inf_tile_step (g : Fin 8192 → α) (n : ℕ) (c : Fin 1024 → Fin 8192) (hc : ∀ s, (c s).val = 1024 * n + s.val) :
    (Finset.univ.inf fun x : Fin 8192 => if x.val < 1024 * n then g x else ⊤) ⊓ (Finset.univ.inf fun s : Fin 1024 => g (c s))
      = Finset.univ.inf fun x : Fin 8192 => if x.val < 1024 * (n + 1) then g x else ⊤ := by
  apply le_antisymm
  · refine Finset.le_inf fun x _ => ?_
    by_cases h : x.val < 1024 * (n + 1)
    · rw [if_pos h]
      by_cases h' : x.val < 1024 * n
      · exact inf_le_of_left_le (inf_le_at (fun x : Fin 8192 => if x.val < 1024 * n then g x else ⊤) x (if_pos h').symm)
      · have hs : x.val - 1024 * n < 1024 := by omega
        have hx : c ⟨x.val - 1024 * n, hs⟩ = x := Fin.ext (by rw [hc]; show 1024 * n + (x.val - 1024 * n) = x.val; omega)
        exact inf_le_of_right_le (inf_le_at (fun s : Fin 1024 => g (c s)) ⟨x.val - 1024 * n, hs⟩ (congrArg g hx.symm))
    · rw [if_neg h]; exact le_top
  · apply le_inf
    · refine Finset.le_inf fun x _ => ?_
      by_cases h : x.val < 1024 * n
      · rw [if_pos h]
        exact inf_le_at (fun x : Fin 8192 => if x.val < 1024 * (n + 1) then g x else ⊤) x (if_pos (by omega)).symm
      · rw [if_neg h]; exact le_top
    · refine Finset.le_inf fun s _ => ?_
      have hlt : (c s).val < 1024 * (n + 1) := by rw [hc]; have := s.isLt; omega
      exact inf_le_at (fun x : Fin 8192 => if x.val < 1024 * (n + 1) then g x else ⊤) (c s) (if_pos hlt).symm

theorem inf_tile_zero (g : Fin 8192 → α) : (Finset.univ.inf fun x : Fin 8192 => if x.val < 1024 * 0 then g x else ⊤) = ⊤ := by
  refine le_antisymm le_top (Finset.le_inf fun x _ => ?_)
  rw [if_neg (by omega)]

theorem inf_tile_all (g : Fin 8192 → α) : (Finset.univ.inf fun x : Fin 8192 => if x.val < 1024 * (7 + 1) then g x else ⊤) = Finset.univ.inf g :=
  Finset.inf_congr rfl fun x _ => if_pos (by have := x.isLt; omega)

end Inf

/-- Some column below 1024·(n+1) has the property exactly when one below 1024·n or one of tile n has it. -/
theorem exists_tile_step (P : Fin 8192 → Prop) (n : ℕ) (c : Fin 1024 → Fin 8192) (hc : ∀ s, (c s).val = 1024 * n + s.val) :
    ((∃ x : Fin 8192, x.val < 1024 * n ∧ P x) ∨ ∃ s : Fin 1024, P (c s)) ↔ ∃ x : Fin 8192, x.val < 1024 * (n + 1) ∧ P x := by
  constructor
  · rintro (⟨x, hx, hp⟩ | ⟨s, hp⟩)
    · exact ⟨x, by omega, hp⟩
    · exact ⟨c s, by rw [hc]; have := s.isLt; omega, hp⟩
  · rintro ⟨x, hx, hp⟩
    by_cases h' : x.val < 1024 * n
    · exact .inl ⟨x, h', hp⟩
    · have hs : x.val - 1024 * n < 1024 := by omega
      have hx' : c ⟨x.val - 1024 * n, hs⟩ = x := Fin.ext (by rw [hc]; show 1024 * n + (x.val - 1024 * n) = x.val; omega)
      exact .inr ⟨⟨x.val - 1024 * n, hs⟩, by rw [hx']; exact hp⟩

theorem exists_tile_zero (P : Fin 8192 → Prop) : ¬ ∃ x : Fin 8192, x.val < 1024 * 0 ∧ P x := by
  rintro ⟨x, hx, _⟩; omega

theorem exists_tile_all (P : Fin 8192 → Prop) : (∃ x : Fin 8192, x.val < 1024 * (7 + 1) ∧ P x) ↔ ∃ x, P x :=
  ⟨fun ⟨x, _, hp⟩ => ⟨x, hp⟩, fun ⟨x, hp⟩ => ⟨x, by have := x.isLt; omega, hp⟩⟩

/-- The larger of two 0/1 flags is the flag of the disjunction. -/
theorem max_flag (A B : Prop) [Decidable A] [Decidable B] :
    max (if A then (1 : EReal) else 0) (if B then (1 : EReal) else 0) = if A ∨ B then (1 : EReal) else 0 := by
  by_cases hA : A <;> by_cases hB : B <;> simp [hA, hB]

end Cert.KernelIdeal.Tile
-- ==== Proof.KerTileInv.lean ====
/-
  The four accumulators after each point of a row tile, at row p, in terms of the scaled rows, squared lengths and labels.

  At point t the positive mask at (p, s) says column 1024·(t%8) + s is a positive of row 1024·(t/8) + p, the negative mask
  that it is a negative, and the distance tile holds their squared distance. One point's fold therefore joins the running
  maximum with the supremum over the tile's columns, meets the running minimum with the infimum over them, and raises each
  flag when the tile has such a column. By induction on the column tile n: after it the accumulators hold the extrema
  over the columns below 1024·(n+1) and the flags say whether a positive / a negative column exists below that bound
  (column tile 0 restarts from −∞, +∞, 0, 0; a later one continues from the point before, which has the same row tile).
-/
import proofs.«135942_j20263655702978_2_alg».proof.Proof.KerTileRed
import proofs.«135942_j20263655702978_2_alg».proof.Proof.KerTileSup
import proofs.«135942_j20263655702978_2_alg».proof.Proof.KerAcc

noncomputable section

open scoped BigOperators

namespace Cert.KernelIdeal.Tile

open Cert.KernelIdeal Cert.KernelIdeal.Gen Cert.KernelIdeal.Step
open Idealize.ShloMosaic Idealize.ShloMosaic.ValueIdx

/-- What the blocks hold, in terms of scaled rows `u`, squared lengths `q` and labels `lab`: at point t the row-tile blocks
    hold the rows 1024·(t/8) + p, the column-tile block of squared lengths the columns 1024·(t%8) + s, and the two whole
    arrays every row. -/
structure Reads (B : Acc.Blocks Ideal) (u : Fin 8192 → Fin 256 → EReal) (q : Fin 8192 → EReal) (lab : Fin 8192 → BitVec 32)
    (row col : Fin cfg0.N → Fin 1024 → Fin 8192) : Prop where
  hrow : ∀ t p, (row t p).val = 1024 * (t.val / 8) + p.val
  hcol : ∀ t s, (col t s).val = 1024 * (t.val % 8) + s.val
  hx2 : ∀ t p k, B.x2 t (ix2 p k) = u (row t p) k
  hx3 : ∀ t r k, B.x3 t (ix2 r k) = u r k
  ht4 : ∀ t p, B.t4 t (ix2 p (0 : Fin 1)) = lab (row t p)
  ht5 : ∀ t s, B.t5 t (ix2 (0 : Fin 1) s) = lab s
  hs6 : ∀ t p, B.s6 t (ix2 p (0 : Fin 1)) = q (row t p)
  hs7 : ∀ t s, B.s7 t (ix2 (0 : Fin 1) s) = q (col t s)

/-- A column's contribution to the running maximum over positives, and to the running minimum over negatives. -/
def gpos (u : Fin 8192 → Fin 256 → EReal) (q : Fin 8192 → EReal) (lab : Fin 8192 → BitVec 32) (r c : Fin 8192) : EReal :=
  if Triplet.IsPosG lab r c then Triplet.dist2G u q r c else ⊥
def gneg (u : Fin 8192 → Fin 256 → EReal) (q : Fin 8192 → EReal) (lab : Fin 8192 → BitVec 32) (r c : Fin 8192) : EReal :=
  if Triplet.IsNegG lab r c then Triplet.dist2G u q r c else ⊤

variable {B : Acc.Blocks Ideal} {u : Fin 8192 → Fin 256 → EReal} {q : Fin 8192 → EReal} {lab : Fin 8192 → BitVec 32}
  {row col : Fin cfg0.N → Fin 1024 → Fin 8192}

theorem col_val (R : Reads B u q lab row col) (t : Fin cfg0.N) (s : Fin 1024) :
    (col t s).val = 1024 * (grid0.coords t 1).val + s.val := by
  rw [(coords_val t).2]; exact R.hcol t s

theorem point_pos (R : Reads B u q lab row col) (t : Fin cfg0.N) (p s : Fin 1024) :
    k0_pay13 (agree (F := Ideal) (grid0.coords t) (B.t4 t) (B.t5 t)) (k0_pay11 (grid0.coords t)) (k0_pay12 (grid0.coords t)) (ix2 p s) = 1#1
      ↔ Triplet.IsPosG lab (row t p) (col t s) := by
  rw [pos_bit, colT_apply _ _ s (col t s) (col_val R t s), R.ht4, R.ht5, (coords_val t).1, (coords_val t).2, ← R.hrow t p, ← R.hcol t s]
  exact and_congr Iff.rfl (not_congr Fin.val_inj)

theorem point_neg (R : Reads B u q lab row col) (t : Fin cfg0.N) (p s : Fin 1024) :
    k0_pay14 (agree (F := Ideal) (grid0.coords t) (B.t4 t) (B.t5 t)) (ix2 p s) = 1#1 ↔ Triplet.IsNegG lab (row t p) (col t s) := by
  rw [neg_bit, colT_apply _ _ s (col t s) (col_val R t s), R.ht4, R.ht5]
  exact Iff.rfl

theorem point_dist (R : Reads B u q lab row col) (t : Fin cfg0.N) (p s : Fin 1024) :
    Step.dist (grid0.coords t) (B.x2 t) (B.x3 t) (B.s6 t) (B.s7 t) (ix2 p s) = Triplet.dist2G u q (row t p) (col t s) := by
  rw [dist_apply, R.hs6, R.hs7]
  unfold Triplet.dist2G
  refine congrArg _ (congrArg _ (Finset.sum_congr rfl fun k _ => ?_))
  rw [colX_apply _ _ s k (col t s) (col_val R t s), R.hx2, R.hx3]

/-! One point's fold of the four accumulators, at row p. -/

theorem fold_pos (R : Reads B u q lab row col) (t : Fin cfg0.N) (a : Acc.Quad Ideal) (p : Fin 1024) :
    (Acc.fold B t a).1 (ix2 p (0 : Fin 1))
      = max (a.1 (ix2 p (0 : Fin 1))) (Finset.univ.sup fun s : Fin 1024 => gpos u q lab (row t p) (col t s)) := by
  show next0 (grid0.coords t) (B.x2 t) (B.x3 t) (B.t4 t) (B.t5 t) (B.s6 t) (B.s7 t) a.1 (ix2 p (0 : Fin 1)) = _
  unfold next0
  rw [pay17_apply]
  refine congrArg _ (Finset.sup_congr rfl fun s _ => ?_)
  rw [point_dist R]
  exact if_congr (point_pos R t p s) rfl rfl

theorem fold_neg (R : Reads B u q lab row col) (t : Fin cfg0.N) (a : Acc.Quad Ideal) (p : Fin 1024) :
    (Acc.fold B t a).2.1 (ix2 p (0 : Fin 1))
      = min (a.2.1 (ix2 p (0 : Fin 1))) (Finset.univ.inf fun s : Fin 1024 => gneg u q lab (row t p) (col t s)) := by
  show next1 (grid0.coords t) (B.x2 t) (B.x3 t) (B.t4 t) (B.t5 t) (B.s6 t) (B.s7 t) a.2.1 (ix2 p (0 : Fin 1)) = _
  unfold next1
  rw [pay1_apply, pay18_apply]
  refine congrArg _ (Finset.inf_congr rfl fun s _ => ?_)
  rw [point_dist R]
  exact if_congr (point_neg R t p s) rfl rfl

theorem fold_fpos (R : Reads B u q lab row col) (t : Fin cfg0.N) (a : Acc.Quad Ideal) (p : Fin 1024) :
    (Acc.fold B t a).2.2.1 (ix2 p (0 : Fin 1))
      = max (a.2.2.1 (ix2 p (0 : Fin 1))) (if ∃ s : Fin 1024, Triplet.IsPosG lab (row t p) (col t s) then (1 : EReal) else 0) := by
  show next2 (grid0.coords t) (B.t4 t) (B.t5 t) a.2.2.1 (ix2 p (0 : Fin 1)) = _
  unfold next2
  rw [pay2_apply, pay15_apply]
  exact congrArg _ (if_congr (exists_congr fun s => point_pos R t p s) rfl rfl)

theorem fold_fneg (R : Reads B u q lab row col) (t : Fin cfg0.N) (a : Acc.Quad Ideal) (p : Fin 1024) :
    (Acc.fold B t a).2.2.2 (ix2 p (0 : Fin 1))
      = max (a.2.2.2 (ix2 p (0 : Fin 1))) (if ∃ s : Fin 1024, Triplet.IsNegG lab (row t p) (col t s) then (1 : EReal) else 0) := by
  show next3 (grid0.coords t) (B.t4 t) (B.t5 t) a.2.2.2 (ix2 p (0 : Fin 1)) = _
  unfold next3
  rw [pay3_apply, pay16_apply]
  exact congrArg _ (if_congr (exists_congr fun s => point_neg R t p s) rfl rfl)

/-- After the point whose column tile is n, the accumulators at row p hold the extrema over the columns below 1024·(n+1)
    and the flags say whether such a positive / negative column exists. -/
theorem acc_inv (R : Reads B u q lab row col) : ∀ (n : ℕ) (t : Fin cfg0.N), t.val % 8 = n → ∀ p : Fin 1024,
    (Acc.accAt B t.val t.isLt).1 (ix2 p (0 : Fin 1))
        = (Finset.univ.sup fun c : Fin 8192 => if c.val < 1024 * (n + 1) then gpos u q lab (row t p) c else ⊥)
    ∧ (Acc.accAt B t.val t.isLt).2.1 (ix2 p (0 : Fin 1))
        = (Finset.univ.inf fun c : Fin 8192 => if c.val < 1024 * (n + 1) then gneg u q lab (row t p) c else ⊤)
    ∧ (Acc.accAt B t.val t.isLt).2.2.1 (ix2 p (0 : Fin 1))
        = (if ∃ c : Fin 8192, c.val < 1024 * (n + 1) ∧ Triplet.IsPosG lab (row t p) c then (1 : EReal) else 0)
    ∧ (Acc.accAt B t.val t.isLt).2.2.2 (ix2 p (0 : Fin 1))
        = (if ∃ c : Fin 8192, c.val < 1024 * (n + 1) ∧ Triplet.IsNegG lab (row t p) c then (1 : EReal) else 0) := by
  intro n
  induction n with
  | zero =>
    intro t h p
    have hc : ∀ s, (col t s).val = 1024 * 0 + s.val := fun s => by rw [R.hcol, h]
    rw [Acc.accAt_first B t h]
    refine ⟨?_, ?_, ?_, ?_⟩
    · rw [fold_pos R]
      show max (k0_pay5 (F := Ideal) (ix2 p (0 : Fin 1))) _ = _
      rw [pay5_apply, ← sup_tile_step (gpos u q lab (row t p)) 0 (col t) hc, sup_tile_zero]
    · rw [fold_neg R]
      show min (k0_pay6 (F := Ideal) (ix2 p (0 : Fin 1))) _ = _
      rw [pay6_apply, ← inf_tile_step (gneg u q lab (row t p)) 0 (col t) hc, inf_tile_zero]
    · rw [fold_fpos R]
      show max (k0_pay7 (F := Ideal) (ix2 p (0 : Fin 1))) _ = _
      rw [pay7_apply, max_zero_flag]
      refine if_congr ?_ rfl rfl
      rw [← exists_tile_step (fun c => Triplet.IsPosG lab (row t p) c) 0 (col t) hc]
      exact ⟨Or.inr, fun h' => h'.resolve_left (exists_tile_zero _)⟩
    · rw [fold_fneg R]
      show max (k0_pay8 (F := Ideal) (ix2 p (0 : Fin 1))) _ = _
      rw [pay8_apply, max_zero_flag]
      refine if_congr ?_ rfl rfl
      rw [← exists_tile_step (fun c => Triplet.IsNegG lab (row t p) c) 0 (col t) hc]
      exact ⟨Or.inr, fun h' => h'.resolve_left (exists_tile_zero _)⟩
  | succ n ih =>
    intro t h p
    have hN : cfg0.N = 64 := by decide
    have hlt : t.val < 64 := hN ▸ t.isLt
    have h0 : ¬ t.val % 8 = 0 := by omega
    have hlt' : t.val - 1 < cfg0.N := Nat.lt_of_le_of_lt (Nat.sub_le _ _) t.isLt
    have ht' : (⟨t.val - 1, hlt'⟩ : Fin cfg0.N).val % 8 = n := by show (t.val - 1) % 8 = n; omega
    have hr : row ⟨t.val - 1, hlt'⟩ p = row t p := Fin.ext (by
      rw [R.hrow, R.hrow]
      show 1024 * ((t.val - 1) / 8) + p.val = 1024 * (t.val / 8) + p.val
      omega)
    have hc : ∀ s, (col t s).val = 1024 * (n + 1) + s.val := fun s => by rw [R.hcol, h]
    obtain ⟨i0, i1, i2, i3⟩ := ih ⟨t.val - 1, hlt'⟩ ht' p
    rw [hr] at i0 i1 i2 i3
    have j0 : (Acc.accAt B (t.val - 1) hlt').1 (ix2 p (0 : Fin 1)) = _ := i0
    have j1 : (Acc.accAt B (t.val - 1) hlt').2.1 (ix2 p (0 : Fin 1)) = _ := i1
    have j2 : (Acc.accAt B (t.val - 1) hlt').2.2.1 (ix2 p (0 : Fin 1)) = _ := i2
    have j3 : (Acc.accAt B (t.val - 1) hlt').2.2.2 (ix2 p (0 : Fin 1)) = _ := i3
    rw [Acc.accAt_next B t h0]
    refine ⟨?_, ?_, ?_, ?_⟩
    · rw [fold_pos R, j0, ← sup_tile_step (gpos u q lab (row t p)) (n + 1) (col t) hc]
    · rw [fold_neg R, j1, ← inf_tile_step (gneg u q lab (row t p)) (n + 1) (col t) hc]
    · rw [fold_fpos R, j2, max_flag]
      exact if_congr (exists_tile_step (fun c => Triplet.IsPosG lab (row t p) c) (n + 1) (col t) hc) rfl rfl
    · rw [fold_fneg R, j3, max_flag]
      exact if_congr (exists_tile_step (fun c => Triplet.IsNegG lab (row t p) c) (n + 1) (col t) hc) rfl rfl

end Cert.KernelIdeal.Tile

end
-- ==== Proof.KerTileLoss.lean ====
/-
  The row losses at the last column tile are the specification's.

  After the point whose column tile is 7 the invariant covers all 8192 columns: the running maximum is the supremum of
  the squared distance over the row's positives (⊥ when it has none), the running minimum the infimum over its negatives
  (⊤ when none), and each flag is 1 exactly when such a column exists. The body tests a flag with "> 0", which holds
  exactly when the flag is 1, so its clipped roots with their fallbacks are the hardest positive and hardest negative
  distances, and max 0 ((ap − an) + margin) is the row's loss.
-/
import proofs.«135942_j20263655702978_2_alg».proof.Proof.KerTileInv

noncomputable section

open scoped BigOperators

namespace Cert.KernelIdeal.Tile

open Cert.KernelIdeal Cert.KernelIdeal.Gen Cert.KernelIdeal.Step
open Idealize.ShloMosaic Idealize.ShloMosaic.ValueIdx

/-- At a point of the last column tile the row losses the body forms are the specification's, row by row. -/
theorem lossAt_eq (B : Acc.Blocks Ideal) (u : Fin 8192 → Fin 256 → EReal) (q : Fin 8192 → EReal) (lab : Fin 8192 → BitVec 32)
    (row col : Fin cfg0.N → Fin 1024 → Fin 8192)
    (hrow : ∀ t p, (row t p).val = 1024 * (t.val / 8) + p.val) (hcol : ∀ t s, (col t s).val = 1024 * (t.val % 8) + s.val)
    (hx2 : ∀ t p k, B.x2 t (ix2 p k) = u (row t p) k) (hx3 : ∀ t r k, B.x3 t (ix2 r k) = u r k)
    (ht4 : ∀ t p, B.t4 t (ix2 p (0 : Fin 1)) = lab (row t p)) (ht5 : ∀ t s, B.t5 t (ix2 (0 : Fin 1) s) = lab s)
    (hs6 : ∀ t p, B.s6 t (ix2 p (0 : Fin 1)) = q (row t p)) (hs7 : ∀ t s, B.s7 t (ix2 (0 : Fin 1) s) = q (col t s))
    (t : Fin cfg0.N) (ht : t.val % 8 = 7) (p : Fin 1024) :
    Acc.lossAt B t (ix2 p (0 : Fin 1)) = Triplet.rowLossG u q lab (row t p) := by
  have R : Reads B u q lab row col := ⟨hrow, hcol, hx2, hx3, ht4, ht5, hs6, hs7⟩
  obtain ⟨i0, i1, i2, i3⟩ := acc_inv R 7 t ht p
  have e0 : (Acc.accAt B t.val t.isLt).1 (ix2 p (0 : Fin 1)) = Triplet.posSupG u q lab (row t p) :=
    i0.trans (sup_tile_all (gpos u q lab (row t p)))
  have e1 : (Acc.accAt B t.val t.isLt).2.1 (ix2 p (0 : Fin 1)) = Triplet.negInfG u q lab (row t p) :=
    i1.trans (inf_tile_all (gneg u q lab (row t p)))
  have f2 : Triplet.zero < (Acc.accAt B t.val t.isLt).2.2.1 (ix2 p (0 : Fin 1)) ↔ ∃ s, Triplet.IsPosG lab (row t p) s := by
    rw [i2]
    exact (@zero_lt_flag _ _).trans (exists_tile_all fun c => Triplet.IsPosG lab (row t p) c)
  have f3 : Triplet.zero < (Acc.accAt B t.val t.isLt).2.2.2 (ix2 p (0 : Fin 1)) ↔ ∃ s, Triplet.IsNegG lab (row t p) s := by
    rw [i3]
    exact (@zero_lt_flag _ _).trans (exists_tile_all fun c => Triplet.IsNegG lab (row t p) c)
  unfold Acc.lossAt rowLosses
  rw [pay4_apply, e0, e1]
  unfold Triplet.rowLossG Triplet.hardPosG Triplet.hardNegG
  refine congrArg (max Triplet.zero) ?_
  refine congrArg (· + Triplet.margin) ?_
  refine congrArg₂ (· - ·) ?_ ?_
  · by_cases hE : ∃ s, Triplet.IsPosG lab (row t p) s
    · rw [if_pos (f2.mpr hE), if_pos hE]
    · rw [if_neg (fun h => hE (f2.mp h)), if_neg hE]
  · by_cases hE : ∃ s, Triplet.IsNegG lab (row t p) s
    · rw [if_pos (f3.mpr hE), if_pos hE]
    · rw [if_neg (fun h => hE (f3.mp h)), if_neg hE]

end Cert.KernelIdeal.Tile

end
-- ==== Proof.KerHostRead.lean ====
/-
  The kernel program's host lines before and after the region, as functions of the argument arrays and read at an
  index. The lines before the region scale each row of the feature array to unit length (entry over the row's length
  plus ε; the change of format to 16 bits and back is the identity on the extended reals), take the squared length of
  each scaled row, and lay the squared lengths and the labels out as a column (8192 × 1) and as a row (1 × 8192): a
  reshape keeps the row-major position, which for a column is the row number and for a row the column number. The
  lines after the region sum the column of row losses — the sum over every index of an 8192 × 1 array is the sum over
  its rows — from the zero word, and divide by the row count.
-/
import proofs.«135942_j20263655702978_2_alg».proof.Proof.Gen.KernelIdeal
import proofs.«135942_j20263655702978_2_alg».proof.Proof.Spec
import Idealize.ShloMosaic.Lib.IdealHost
import Idealize.ShloMosaic.Lib.Pipeline.Value

noncomputable section

open scoped BigOperators

namespace Cert.KernelIdeal.Host

open Cert.KernelIdeal Cert.KernelIdeal.Gen
open Idealize.ShloMosaic Idealize.ShloMosaic.ValueIdx
open Cert.Triplet

/-! ## The layout operations and the two sums at an index -/

/-- A vector broadcast down a column: entry (r, 0) is entry r. -/
theorem bcast_col {α : Type} (y : S8192.Idx → α) (r : Fin 8192) (z : Fin 1) :
    broadcastInDim S8192x1 ![0] bcast_S8192_S8192x1_0 y (ix2 r z) = y (ix1 r) :=
  broadcastInDim_apply _ bcast_S8192_S8192x1_0 y (ix2 r z) (ix1 r) (fun a => match a with
    | ⟨0, _⟩ => by show r.val = if (8192 : Nat) = 1 then 0 else r.val; rw [if_neg (by decide)])

/-- A column broadcast along the rows: entry (r, k) is entry (r, 0). -/
theorem bcast_row {α : Type} (y : S8192x1.Idx → α) (r : Fin 8192) (k : Fin 256) :
    broadcastInDim S8192x256 ![0, 1] bcast_S8192x1_S8192x256_0_1 y (ix2 r k) = y (ix2 r (0 : Fin 1)) :=
  broadcastInDim_apply _ bcast_S8192x1_S8192x256_0_1 y (ix2 r k) (ix2 r (0 : Fin 1)) (fun a => match a with
    | ⟨0, _⟩ => by show r.val = if (8192 : Nat) = 1 then 0 else r.val; rw [if_neg (by decide)]
    | ⟨1, _⟩ => by show 0 = if (1 : Nat) = 1 then 0 else k.val; rw [if_pos rfl])

/-- The sum along a row of an 8192 × 256 array, from the initial element. -/
theorem rowSum (y : FVec Ideal S8192x256 .f32) (init : S_.Idx → Ideal .f32) (r : Fin 8192) :
    Host.reduceAdd y init reducesTo_S8192x256_S8192_d1 h_S_ (ix1 r)
      = init (Shape.Idx.first h_S_) + ∑ k : Fin 256, y (ix2 r k) := by
  simp only [Host.reduceAdd, Ideal.hostReduceAdd_def]
  rw [Ideal.hostReduceAdd_single reducesTo_S8192x256_S8192_d1 (by decide)]
  refine congrArg (_ + ·) (Finset.sum_congr rfl fun k _ => ?_)
  exact congrArg y (funext fun a => Fin.ext (by match a with | ⟨0, _⟩ => rfl | ⟨1, _⟩ => rfl))

/-- The sum over every index of an 8192 × 1 array, from the initial element, is the sum over its rows. -/
theorem colSum (y : FVec Ideal S8192x1 .f32) (init : S_.Idx → Ideal .f32) (i : S_.Idx) :
    Host.reduceAdd y init reducesTo_S8192x1_S_d0_1 h_S_ i
      = init (Shape.Idx.first h_S_) + ∑ r : Fin 8192, y (ix2 r (0 : Fin 1)) := by
  simp only [Host.reduceAdd, Ideal.hostReduceAdd_def]
  rw [Ideal.hostReduceAdd_total reducesTo_S8192x1_S_d0_1 (fun b => b.elim0)]
  refine congrArg (_ + ·) ?_
  rw [sum_idx2]
  exact Finset.sum_congr rfl fun r _ => Fin.sum_univ_one _

/-- A vector reshaped to a column, to a row; a column reshaped to a row. -/
theorem reshape_col {α : Type} (L : S8192.Idx → α) (h : S8192.ShapeCasts S8192x1) (r : Fin 8192) (z : Fin 1) :
    shapeCast S8192x1 L h (ix2 r z) = L (ix1 r) :=
  shapeCast_apply L h (ix2 r z) (ix1 r) (by
    rw [Shape.rowMajor_val_one, Shape.rowMajor_val_two]
    show r.val = r.val * 1 + z.val
    have := z.isLt; omega)

theorem reshape_row {α : Type} (L : S8192.Idx → α) (h : S8192.ShapeCasts S1x8192) (z : Fin 1) (s : Fin 8192) :
    shapeCast S1x8192 L h (ix2 z s) = L (ix1 s) :=
  shapeCast_apply L h (ix2 z s) (ix1 s) (by
    rw [Shape.rowMajor_val_one, Shape.rowMajor_val_two]
    show s.val = z.val * 8192 + s.val
    have := z.isLt; omega)

theorem reshape_col_row {α : Type} (Y : S8192x1.Idx → α) (h : S8192x1.ShapeCasts S1x8192) (z : Fin 1) (s : Fin 8192) :
    shapeCast S1x8192 Y h (ix2 z s) = Y (ix2 s (0 : Fin 1)) :=
  shapeCast_apply Y h (ix2 z s) (ix2 s (0 : Fin 1)) (by
    rw [Shape.rowMajor_val_two, Shape.rowMajor_val_two]
    show s.val * 1 + 0 = z.val * 8192 + s.val
    have := z.isLt; omega)

/-! ## The lines before the region, as functions of the feature array -/

/-- The rows' lengths, as a column. -/
def lenCol (X : FVec Ideal S8192x256 .f32) : FVec Ideal S8192x1 .f32 :=
  Host.sqrt (broadcastInDim S8192x1 ![0] bcast_S8192_S8192x1_0
    (Host.reduceAdd (mulf X X) (constant S_ .f32 0x00000000#32) reducesTo_S8192x256_S8192_d1 h_S_))

/-- The scaled features, and their 16-bit form. -/
def featF (X : FVec Ideal S8192x256 .f32) : FVec Ideal S8192x256 .f32 :=
  Host.divf X (broadcastInDim S8192x256 ![0, 1] bcast_S8192x1_S8192x256_0_1
    (addf (lenCol X) (broadcastInDim S8192x1 ![] bcast_S_S8192x1 (constant S_ .f32 0x2B8CBCCC#32))))
def feat (X : FVec Ideal S8192x256 .f32) : FVec Ideal S8192x256 .bf16 := truncf .bf16 (featF X) bitsLt_bf16_f32

/-- The scaled rows' squared lengths, as a vector and as a column. -/
def sqVec (X : FVec Ideal S8192x256 .f32) : FVec Ideal S8192 .f32 :=
  Host.reduceAdd (mulf (extf .f32 (feat X) bitsLt_bf16_f32) (extf .f32 (feat X) bitsLt_bf16_f32))
    (constant S_ .f32 0x00000000#32) reducesTo_S8192x256_S8192_d1 h_S_
def sqCol (X : FVec Ideal S8192x256 .f32) : FVec Ideal S8192x1 .f32 :=
  broadcastInDim S8192x1 ![0] bcast_S8192_S8192x1_0 (sqVec X)

theorem lenCol_at (x : Feat) (r : Fin 8192) (z : Fin 1) : lenCol x (ix2 r z) = len x r := by
  unfold lenCol
  show Ideal.sqrt (broadcastInDim S8192x1 ![0] bcast_S8192_S8192x1_0
    (Host.reduceAdd (F := Ideal) (mulf x x) (constant S_ .f32 0x00000000#32) reducesTo_S8192x256_S8192_d1 h_S_) (ix2 r z)) = _
  rw [bcast_col, rowSum]
  rfl

theorem featF_at (x : Feat) (r : Fin 8192) (k : Fin 256) : featF x (ix2 r k) = unit x r k := by
  unfold featF
  show Ideal.div (x (ix2 r k)) (broadcastInDim S8192x256 ![0, 1] bcast_S8192x1_S8192x256_0_1
    (addf (lenCol x) (broadcastInDim S8192x1 ![] bcast_S_S8192x1 (constant (F := Ideal) S_ .f32 0x2B8CBCCC#32))) (ix2 r k)) = _
  rw [bcast_row]
  show Ideal.div (x (ix2 r k)) (lenCol x (ix2 r (0 : Fin 1))
    + broadcastInDim S8192x1 ![] bcast_S_S8192x1 (constant (F := Ideal) S_ .f32 0x2B8CBCCC#32) (ix2 r (0 : Fin 1))) = _
  rw [lenCol_at, broadcastInDim_scalar_apply]
  rfl

theorem feat_val (x : Feat) (r : Fin 8192) (k : Fin 256) : feat x (ix2 r k) = unit x r k := featF_at x r k

theorem sqVec_at (x : Feat) (r : Fin 8192) : sqVec x (ix1 r) = sqLen x r := by
  unfold sqVec
  rw [rowSum]
  show (constant S_ .f32 0x00000000#32 : S_.Idx → Ideal .f32) (Shape.Idx.first h_S_)
    + ∑ k : Fin 256, feat x (ix2 r k) * feat x (ix2 r k) = _
  simp only [feat_val]
  rfl

theorem sqCol_at (x : Feat) (r : Fin 8192) (z : Fin 1) : sqCol x (ix2 r z) = sqLen x r := by
  unfold sqCol
  rw [bcast_col, sqVec_at]

end Cert.KernelIdeal.Host

end
-- ==== Proof.KerHost.lean ====
/-
  What the kernel program's host lines hand the region, and what they make of what the region leaves.
  Entering the region, the scaled features' array holds at (r, k) the specification's scaled entry, the squared
  lengths' column at (r, 0) and row at (0, s) hold the squared length of the scaled row r, resp. s, and the labels'
  column and row hold the label of r, resp. of s. After the region the result is the sum of the column of row losses
  from the zero word, over the row count.
-/
import proofs.«135942_j20263655702978_2_alg».proof.Proof.KerLaunch
import proofs.«135942_j20263655702978_2_alg».proof.Proof.KerHostRead

noncomputable section

open scoped BigOperators

namespace Cert.KernelIdeal.Host

open Cert.KernelIdeal Cert.KernelIdeal.Gen Cert.KernelIdeal.Run
open Idealize.ShloMosaic Idealize.ShloMosaic.TcCoe Idealize.SL.Sem Idealize.ShloMosaic.ValueIdx Idealize.ShloMosaic.StableHlo
open Cert.Triplet

/-- One rewriting pass that composes a straight line's results and removes, where it arises, each transport of a value
    along its buffer's type equation. -/
macro "host_results" : tactic =>
  `(tactic| simp (disch := decide) only [after_cons, after_nil,
      nullary_result', unary_result', binary_result', ternary_result', quaternary_result', reshape_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne', TRef.toBuf, TRef.ofBuf, cast_eq])

variable (m : (ℓ : Loc nD τ sig) → Buf (Elt Ideal) ℓ) (ρ : Dev nD → PrngReg) (c : Dev nD)

/-! ## The buffers' terms when the region is entered -/

theorem v5_term : V m ρ c main_v5 = feat (m ((c.tc : Thread nD τ).loc main_arg0)) := by
  show StableHlo.after (hostOps0_1 (F := Ideal)) (StableHlo.after hostOps0 (V₀ m ρ c)) (Proc.devRef .tc main_v5) = _
  host_results
  rfl

theorem v9_term : V m ρ c main_v9 = sqCol (m ((c.tc : Thread nD τ).loc main_arg0)) := by
  show StableHlo.after (hostOps0_1 (F := Ideal)) (StableHlo.after hostOps0 (V₀ m ρ c)) (Proc.devRef .tc main_v9) = _
  host_results
  rfl

theorem v10_term : V m ρ c main_v10 = shapeCast S8192x1 (m ((c.tc : Thread nD τ).loc main_arg1)) shapeCasts_S8192_S8192x1 := by
  show StableHlo.after (hostOps0_1 (F := Ideal)) (StableHlo.after hostOps0 (V₀ m ρ c)) (Proc.devRef .tc main_v10) = _
  host_results
  rfl

theorem v11_term : V m ρ c main_v11 = shapeCast S1x8192 (m ((c.tc : Thread nD τ).loc main_arg1)) shapeCasts_S8192_S1x8192 := by
  show StableHlo.after (hostOps0_1 (F := Ideal)) (StableHlo.after hostOps0 (V₀ m ρ c)) (Proc.devRef .tc main_v11) = _
  host_results
  rfl

theorem v12_term : V m ρ c main_v12 = shapeCast S1x8192 (sqCol (m ((c.tc : Thread nD τ).loc main_arg0))) shapeCasts_S8192x1_S1x8192 := by
  show StableHlo.after (hostOps0_1 (F := Ideal)) (StableHlo.after hostOps0 (V₀ m ρ c)) (Proc.devRef .tc main_v12) = _
  host_results
  rfl

/-! ## Read at an index -/

/-- The scaled features at (r, k). -/
theorem feat_at (r : Fin 8192) (k : Fin 256) :
    V m ρ c main_v5 (ix2 r k) = Cert.Triplet.unit (m ((c.tc : Thread nD τ).loc main_arg0)) r k :=
  (congrFun (v5_term m ρ c) (ix2 r k)).trans (feat_val _ r k)

/-- The squared lengths' column at (r, 0). -/
theorem sq_col_at (r : Fin 8192) :
    V m ρ c main_v9 (ix2 r (0 : Fin 1)) = Cert.Triplet.sqLen (m ((c.tc : Thread nD τ).loc main_arg0)) r :=
  (congrFun (v9_term m ρ c) (ix2 r (0 : Fin 1))).trans (sqCol_at _ r 0)

/-- The squared lengths' row at (0, s). -/
theorem sq_row_at (s : Fin 8192) :
    V m ρ c main_v12 (ix2 (0 : Fin 1) s) = Cert.Triplet.sqLen (m ((c.tc : Thread nD τ).loc main_arg0)) s :=
  (congrFun (v12_term m ρ c) (ix2 (0 : Fin 1) s)).trans ((reshape_col_row _ _ 0 s).trans (sqCol_at _ s 0))

/-- The labels' column at (r, 0) and row at (0, s). -/
theorem lab_col_at (r : Fin 8192) :
    V m ρ c main_v10 (ix2 r (0 : Fin 1)) = m ((c.tc : Thread nD τ).loc main_arg1) (ix1 r) :=
  (congrFun (v10_term m ρ c) (ix2 r (0 : Fin 1))).trans (reshape_col _ _ r 0)

theorem lab_row_at (s : Fin 8192) :
    V m ρ c main_v11 (ix2 (0 : Fin 1) s) = m ((c.tc : Thread nD τ).loc main_arg1) (ix1 s) :=
  (congrFun (v11_term m ρ c) (ix2 (0 : Fin 1) s)).trans (reshape_row _ _ 0 s)

/-! ## The lines after the region -/

/-- The column of row losses the region leaves, as an 8192 × 1 array of extended reals. -/
abbrev lossCol : FVec Ideal S8192x1 .f32 := finalLoss m ρ c

/-- The result: the mean of the column of row losses the region leaves. -/
theorem mean_at :
    StableHlo.after (hostOps1 (F := Ideal)) (VX m ρ c) (Proc.devRef .tc main_v15)
      = fun _ => Ideal.div (Cert.Triplet.zero + ∑ r : Fin 8192, lossCol m ρ c (ix2 r (0 : Fin 1))) Cert.Triplet.rows := by
  host_results
  funext i
  show Ideal.div (Host.reduceAdd (lossCol m ρ c) (constant S_ .f32 0x00000000#32) reducesTo_S8192x1_S_d0_1 h_S_ i)
    ((constant S_ .f32 0x46000000#32 : S_.Idx → Ideal .f32) i) = _
  rw [colSum]
  rfl

/-- The same, over any name for the column of row losses. -/
theorem mean_of (L : FVec Ideal S8192x1 .f32) (hL : finalLoss m ρ c = L) :
    StableHlo.after (hostOps1 (F := Ideal)) (VX m ρ c) (Proc.devRef .tc main_v15)
      = fun _ => Ideal.div (Cert.Triplet.zero + ∑ r : Fin 8192, L (ix2 r (0 : Fin 1))) Cert.Triplet.rows := by
  subst hL
  exact mean_at m ρ c

end Cert.KernelIdeal.Host

end
-- ==== Proof.KerValue.lean ====
/-
  The kernel's result at the ideal instance IS the specification's loss.

  Per row tile, the accumulators' recursion over the eight column tiles ends at the parametrized row loss of each of the
  tile's rows (the tile arithmetic); the blocks the body reads are the region-entry arrays' entries at the tile's global
  rows and columns (the block index maps); the region-entry arrays are the scaled rows, their squared lengths (as a
  column and as a row) and the labels (as a column and as a row) of the two arguments (the host lines before the
  region). So the row-loss array the region leaves is the specification's row loss of each row, and the last host lines
  take its mean.
-/
import proofs.«135942_j20263655702978_2_alg».proof.Proof.KerFinal
import proofs.«135942_j20263655702978_2_alg».proof.Proof.KerBlocks
import proofs.«135942_j20263655702978_2_alg».proof.Proof.KerTileLoss
import proofs.«135942_j20263655702978_2_alg».proof.Proof.KerHost

set_option maxRecDepth 16384

noncomputable section

namespace Cert.KernelIdeal.Run

open Cert.KernelIdeal Cert.KernelIdeal.Gen Cert.KernelIdeal.Acc Cert.Triplet
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- The global row of row `p` of point `t`'s row tile, and the global column of column `s` of its column tile. -/
def rowOf (t : Fin cfg0.N) (p : Fin 1024) : Fin 8192 :=
  ⟨1024 * (t.val / 8) + p.val, by have := lt_of_lt_of_eq t.isLt (show cfg0.N = 64 from N_0); have := p.isLt; omega⟩
def colOf (t : Fin cfg0.N) (s : Fin 1024) : Fin 8192 :=
  ⟨1024 * (t.val % 8) + s.val, by have := s.isLt; omega⟩

/-- The row-loss array after the run: the specification's row loss of each row. -/
theorem finalLoss_spec (c : Dev nD) :
    finalLoss m ρ c = fun i => rowLoss (m ((c.tc : Thread nD τ).loc main_arg0)) (m ((c.tc : Thread nD τ).loc main_arg1)) (i 0) := by
  refine finalLoss_eq m ρ c (fun r => rowLoss (m ((c.tc : Thread nD τ).loc main_arg0)) (m ((c.tc : Thread nD τ).loc main_arg1)) r) (fun t ht p r hr => ?_)
  have hrr : rowOf t p = r := Fin.ext hr.symm
  rw [rowLoss_eq, ← hrr]
  exact Tile.lossAt_eq (blocks m ρ c) (Cert.Triplet.unit (m ((c.tc : Thread nD τ).loc main_arg0))) (sqLen (m ((c.tc : Thread nD τ).loc main_arg0)))
    (fun r => m ((c.tc : Thread nD τ).loc main_arg1) (ix1 r)) rowOf colOf (fun _ _ => rfl) (fun _ _ => rfl)
    (fun t p k => (iblk0_apply m ρ c t p k (rowOf t p) k rfl rfl).trans (Host.feat_at m ρ c _ _))
    (fun t r k => (iblk1_apply m ρ c t r k r k rfl rfl).trans (Host.feat_at m ρ c _ _))
    (fun t p => (iblk2_apply m ρ c t p 0 (rowOf t p) 0 rfl rfl).trans (Host.lab_col_at m ρ c _))
    (fun t s => (iblk3_apply m ρ c t 0 s 0 s rfl rfl).trans (Host.lab_row_at m ρ c _))
    (fun t p => (iblk4_apply m ρ c t p 0 (rowOf t p) 0 rfl rfl).trans (Host.sq_col_at m ρ c _))
    (fun t s => (iblk5_apply m ρ c t 0 s 0 (colOf t s) rfl rfl).trans (Host.sq_row_at m ρ c _))
    t ht p

/-- The result buffer after the run: the specification's loss. -/
theorem result_spec (c : Dev nD) :
    StableHlo.after hostOps1 (VX m ρ c) main_v15
      = fun _ => loss (m ((c.tc : Thread nD τ).loc main_arg0)) (m ((c.tc : Thread nD τ).loc main_arg1)) :=
  (Host.mean_of m ρ c (fun i => rowLoss (m ((c.tc : Thread nD τ).loc main_arg0)) (m ((c.tc : Thread nD τ).loc main_arg1)) (i 0))
    (finalLoss_spec m ρ c)).trans rfl

/-- THE RUN at the ideal instance: termination, the result at the specification's loss, the arguments unchanged. -/
theorem run_spec : θ_run defs (onTc (τ := τ) (main (F := Ideal))) ⟨m, fun _ => 0, ρ⟩ fun r => ∀ c : Dev nD,
      r.2.mem ((c.tc : Thread nD τ).loc main_v15) = (fun _ => loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_spec m ρ c), (h c).2.1.trans (V_arg m ρ c main_arg0 (.inl rfl)),
      (h c).2.2.trans (V_arg m ρ c main_arg1 (.inr rfl))⟩)
    (run_main m ρ)

end Cert.KernelIdeal.Run

end
-- ==== Proof.RefLaw.lean ====
/-
  The order facts that separate the two programs. The clip-and-root y ↦ √(max ε y) is monotone on the extended
  reals, so over a finite index type it commutes with a supremum, or an infimum, taken over a NONEMPTY set of
  admitted indices (the others contributing ⊥, resp. ⊤): applying it to every admitted entry and then taking the
  extremum gives the same number as taking the extremum first. Also: a fold by max from ⊥ is the supremum, a fold
  by min from ⊤ the infimum, and the two infinite words denote ⊥ and ⊤.
-/
import proofs.«135942_j20263655702978_2_alg».proof.Proof.Spec

noncomputable section

namespace Cert.Triplet

open Idealize.ShloMosaic

/-- The root is monotone on the extended reals (⊥ at ⊥ and at the negatives, ⊤ at ⊤). -/
theorem sqrt_mono : Monotone Ideal.sqrt := by
  intro a b hab
  induction a using EReal.rec with
  | bot => exact bot_le
  | top => rw [top_le_iff.mp hab]
  | coe r =>
    induction b using EReal.rec with
    | bot => exact absurd hab (by simp)
    | top => exact le_top
    | coe s =>
      have hrs : r ≤ s := EReal.coe_le_coe_iff.mp hab
      simp only [Ideal.sqrt_coe]
      by_cases h1 : r < 0
      · rw [if_pos h1]; exact bot_le
      · have h2 : ¬ s < 0 := fun h => h1 (lt_of_le_of_lt hrs h)
        rw [if_neg h1, if_neg h2]
        exact EReal.coe_le_coe_iff.mpr (Real.sqrt_le_sqrt hrs)

/-- Clipping below at ε and taking the root is monotone. -/
theorem clipRoot_mono : Monotone clipRoot := fun _ _ h => sqrt_mono (max_le_max le_rfl h)

/-- A monotone map commutes with the supremum over a nonempty set of admitted indices. -/
theorem mono_sup_ite {ι : Type} [Fintype ι] (f : EReal → EReal) (hf : Monotone f) (P : ι → Prop) [DecidablePred P]
    (d : ι → EReal) (h : ∃ i, P i) :
    (Finset.univ.sup fun i => if P i then f (d i) else ⊥) = f (Finset.univ.sup fun i => if P i then d i else ⊥) := by
  obtain ⟨i0, hi0⟩ := h
  apply le_antisymm
  · refine Finset.sup_le fun i _ => ?_
    by_cases hi : P i
    · rw [if_pos hi]
      refine hf ?_
      have := Finset.le_sup (f := fun i => if P i then d i else ⊥) (Finset.mem_univ i)
      rwa [if_pos hi] at this
    · rw [if_neg hi]; exact bot_le
  · obtain ⟨j, _, hj⟩ := Finset.exists_mem_eq_sup Finset.univ ⟨i0, Finset.mem_univ _⟩ (fun i => if P i then d i else ⊥)
    rw [hj]
    by_cases hPj : P j
    · rw [if_pos hPj]
      have := Finset.le_sup (f := fun i => if P i then f (d i) else ⊥) (Finset.mem_univ j)
      rwa [if_pos hPj] at this
    · rw [if_neg hPj]
      have h0 : d i0 ≤ ⊥ := by
        have := Finset.le_sup (f := fun i => if P i then d i else ⊥) (Finset.mem_univ i0)
        rwa [hj, if_neg hPj, if_pos hi0] at this
      have e0 : d i0 = ⊥ := le_bot_iff.mp h0
      have := Finset.le_sup (f := fun i => if P i then f (d i) else ⊥) (Finset.mem_univ i0)
      rwa [if_pos hi0, e0] at this

/-- A monotone map commutes with the infimum over a nonempty set of admitted indices. -/
theorem mono_inf_ite {ι : Type} [Fintype ι] (f : EReal → EReal) (hf : Monotone f) (P : ι → Prop) [DecidablePred P]
    (d : ι → EReal) (h : ∃ i, P i) :
    (Finset.univ.inf fun i => if P i then f (d i) else ⊤) = f (Finset.univ.inf fun i => if P i then d i else ⊤) := by
  obtain ⟨i0, hi0⟩ := h
  apply le_antisymm
  · obtain ⟨j, _, hj⟩ := Finset.exists_mem_eq_inf Finset.univ ⟨i0, Finset.mem_univ _⟩ (fun i => if P i then d i else ⊤)
    rw [hj]
    by_cases hPj : P j
    · rw [if_pos hPj]
      have := Finset.inf_le (f := fun i => if P i then f (d i) else ⊤) (Finset.mem_univ j)
      rwa [if_pos hPj] at this
    · rw [if_neg hPj]
      have h0 : ⊤ ≤ d i0 := by
        have := Finset.inf_le (f := fun i => if P i then d i else ⊤) (Finset.mem_univ i0)
        rwa [hj, if_neg hPj, if_pos hi0] at this
      have e0 : d i0 = ⊤ := top_le_iff.mp h0
      have := Finset.inf_le (f := fun i => if P i then f (d i) else ⊤) (Finset.mem_univ i0)
      rwa [if_pos hi0, e0] at this
  · refine Finset.le_inf fun i _ => ?_
    by_cases hi : P i
    · rw [if_pos hi]
      refine hf ?_
      have := Finset.inf_le (f := fun i => if P i then d i else ⊤) (Finset.mem_univ i)
      rwa [if_pos hi] at this
    · rw [if_neg hi]; exact le_top

/-- The clip-and-root of each positive's distance, then the supremum, is the clip-and-root of the supremum. -/
theorem clipRoot_sup (x : Feat) (t : Lab) (r : Fin 8192) (h : ∃ s, IsPos t r s) :
    (Finset.univ.sup fun s : Fin 8192 => if IsPos t r s then clipRoot (dist2 x r s) else ⊥) = clipRoot (posSup x t r) :=
  mono_sup_ite clipRoot clipRoot_mono (fun s => IsPos t r s) (fun s => dist2 x r s) h

/-- The clip-and-root of each negative's distance, then the infimum, is the clip-and-root of the infimum. -/
theorem clipRoot_inf (x : Feat) (t : Lab) (r : Fin 8192) (h : ∃ s, IsNeg t r s) :
    (Finset.univ.inf fun s : Fin 8192 => if IsNeg t r s then clipRoot (dist2 x r s) else ⊤) = clipRoot (negInf x t r) :=
  mono_inf_ite clipRoot clipRoot_mono (fun s => IsNeg t r s) (fun s => dist2 x r s) h

/-- A fold by max from ⊥ is the supremum; a fold by min from ⊤ is the infimum. -/
theorem fold_max_bot {ι : Type} (s : Finset ι) (f : ι → EReal) : s.fold max ⊥ f = s.sup f := rfl
theorem fold_min_top {ι : Type} (s : Finset ι) (f : ι → EReal) : s.fold min ⊤ f = s.inf f := rfl

/-- The two infinite words. -/
theorem ofBits_negInf : Ideal.ofBits .f32 0xFF800000#32 = ⊥ := by simp [Ideal.ofBits, Ideal.ieee]
theorem ofBits_posInf : Ideal.ofBits .f32 0x7F800000#32 = ⊤ := by simp [Ideal.ofBits, Ideal.ieee]

end Cert.Triplet

end
-- ==== Proof.RefEntry.lean ====
/-
  The reference program's stages read at an index, up to the two masked arrays of distances.
  With x the feature array and t the labels: the length of row r, the scaled entry (r, k), the squared length of the
  scaled row, the inner product of two scaled rows and the squared distance d(r, s) are the specification's
  `len`, `unit`, `sqLen`, `inner`, `dist2`; the clipped root at (r, s) is `clipRoot (dist2 x r s)`. The mask of
  positives at (r, s) — equal labels and not (row number + 0 = column number) — is one exactly when s is a positive of r,
  the mask of negatives exactly when s is a negative of r: the row and column numbers are 32-bit words of values
  below 8192, on which the word of a number determines the number. So the array the max-reduce reads holds the
  clipped root at the positives and ⊥ elsewhere, the array the min-reduce reads holds it at the negatives and ⊤ elsewhere.
-/
import proofs.«135942_j20263655702978_2_alg».proof.Proof.RefReadP
import proofs.«135942_j20263655702978_2_alg».proof.Proof.RefLaw
import Idealize.ShloMosaic.Lib.IdealHost
import Idealize.ShloMosaic.Lib.WordArith

noncomputable section

namespace Cert.ReferenceIdeal.RefValue

open Cert.ReferenceIdeal Cert.ReferenceIdeal.Gen Cert.ReferenceIdeal.ReadP
open Idealize.ShloMosaic Idealize.ShloMosaic.ValueIdx Idealize.ShloMosaic.WordArith
open Cert.Triplet

/-! ## The stages' index functions at (r, s), (r, k), r -/

theorem e1 (r : Fin 8192) (z : Fin 1) : idx_main_call0_v2 (ix2 r z) = ix1 r :=
  funext fun a => Fin.ext (by match a with | ⟨0, _⟩ => rfl)
theorem e2 (r : Fin 8192) (k : Fin 256) : idx_main_call0_v1 (ix1 r) k = ix2 r k :=
  funext fun a => Fin.ext (by match a with | ⟨0, _⟩ => rfl | ⟨1, _⟩ => rfl)
theorem e3 (r : Fin 8192) (k : Fin 256) : idx_main_v3 (ix2 r k) = ix2 r (0 : Fin 1) :=
  funext fun a => Fin.ext (by match a with | ⟨0, _⟩ => rfl | ⟨1, _⟩ => rfl)
theorem e4 (r : Fin 8192) (k : Fin 256) : idx_main_v6 (ix1 r) k = ix2 r k :=
  funext fun a => Fin.ext (by match a with | ⟨0, _⟩ => rfl | ⟨1, _⟩ => rfl)
theorem e5 (r s : Fin 8192) (k : Fin 256) : lidx_main_v13 (ix2 r s) k = ix2 r k :=
  funext fun a => Fin.ext (by match a with | ⟨0, _⟩ => rfl | ⟨1, _⟩ => rfl)
theorem e6 (r s : Fin 8192) (k : Fin 256) : idx_main_v12 (ridx_main_v13 (ix2 r s) k) = ix2 s k :=
  funext fun a => Fin.ext (by match a with | ⟨0, _⟩ => rfl | ⟨1, _⟩ => rfl)
theorem e7 (r s : Fin 8192) : idx_main_v7 (idx_main_v9 (ix2 r s)) = ix1 r :=
  funext fun a => Fin.ext (by match a with | ⟨0, _⟩ => rfl)
theorem e8 (r s : Fin 8192) : idx_main_v8 (idx_main_v10 (ix2 r s)) = ix1 s :=
  funext fun a => Fin.ext (by match a with | ⟨0, _⟩ => rfl)
theorem e9 (r s : Fin 8192) : idx_main_v19 (idx_main_v21 (ix2 r s)) = ix1 r :=
  funext fun a => Fin.ext (by match a with | ⟨0, _⟩ => rfl)
theorem e10 (r s : Fin 8192) : idx_main_v20 (idx_main_v22 (ix2 r s)) = ix1 s :=
  funext fun a => Fin.ext (by match a with | ⟨0, _⟩ => rfl)

/-! ## The distances -/

/-- The root of the sum of squares of row r is its length. -/
theorem len_at (x : Feat) (r : Fin 8192) (z : Fin 1) : val_main_v0 (F := Ideal) x (ix2 r z) = len x r := by
  simp only [val_main_v0_apply, val_main_call0_v2_apply, val_main_call0_v1_apply, val_main_call0_cst_apply,
    val_main_call0_v0_apply, e1, e2, Ideal.hostUnary_sqrt_def, Ideal.mulf_def, Ideal.ofBits_def] <;> rfl

/-- The entry over the row's length plus ε is the scaled entry. -/
theorem unit_at (x : Feat) (r : Fin 8192) (k : Fin 256) : val_main_v4 (F := Ideal) x (ix2 r k) = unit x r k := by
  simp only [val_main_v4_apply, val_main_v3_apply, val_main_v2_apply, val_main_v1_apply, val_main_cst_apply, e3, len_at,
    Ideal.hostDivf_def, Ideal.addf_def, Ideal.ofBits_def] <;> rfl

/-- The sum of squares of the scaled row. -/
theorem sqLen_at (x : Feat) (r : Fin 8192) : val_main_v6 (F := Ideal) x (ix1 r) = sqLen x r := by
  simp only [val_main_v6_apply, val_main_cst_0_apply, val_main_v5_apply, e4, unit_at, Ideal.mulf_def, Ideal.ofBits_def] <;> rfl

/-- The contraction of the scaled array with its transpose at (r, s) is the inner product of the scaled rows. -/
theorem inner_at (x : Feat) (r s : Fin 8192) : val_main_v13 (F := Ideal) x (ix2 r s) = Cert.Triplet.inner x r s := by
  simp only [val_main_v13_apply, val_main_v12_apply, e5, e6, unit_at] <;> rfl

/-- The squared distance at (r, s). -/
theorem dist2_at (x : Feat) (r s : Fin 8192) : val_main_v16 (F := Ideal) x (ix2 r s) = dist2 x r s := by
  simp only [val_main_v16_apply, val_main_v11_apply, val_main_v9_apply, val_main_v7_apply, val_main_v10_apply,
    val_main_v8_apply, val_main_v15_apply, val_main_v14_apply, val_main_cst_1_apply, e7, e8, sqLen_at, inner_at,
    Ideal.subf_def, Ideal.addf_def, Ideal.mulf_def, Ideal.ofBits_def] <;> rfl

/-- The clipped root at (r, s). -/
theorem root_at (x : Feat) (r s : Fin 8192) : val_main_v18 (F := Ideal) x (ix2 r s) = clipRoot (dist2 x r s) := by
  simp only [val_main_v18_apply, val_main_v17_apply, val_main_call1_v1_apply, val_main_call1_v0_apply, val_main_cst_2_apply,
    dist2_at, Ideal.hostUnary_sqrt_def, Ideal.maximumf_def, Ideal.ofBits_def] <;> rfl

/-! ## The masks -/

theorem not_ofBool (b : Bool) : ~~~(BitVec.ofBool b) = BitVec.ofBool (!b) := by cases b <;> decide

/-- A select on a bit is the conditional on the bit being one. -/
theorem select_ite {α : Type} (c : BitVec 1) (a b : α) : Scalar.select c a b = if c = 1#1 then a else b := rfl

/-- The words of two numbers below 8192, the first plus the zero word, are equal exactly when the numbers are. -/
theorem iota_eq (r s : Fin 8192) : (BitVec.ofNat 32 r.val + 0#32 == BitVec.ofNat 32 s.val) = decide (r = s) := by
  rw [BitVec.add_zero]
  by_cases h : r = s
  · subst h; simp
  · have hne : BitVec.ofNat 32 r.val ≠ BitVec.ofNat 32 s.val := by
      intro e
      have e' := congrArg BitVec.toNat e
      simp only [BitVec.toNat_ofNat] at e'
      have hr := r.isLt; have hs := s.isLt
      rw [Nat.mod_eq_of_lt (by omega), Nat.mod_eq_of_lt (by omega)] at e'
      exact h (Fin.ext e')
    simp [h, hne]

/-- The labels of rows r and s compared. -/
theorem same_at (t : Lab) (r s : Fin 8192) :
    val_main_v23 (F := Ideal) t (ix2 r s) = BitVec.ofBool (t (ix1 r) == t (ix1 s)) := by
  simp only [val_main_v23_apply, val_main_v21_apply, val_main_v22_apply, val_main_v19_apply, val_main_v20_apply, e9, e10,
    IntOp.cmpi]

/-- The diagonal: row number plus zero equals column number. -/
theorem eye_at (r s : Fin 8192) : val_main_v28 (F := Ideal) (ix2 r s) = BitVec.ofBool (decide (r = s)) := by
  simp only [val_main_v28_apply, val_main_v27_apply, val_main_v24_apply, val_main_v25_apply, val_main_v26_apply,
    val_main_c_apply, IntOp.cmpi, IntOp.addi]
  exact congrArg BitVec.ofBool (iota_eq r s)

/-- The mask of positives is one exactly at the positives. -/
theorem mask_pos (t : Lab) (r s : Fin 8192) : val_main_v30 (F := Ideal) t (ix2 r s) = 1#1 ↔ IsPos t r s := by
  rw [val_main_v30_apply, val_main_v29_apply, same_at, eye_at, not_ofBool, andi_ofBool, ofBool_eq_one_iff]
  unfold IsPos
  simp

/-- The mask of negatives is one exactly at the negatives. -/
theorem mask_neg (t : Lab) (r s : Fin 8192) : val_main_v31 (F := Ideal) t (ix2 r s) = 1#1 ↔ IsNeg t r s := by
  rw [val_main_v31_apply, same_at, not_ofBool, ofBool_eq_one_iff]
  unfold IsNeg
  simp

/-- The array the max-reduce reads: the clipped root at the positives, ⊥ elsewhere. -/
theorem pos_entry (x : Feat) (t : Lab) (r s : Fin 8192) :
    val_main_v32 (F := Ideal) x t (ix2 r s) = if IsPos t r s then clipRoot (dist2 x r s) else ⊥ := by
  rw [val_main_v32_apply, select_ite, root_at, val_main_call2_v0_apply, val_main_cst_3_apply, Ideal.ofBits_def, ofBits_negInf]
  exact if_congr (mask_pos t r s) rfl rfl

/-- The array the min-reduce reads: the clipped root at the negatives, ⊤ elsewhere. -/
theorem neg_entry (x : Feat) (t : Lab) (r s : Fin 8192) :
    val_main_v36 (F := Ideal) x t (ix2 r s) = if IsNeg t r s then clipRoot (dist2 x r s) else ⊤ := by
  rw [val_main_v36_apply, select_ite, root_at, val_main_call4_v0_apply, val_main_cst_7_apply, Ideal.ofBits_def, ofBits_posInf]
  exact if_congr (mask_neg t r s) rfl rfl

end Cert.ReferenceIdeal.RefValue

end
-- ==== Proof.RefReduce.lean ====
/-
  The four reductions over the columns of an 8192 × 8192 array, read at a row. For a commutative, associative body
  the reduce at row r is the fold of the body over that row's columns from the initial element; from ⊥ a fold by max
  is the supremum over the columns, from ⊤ a fold by min is the infimum, and from the zero bit a fold by or is one
  exactly when some column's bit is one.
-/
import proofs.«135942_j20263655702978_2_alg».proof.Proof.RefLaw
import Idealize.ShloMosaic.PureOps.Reduce
import Idealize.ShloMosaic.PureOps.Ideal.Laws
import Idealize.ShloMosaic.Lib.ValueIdx

noncomputable section

namespace Cert.Triplet

open Idealize.ShloMosaic Idealize.ShloMosaic.ValueIdx

/-- The square array's shape, its rows' shape, and the scalar shape. -/
abbrev SQ : Shape := ⟨2, ![8192, 8192]⟩
abbrev ROW : Shape := ⟨1, ![8192]⟩
abbrev SC : Shape := ⟨0, ![]⟩

theorem reducesSQ : SQ.Reduces [1] ROW := by decide

/-- Row index r with column k put back is (r, k). -/
theorem lift_row (r : Fin 8192) (k : Fin (SQ.size 1)) : reducesSQ.lift (ix1 r) k = ix2 r (⟨k.val, k.isLt⟩ : Fin 8192) := by
  funext c; apply Fin.ext
  fin_cases c <;> rfl

/-- A fold by or from the zero bit is one exactly when some entry is one. -/
theorem fold_ori_eq_one {ι : Type} [DecidableEq ι] (S : Finset ι) (f : ι → BitVec 1) :
    S.fold IntOp.ori 0#1 f = 1#1 ↔ ∃ k ∈ S, f k = 1#1 := by
  have hor : ∀ a b : BitVec 1, IntOp.ori a b = 1#1 ↔ a = 1#1 ∨ b = 1#1 := by decide
  induction S using Finset.induction_on with
  | empty => simp
  | insert a S ha ih =>
    have ih' : S.fold IntOp.ori 0#1 f = 1#1 ↔ ∃ k ∈ S, f k = 1#1 := ih
    rw [Finset.fold_insert ha, hor, ih']
    constructor
    · rintro (h | ⟨k, hk, hf⟩)
      · exact ⟨a, Finset.mem_insert_self _ _, h⟩
      · exact ⟨k, Finset.mem_insert_of_mem hk, hf⟩
    · rintro ⟨k, hk, hf⟩
      rcases Finset.mem_insert.mp hk with rfl | hk
      · exact Or.inl hf
      · exact Or.inr ⟨k, hk, hf⟩

/-- From ⊥, the max-reduce over the columns at row r is the supremum of the row. -/
theorem reduce_max_row (y : SQ.Idx → EReal) (init : SC.Idx → EReal) (h' : SQ.ReducesTo [1] ROW) (hu : 0 < SC.numel)
    (hinit : init (Shape.Idx.first hu) = ⊥) (r : Fin 8192) :
    Host.reduce (FloatOps.maximumf (F := Ideal) (φ := .f32)) y init h' hu (ix1 r) = Finset.univ.sup fun s : Fin 8192 => y (ix2 r s) := by
  rw [Host.reduce_eq_fold_single (FloatOps.maximumf (F := Ideal) (φ := .f32)) y init h' reducesSQ hu, hinit]
  have hf : (y ∘ reducesSQ.lift (ix1 r)) = fun k : Fin 8192 => y (ix2 r k) := funext fun k => congrArg y (lift_row r k)
  exact (congrArg (fun f => Finset.fold max (⊥ : EReal) f (Finset.univ : Finset (Fin 8192))) hf).trans (fold_max_bot _ _)

/-- From ⊤, the min-reduce over the columns at row r is the infimum of the row. -/
theorem reduce_min_row (y : SQ.Idx → EReal) (init : SC.Idx → EReal) (h' : SQ.ReducesTo [1] ROW) (hu : 0 < SC.numel)
    (hinit : init (Shape.Idx.first hu) = ⊤) (r : Fin 8192) :
    Host.reduce (FloatOps.minimumf (F := Ideal) (φ := .f32)) y init h' hu (ix1 r) = Finset.univ.inf fun s : Fin 8192 => y (ix2 r s) := by
  rw [Host.reduce_eq_fold_single (FloatOps.minimumf (F := Ideal) (φ := .f32)) y init h' reducesSQ hu, hinit]
  have hf : (y ∘ reducesSQ.lift (ix1 r)) = fun k : Fin 8192 => y (ix2 r k) := funext fun k => congrArg y (lift_row r k)
  exact (congrArg (fun f => Finset.fold min (⊤ : EReal) f (Finset.univ : Finset (Fin 8192))) hf).trans (fold_min_top _ _)

/-- From the zero bit, the or-reduce over the columns at row r is one exactly when some column's bit is one. -/
theorem reduce_or_row (y : SQ.Idx → BitVec 1) (init : SC.Idx → BitVec 1) (h' : SQ.ReducesTo [1] ROW) (hu : 0 < SC.numel)
    (hinit : init (Shape.Idx.first hu) = 0#1) (r : Fin 8192) :
    Host.reduce IntOp.ori y init h' hu (ix1 r) = 1#1 ↔ ∃ s : Fin 8192, y (ix2 r s) = 1#1 := by
  rw [Host.reduce_eq_fold_single IntOp.ori y init h' reducesSQ hu, hinit]
  have hf : (y ∘ reducesSQ.lift (ix1 r)) = fun k : Fin 8192 => y (ix2 r k) := funext fun k => congrArg y (lift_row r k)
  have e : (Finset.univ : Finset (Fin (SQ.size 1))).fold IntOp.ori 0#1 (y ∘ reducesSQ.lift (ix1 r))
      = (Finset.univ : Finset (Fin 8192)).fold IntOp.ori 0#1 fun k => y (ix2 r k) :=
    congrArg (fun f => Finset.fold IntOp.ori 0#1 f (Finset.univ : Finset (Fin 8192))) hf
  rw [e, fold_ori_eq_one]
  exact ⟨fun ⟨k, _, hk⟩ => ⟨k, hk⟩, fun ⟨k, hk⟩ => ⟨k, Finset.mem_univ _, hk⟩⟩

end Cert.Triplet

end
-- ==== Proof.RefValue.lean ====
/-
  The reference program's result is the specification's loss.
  At row r the max-reduce of the masked distances is the supremum over the columns s of the clipped root of d(r, s)
  at the positives and ⊥ elsewhere, and the or-reduce of the mask says whether r has a positive at all. When it has
  one, the clip-and-root commutes with the supremum (it is monotone), so the selected value is the clipped root of the
  largest squared distance to a positive; when it has none, the select takes the zero word. Dually for the negatives
  with the infimum, ⊤ and the fallback word. A row's loss and the mean over the rows are then the specification's,
  term by term.
-/
import proofs.«135942_j20263655702978_2_alg».proof.Proof.RefEntry
import proofs.«135942_j20263655702978_2_alg».proof.Proof.RefReduce

noncomputable section

open scoped BigOperators

namespace Cert.ReferenceIdeal.RefValue

open Cert.ReferenceIdeal Cert.ReferenceIdeal.Gen Cert.ReferenceIdeal.ReadP
open Idealize.ShloMosaic Idealize.ShloMosaic.TcCoe Idealize.SL.Sem Idealize.ShloMosaic.ValueIdx
open Cert.Triplet

/-! ## The four reductions at row r -/

theorem negInf_first : (val_main_cst_4 (F := Ideal)) (Shape.Idx.first h_S_) = ⊥ := by
  rw [val_main_cst_4_apply, Ideal.ofBits_def, ofBits_negInf]

theorem posInf_first : (val_main_cst_8 (F := Ideal)) (Shape.Idx.first h_S_) = ⊤ := by
  rw [val_main_cst_8_apply, Ideal.ofBits_def, ofBits_posInf]

/-- The max-reduce at row r: the supremum of the clipped roots over the positives. -/
theorem max_at (x : Feat) (t : Lab) (r : Fin 8192) :
    val_main_v33 (F := Ideal) x t (ix1 r)
      = Finset.univ.sup fun s : Fin 8192 => if IsPos t r s then clipRoot (dist2 x r s) else ⊥ :=
  (reduce_max_row (val_main_v32 (F := Ideal) x t) (val_main_cst_4 (F := Ideal)) reducesTo_S8192x8192_S8192_d1 h_S_
      negInf_first r).trans (Finset.sup_congr rfl fun s _ => pos_entry x t r s)

/-- The min-reduce at row r: the infimum of the clipped roots over the negatives. -/
theorem min_at (x : Feat) (t : Lab) (r : Fin 8192) :
    val_main_v37 (F := Ideal) x t (ix1 r)
      = Finset.univ.inf fun s : Fin 8192 => if IsNeg t r s then clipRoot (dist2 x r s) else ⊤ :=
  (reduce_min_row (val_main_v36 (F := Ideal) x t) (val_main_cst_8 (F := Ideal)) reducesTo_S8192x8192_S8192_d1 h_S_
      posInf_first r).trans (Finset.inf_congr rfl fun s _ => neg_entry x t r s)

/-- The or-reduce of the positives' mask at row r is one exactly when r has a positive. -/
theorem anyPos_at (t : Lab) (r : Fin 8192) : val_main_v34 (F := Ideal) t (ix1 r) = 1#1 ↔ ∃ s, IsPos t r s :=
  (reduce_or_row (val_main_v30 (F := Ideal) t) (val_main_c_5 (F := Ideal)) reducesTo_S8192x8192_S8192_d1 h_S_ rfl r).trans
    (exists_congr fun s => mask_pos t r s)

/-- The or-reduce of the negatives' mask at row r is one exactly when r has a negative. -/
theorem anyNeg_at (t : Lab) (r : Fin 8192) : val_main_v38 (F := Ideal) t (ix1 r) = 1#1 ↔ ∃ s, IsNeg t r s :=
  (reduce_or_row (val_main_v31 (F := Ideal) t) (val_main_c_9 (F := Ideal)) reducesTo_S8192x8192_S8192_d1 h_S_ rfl r).trans
    (exists_congr fun s => mask_neg t r s)

/-! ## The hardest distances, the row's loss, the mean -/

/-- The hardest positive distance of row r. -/
theorem hardPos_at (x : Feat) (t : Lab) (r : Fin 8192) : val_main_v35 (F := Ideal) x t (ix1 r) = hardPos x t r := by
  rw [val_main_v35_apply, select_ite, max_at, val_main_call3_v1_apply, val_main_call3_v0_apply, val_main_cst_6_apply,
    Ideal.ofBits_def]
  unfold hardPos
  by_cases h : ∃ s, IsPos t r s
  · rw [if_pos ((anyPos_at t r).mpr h), if_pos h, clipRoot_sup x t r h]
  · rw [if_neg (fun e => h ((anyPos_at t r).mp e)), if_neg h] <;> rfl

/-- The hardest negative distance of row r. -/
theorem hardNeg_at (x : Feat) (t : Lab) (r : Fin 8192) : val_main_v39 (F := Ideal) x t (ix1 r) = hardNeg x t r := by
  rw [val_main_v39_apply, select_ite, min_at, val_main_call5_v1_apply, val_main_call5_v0_apply, val_main_cst_10_apply,
    Ideal.ofBits_def]
  unfold hardNeg
  by_cases h : ∃ s, IsNeg t r s
  · rw [if_pos ((anyNeg_at t r).mpr h), if_pos h, clipRoot_inf x t r h]
  · rw [if_neg (fun e => h ((anyNeg_at t r).mp e)), if_neg h] <;> rfl

/-- Row r's loss. -/
theorem rowLoss_at (x : Feat) (t : Lab) (r : Fin 8192) : val_main_v44 (F := Ideal) x t (ix1 r) = rowLoss x t r := by
  rw [val_main_v44_apply, val_main_v43_apply, val_main_cst_12_apply, val_main_v42_apply, val_main_v41_apply,
    val_main_cst_11_apply, val_main_v40_apply, hardPos_at, hardNeg_at]
  show max (Ideal.ofBits .f32 0x00000000#32) ((hardPos x t r - hardNeg x t r) + Ideal.ofBits .f32 0x3E99999A#32) = rowLoss x t r
  rfl

/-- A sum over the indices of a vector of 8192 entries is the sum over its 8192 positions. -/
theorem sum_ix1 {M : Type} [AddCommMonoid M] (g : (⟨1, ![8192]⟩ : Shape).Idx → M) : ∑ j, g j = ∑ r : Fin 8192, g (ix1 r) :=
  Fintype.sum_equiv (⟨fun j => j 0, fun r => ix1 r, fun j => (eq_ix1 j).symm, fun _ => rfl⟩ : (⟨1, ![8192]⟩ : Shape).Idx ≃ Fin 8192)
    _ _ fun j => congrArg g (eq_ix1 j)

/-- The mean of the rows' losses. -/
theorem loss_at (x : Feat) (t : Lab) : val_main_v46 (F := Ideal) x t ix0 = loss x t := by
  rw [val_main_v46_apply, val_main_v45_apply, val_main_cst_13_apply, val_main_cst_14_apply, sum_ix1]
  simp only [rowLoss_at, Ideal.hostDivf_def, Ideal.ofBits_def] <;> rfl

/-! ## The result and the run -/

/-- The reference run's result term, at the ideal instance, is the loss of the two arguments. -/
theorem result_eq (m : (ℓ : Loc nD τ sig) → Buf (Elt Ideal) ℓ) (c : Dev nD) :
    ValueP.res_out0 (F := Ideal) m c
      = fun _ => Cert.Triplet.loss (m ((c.tc : Thread nD τ).loc main_arg0)) (m ((c.tc : Thread nD τ).loc main_arg1)) := by
  funext i
  show ValueP.res_main_v46 m c i = _
  rw [val_main_v46_eq, eq_ix0 i]
  exact loss_at _ _

/-- Every weakly fair execution of the reference's @main terminates with its result at the loss of the arguments
    and the arguments unchanged. -/
theorem run_spec (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v46)
        = (fun _ => Cert.Triplet.loss (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (result_eq m c), (h c).2⟩) (ValueP.run (F := Ideal) m ρ)

end Cert.ReferenceIdeal.RefValue

end
-- ==== Proof.lean ====
/-
  The certificate's five claims.

  The kernel computes a hard-mining triplet margin loss over an 8×8 grid of 1024×1024 tiles of the pairwise squared
  distances of the unit-scaled rows: per row it keeps the largest squared distance to a row of the same label and the
  smallest to a row of another label in scratch accumulators across the eight column tiles, clips at ε and takes the
  root once per row at the last column tile, and the host takes the mean. The reference clips and takes the root of
  every entry of the whole 8192×8192 matrix first and the extrema afterwards. Since y ↦ √(max ε y) is monotone, it
  commutes with a maximum or minimum over a nonempty set, and where a row has no positive (no negative) both programs
  select the same fallback constant: over the extended reals the two results are one number, the specification's loss.

  The three frames: each program terminates on every weakly fair execution, faults nowhere and leaves its arguments
  unchanged — for the kernel (word level and idealized) by the run of its four segments, for the reference by its run
  read back. The idealization rewrote no operation, so the preservation claim has no conjunct.
-/
import proofs.«135942_j20263655702978_2_alg».proof.Defs
import proofs.«135942_j20263655702978_2_alg».proof.Proof.Gen.Kernel
import proofs.«135942_j20263655702978_2_alg».proof.Proof.Gen.KernelIdeal
import proofs.«135942_j20263655702978_2_alg».proof.Proof.Gen.ReferenceIdeal
import proofs.«135942_j20263655702978_2_alg».proof.Proof.Gen.Pre_finite_inputs
import proofs.«135942_j20263655702978_2_alg».proof.Proof.BitFrame
import proofs.«135942_j20263655702978_2_alg».proof.Proof.KerValue
import proofs.«135942_j20263655702978_2_alg».proof.Proof.RefValue

noncomputable section

namespace Cert.Proof

open Idealize.ShloMosaic Idealize.SL.Sem

theorem frame_kernel : Cert.frame_Kernel :=
  fun m ρ _ => Cert.Kernel.Run.frame (F := Bits) m ρ

theorem frame_ideal : Cert.frame_KernelIdeal :=
  fun m ρ _ => Cert.KernelIdeal.Run.frame (F := Ideal) m ρ

theorem frame_reference : Cert.frame_ReferenceIdeal :=
  fun m ρ _ => (θ_run Cert.ReferenceIdeal.defs _ _).mono (fun _ h c => (h c).2) (Cert.ReferenceIdeal.ValueP.run (F := Ideal) m ρ)

/-- Both idealized programs end at the specification's loss of arguments that agree. -/
theorem algebraic : Cert.algebraic_KernelIdeal_ReferenceIdeal := by
  intro m ρ m' ρ' _ hagree
  refine ⟨fun c => fun _ => Cert.Triplet.loss (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), Cert.KernelIdeal.Run.run_spec m ρ, ?_⟩
  refine (θ_run Cert.ReferenceIdeal.defs _ _).mono (fun _ h c => ⟨?_, (h c).2⟩) (Cert.ReferenceIdeal.RefValue.run_spec m' ρ')
  rw [(h c).1, (hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
